-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_v278) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S64x512 : Shape := ⟨2, ![64, 512]⟩
abbrev S6x512x512 : Shape := ⟨3, ![6, 512, 512]⟩
abbrev S6x512 : Shape := ⟨2, ![6, 512]⟩
abbrev S3x512x512 : Shape := ⟨3, ![3, 512, 512]⟩
abbrev S3x512 : Shape := ⟨2, ![3, 512]⟩
abbrev S3x2x512x512 : Shape := ⟨4, ![3, 2, 512, 512]⟩
abbrev S3x2x512 : Shape := ⟨3, ![3, 2, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S6x512x512 : S_.BroadcastsInDim S6x512x512 (![] : Fin 0 → Fin S6x512x512.rank)
  reducesTo_S6x512x512_S_d0_1_2 : S6x512x512.ReducesTo [0, 1, 2] S_
  bcast_S_S6x512 : S_.BroadcastsInDim S6x512 (![] : Fin 0 → Fin S6x512.rank)
  reducesTo_S6x512_S_d0_1 : S6x512.ReducesTo [0, 1] S_
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_
  bcast_S_S3x2x512x512 : S_.BroadcastsInDim S3x2x512x512 (![] : Fin 0 → Fin S3x2x512x512.rank)
  reducesTo_S3x2x512x512_S_d0_1_2_3 : S3x2x512x512.ReducesTo [0, 1, 2, 3] S_
  bcast_S_S3x2x512 : S_.BroadcastsInDim S3x2x512 (![] : Fin 0 → Fin S3x2x512.rank)
  reducesTo_S3x2x512_S_d0_1_2 : S3x2x512.ReducesTo [0, 1, 2] S_
  reducesTo_S64x512x512_S64x512_d2 : S64x512x512.ReducesTo [2] S64x512

variable [Facts]

def fn_part5 {F : FTy → Type} [FloatOps F] (main_arg5 : FVec F S64x512x512 .f32) (main_arg6 : FVec F S64x512x512 .f32) (main_v78 : IVec S_ 1) (main_v83 : IVec S64x512 1) (main_c_33 : IVec S_ 1) : IVec S_ 1 :=
  let main_v84 : IVec S_ 1 := (fun x v => Host.reduce IntOp.andi x v reducesTo_S64x512_S_d0_1 h_S_) main_v83 main_c_33
  let main_v85 : IVec S_ 1 := andi main_v78 main_v84
  let main_cst_34 : FVec F S_ .f32 := constant S_ .f32 0x00000000#32
  let main_v86 : FVec F S64x512 .f32 := (fun x v => Host.reduceAdd x v reducesTo_S64x512x512_S64x512_d2 h_S_) main_arg5 main_cst_34
  let main_cst_35 : FVec F S_ .f32 := constant S_ .f32 0x2EDBE6FF#32
  let main_v87 : FVec F S64x512 .f32 := broadcastInDim S64x512 ![] bcast_S_S64x512 main_cst_35
  let main_v88 : FVec F S64x512 .f32 := addf main_v86 main_v87
  let main_cst_36 : FVec F S_ .f32 := constant S_ .f32 0x00000000#32
  let main_v89 : FVec F S64x512 .f32 := broadcastInDim S64x512 ![] bcast_S_S64x512 main_cst_36
  let main_v90 : IVec S64x512 1 := cmpf .une main_v88 main_v89
  let main_c_37 : IVec S_ 1 := constantI S_ 1 1#1
  let main_v91 : IVec S_ 1 := (fun x v => Host.reduce IntOp.andi x v reducesTo_S64x512_S_d0_1 h_S_) main_v90 main_c_37
  let main_v92 : IVec S_ 1 := andi main_v85 main_v91
  let main_cst_38 : FVec F S_ .f32 := constant S_ .f32 0x00000000#32
  let main_v93 : FVec F S64x512 .f32 := (fun x v => Host.reduceAdd x v reducesTo_S64x512x512_S64x512_d2 h_S_) main_arg6 main_cst_38
  let main_cst_39 : FVec F S_ .f32 := constant S_ .f32 0x2EDBE6FF#32
  let main_v94 : FVec F S64x512 .f32 := broadcastInDim S64x512 ![] bcast_S_S64x512 main_cst_39
  let main_v95 : FVec F S64x512 .f32 := addf main_v93 main_v94
  let main_cst_40 : FVec F S_ .f32 := constant S_ .f32 0x00000000#32
  let main_v96 : FVec F S64x512 .f32 := broadcastInDim S64x512 ![] bcast_S_S64x512 main_cst_40
  let main_v97 : IVec S64x512 1 := cmpf .une main_v95 main_v96
  let main_c_41 : IVec S_ 1 := constantI S_ 1 1#1
  let main_v98 : IVec S_ 1 := (fun x v => Host.reduce IntOp.andi x v reducesTo_S64x512_S_d0_1 h_S_) main_v97 main_c_41
  let main_v99 : IVec S_ 1 := andi main_v92 main_v98
  main_v99

def fn_part4 {F : FTy → Type} [FloatOps F] (main_arg4 : FVec F S64x512x512 .f32) (main_arg5 : FVec F S64x512x512 .f32) (main_arg6 : FVec F S64x512x512 .f32) (main_arg14 : FVec F S3x2x512x512 .f32) (main_arg15 : FVec F S3x2x512 .f32) (main_v63 : IVec S_ 1) (main_v67 : IVec S_ 1) : IVec S_ 1 :=
  let main_v68 : IVec S_ 1 := andi main_v63 main_v67
  let main_v69 : FVec F S3x2x512x512 .f32 := Host.absf main_arg14
  let main_cst_26 : FVec F S_ .f32 := constant S_ .f32 0x7F800000#32
  let main_v70 : FVec F S3x2x512x512 .f32 := broadcastInDim S3x2x512x512 ![] bcast_S_S3x2x512x512 main_cst_26
  let main_v71 : IVec S3x2x512x512 1 := cmpf .olt main_v69 main_v70
  let main_c_27 : IVec S_ 1 := constantI S_ 1 1#1
  let main_v72 : IVec S_ 1 := (fun x v => Host.reduce IntOp.andi x v reducesTo_S3x2x512x512_S_d0_1_2_3 h_S_) main_v71 main_c_27
  let main_v73 : IVec S_ 1 := andi main_v68 main_v72
  let main_v74 : FVec F S3x2x512 .f32 := Host.absf main_arg15
  let main_cst_28 : FVec F S_ .f32 := constant S_ .f32 0x7F800000#32
  let main_v75 : FVec F S3x2x512 .f32 := broadcastInDim S3x2x512 ![] bcast_S_S3x2x512 main_cst_28
  let main_v76 : IVec S3x2x512 1 := cmpf .olt main_v74 main_v75
  let main_c_29 : IVec S_ 1 := constantI S_ 1 1#1
  let main_v77 : IVec S_ 1 := (fun x v => Host.reduce IntOp.andi x v reducesTo_S3x2x512_S_d0_1_2 h_S_) main_v76 main_c_29
  let main_v78 : IVec S_ 1 := andi main_v73 main_v77
  let main_cst_30 : FVec F S_ .f32 := constant S_ .f32 0x00000000#32
  let main_v79 : FVec F S64x512 .f32 := (fun x v => Host.reduceAdd x v reducesTo_S64x512x512_S64x512_d2 h_S_) main_arg4 main_cst_30
  let main_cst_31 : FVec F S_ .f32 := constant S_ .f32 0x2EDBE6FF#32
  let main_v80 : FVec F S64x512 .f32 := broadcastInDim S64x512 ![] bcast_S_S64x512 main_cst_31
  let main_v81 : FVec F S64x512 .f32 := addf main_v79 main_v80
  let main_cst_32 : FVec F S_ .f32 := constant S_ .f32 0x00000000#32
  let main_v82 : FVec F S64x512 .f32 := broadcastInDim S64x512 ![] bcast_S_S64x512 main_cst_32
  let main_v83 : IVec S64x512 1 := cmpf .une main_v81 main_v82
  let main_c_33 : IVec S_ 1 := constantI S_ 1 1#1
  fn_part5 (F := F) main_arg5 main_arg6 main_v78 main_v83 main_c_33

def fn_part3 {F : FTy → Type} [FloatOps F] (main_arg4 : FVec F S64x512x512 .f32) (main_arg5 : FVec F S64x512x512 .f32) (main_arg6 : FVec F S64x512x512 .f32) (main_arg11 : FVec F S6x512 .f32) (main_arg12 : FVec F S3x512x512 .f32) (main_arg13 : FVec F S3x512 .f32) (main_arg14 : FVec F S3x2x512x512 .f32) (main_arg15 : FVec F S3x2x512 .f32) (main_v48 : IVec S_ 1) (main_v49 : FVec F S6x512x512 .f32) (main_v50 : FVec F S6x512x512 .f32) : IVec S_ 1 :=
  let main_v51 : IVec S6x512x512 1 := cmpf .olt main_v49 main_v50
  let main_c_19 : IVec S_ 1 := constantI S_ 1 1#1
  let main_v52 : IVec S_ 1 := (fun x v => Host.reduce IntOp.andi x v reducesTo_S6x512x512_S_d0_1_2 h_S_) main_v51 main_c_19
  let main_v53 : IVec S_ 1 := andi main_v48 main_v52
  let main_v54 : FVec F S6x512 .f32 := Host.absf main_arg11
  let main_cst_20 : FVec F S_ .f32 := constant S_ .f32 0x7F800000#32
  let main_v55 : FVec F S6x512 .f32 := broadcastInDim S6x512 ![] bcast_S_S6x512 main_cst_20
  let main_v56 : IVec S6x512 1 := cmpf .olt main_v54 main_v55
  let main_c_21 : IVec S_ 1 := constantI S_ 1 1#1
  let main_v57 : IVec S_ 1 := (fun x v => Host.reduce IntOp.andi x v reducesTo_S6x512_S_d0_1 h_S_) main_v56 main_c_21
  let main_v58 : IVec S_ 1 := andi main_v53 main_v57
  let main_v59 : FVec F S3x512x512 .f32 := Host.absf main_arg12
  let main_cst_22 : FVec F S_ .f32 := constant S_ .f32 0x7F800000#32
  let main_v60 : FVec F S3x512x512 .f32 := broadcastInDim S3x512x512 ![] bcast_S_S3x512x512 main_cst_22
  let main_v61 : IVec S3x512x512 1 := cmpf .olt main_v59 main_v60
  let main_c_23 : IVec S_ 1 := constantI S_ 1 1#1
  let main_v62 : IVec S_ 1 := (fun x v => Host.reduce IntOp.andi x v reducesTo_S3x512x512_S_d0_1_2 h_S_) main_v61 main_c_23
  let main_v63 : IVec S_ 1 := andi main_v58 main_v62
  let main_v64 : FVec F S3x512 .f32 := Host.absf main_arg13
  let main_cst_24 : FVec F S_ .f32 := constant S_ .f32 0x7F800000#32
  let main_v65 : FVec F S3x512 .f32 := broadcastInDim S3x512 ![] bcast_S_S3x512 main_cst_24
  let main_v66 : IVec S3x512 1 := cmpf .olt main_v64 main_v65
  let main_c_25 : IVec S_ 1 := constantI S_ 1 1#1
  let main_v67 : IVec S_ 1 := (fun x v => Host.reduce IntOp.andi x v reducesTo_S3x512_S_d0_1 h_S_) main_v66 main_c_25
  fn_part4 (F := F) main_arg4 main_arg5 main_arg6 main_arg14 main_arg15 main_v63 main_v67

def fn_part2 {F : FTy → Type} [FloatOps F] (main_arg4 : FVec F S64x512x512 .f32) (main_arg5 : FVec F S64x512x512 .f32) (main_arg6 : FVec F S64x512x512 .f32) (main_arg7 : FVec F S64x512x512 .f32) (main_arg8 : FVec F S64x512x512 .f32) (main_arg9 : FVec F S64x512x512 .f32) (main_arg10 : FVec F S6x512x512 .f32) (main_arg11 : FVec F S6x512 .f32) (main_arg12 : FVec F S3x512x512 .f32) (main_arg13 : FVec F S3x512 .f32) (main_arg14 : FVec F S3x2x512x512 .f32) (main_arg15 : FVec F S3x2x512 .f32) (main_v33 : IVec S_ 1) : IVec S_ 1 :=
  let main_v34 : FVec F S64x512x512 .f32 := Host.absf main_arg7
  let main_cst_12 : FVec F S_ .f32 := constant S_ .f32 0x7F800000#32
  let main_v35 : FVec F S64x512x512 .f32 := broadcastInDim S64x512x512 ![] bcast_S_S64x512x512 main_cst_12
  let main_v36 : IVec S64x512x512 1 := cmpf .olt main_v34 main_v35
  let main_c_13 : IVec S_ 1 := constantI S_ 1 1#1
  let main_v37 : IVec S_ 1 := (fun x v => Host.reduce IntOp.andi x v reducesTo_S64x512x512_S_d0_1_2 h_S_) main_v36 main_c_13
  let main_v38 : IVec S_ 1 := andi main_v33 main_v37
  let main_v39 : FVec F S64x512x512 .f32 := Host.absf main_arg8
  let main_cst_14 : FVec F S_ .f32 := constant S_ .f32 0x7F800000#32
  let main_v40 : FVec F S64x512x512 .f32 := broadcastInDim S64x512x512 ![] bcast_S_S64x512x512 main_cst_14
  let main_v41 : IVec S64x512x512 1 := cmpf .olt main_v39 main_v40
  let main_c_15 : IVec S_ 1 := constantI S_ 1 1#1
  let main_v42 : IVec S_ 1 := (fun x v => Host.reduce IntOp.andi x v reducesTo_S64x512x512_S_d0_1_2 h_S_) main_v41 main_c_15
  let main_v43 : IVec S_ 1 := andi main_v38 main_v42
  let main_v44 : FVec F S64x512x512 .f32 := Host.absf main_arg9
  let main_cst_16 : FVec F S_ .f32 := constant S_ .f32 0x7F800000#32
  let main_v45 : FVec F S64x512x512 .f32 := broadcastInDim S64x512x512 ![] bcast_S_S64x512x512 main_cst_16
  let main_v46 : IVec S64x512x512 1 := cmpf .olt main_v44 main_v45
  let main_c_17 : IVec S_ 1 := constantI S_ 1 1#1
  let main_v47 : IVec S_ 1 := (fun x v => Host.reduce IntOp.andi x v reducesTo_S64x512x512_S_d0_1_2 h_S_) main_v46 main_c_17
  let main_v48 : IVec S_ 1 := andi main_v43 main_v47
  let main_v49 : FVec F S6x512x512 .f32 := Host.absf main_arg10
  let main_cst_18 : FVec F S_ .f32 := constant S_ .f32 0x7F800000#32
  let main_v50 : FVec F S6x512x512 .f32 := broadcastInDim S6x512x512 ![] bcast_S_S6x512x512 main_cst_18
  fn_part3 (F := F) main_arg4 main_arg5 main_arg6 main_arg11 main_arg12 main_arg13 main_arg14 main_arg15 main_v48 main_v49 main_v50

def fn_part1 {F : FTy → Type} [FloatOps F] (main_arg4 : FVec F S64x512x512 .f32) (main_arg5 : FVec F S64x512x512 .f32) (main_arg6 : FVec F S64x512x512 .f32) (main_arg7 : FVec F S64x512x512 .f32) (main_arg8 : FVec F S64x512x512 .f32) (main_arg9 : FVec F S64x512x512 .f32) (main_arg10 : FVec F S6x512x512 .f32) (main_arg11 : FVec F S6x512 .f32) (main_arg12 : FVec F S3x512x512 .f32) (main_arg13 : FVec F S3x512 .f32) (main_arg14 : FVec F S3x2x512x512 .f32) (main_arg15 : FVec F S3x2x512 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S64x512x512 .f32 := Host.absf main_arg4
  let main_cst_6 : FVec F S_ .f32 := constant S_ .f32 0x7F800000#32
  let main_v20 : FVec F S64x512x512 .f32 := broadcastInDim S64x512x512 ![] bcast_S_S64x512x512 main_cst_6
  let main_v21 : IVec S64x512x512 1 := cmpf .olt main_v19 main_v20
  let main_c_7 : IVec S_ 1 := constantI S_ 1 1#1
  let main_v22 : IVec S_ 1 := (fun x v => Host.reduce IntOp.andi x v reducesTo_S64x512x512_S_d0_1_2 h_S_) main_v21 main_c_7
  let main_v23 : IVec S_ 1 := andi main_v18 main_v22
  let main_v24 : FVec F S64x512x512 .f32 := Host.absf main_arg5
  let main_cst_8 : FVec F S_ .f32 := constant S_ .f32 0x7F800000#32
  let main_v25 : FVec F S64x512x512 .f32 := broadcastInDim S64x512x512 ![] bcast_S_S64x512x512 main_cst_8
  let main_v26 : IVec S64x512x512 1 := cmpf .olt main_v24 main_v25
  let main_c_9 : IVec S_ 1 := constantI S_ 1 1#1
  let main_v27 : IVec S_ 1 := (fun x v => Host.reduce IntOp.andi x v reducesTo_S64x512x512_S_d0_1_2 h_S_) main_v26 main_c_9
  let main_v28 : IVec S_ 1 := andi main_v23 main_v27
  let main_v29 : FVec F S64x512x512 .f32 := Host.absf main_arg6
  let main_cst_10 : FVec F S_ .f32 := constant S_ .f32 0x7F800000#32
  let main_v30 : FVec F S64x512x512 .f32 := broadcastInDim S64x512x512 ![] bcast_S_S64x512x512 main_cst_10
  let main_v31 : IVec S64x512x512 1 := cmpf .olt main_v29 main_v30
  let main_c_11 : IVec S_ 1 := constantI S_ 1 1#1
  let main_v32 : IVec S_ 1 := (fun x v => Host.reduce IntOp.andi x v reducesTo_S64x512x512_S_d0_1_2 h_S_) main_v31 main_c_11
  let main_v33 : IVec S_ 1 := andi main_v28 main_v32
  fn_part2 (F := F) main_arg4 main_arg5 main_arg6 main_arg7 main_arg8 main_arg9 main_arg10 main_arg11 main_arg12 main_arg13 main_arg14 main_arg15 main_v33

def fn {F : FTy → Type} [FloatOps F] (main_arg0 : FVec F S64x512x512 .f32) (main_arg1 : FVec F S64x512x512 .f32) (main_arg2 : FVec F S64x512 .f32) (main_arg3 : FVec F S64x512 .f32) (main_arg4 : FVec F S64x512x512 .f32) (main_arg5 : FVec F S64x512x512 .f32) (main_arg6 : FVec F S64x512x512 .f32) (main_arg7 : FVec F S64x512x512 .f32) (main_arg8 : FVec F S64x512x512 .f32) (main_arg9 : FVec F S64x512x512 .f32) (main_arg10 : FVec F S6x512x512 .f32) (main_arg11 : FVec F S6x512 .f32) (main_arg12 : FVec F S3x512x512 .f32) (main_arg13 : FVec F S3x512 .f32) (main_arg14 : FVec F S3x2x512x512 .f32) (main_arg15 : FVec F S3x2x512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S64x512x512 : Shape := ⟨3, ![64, 512, 512]⟩
abbrev S64x512 : Shape := ⟨2, ![64, 512]⟩
abbrev S6x512x512 : Shape := ⟨3, ![6, 512, 512]⟩
abbrev S6x512 : Shape := ⟨2, ![6, 512]⟩
abbrev S3x512x512 : Shape := ⟨3, ![3, 512, 512]⟩
abbrev S3x512 : Shape := ⟨2, ![3, 512]⟩
abbrev S3x2x512x512 : Shape := ⟨4, ![3, 2, 512, 512]⟩
abbrev S3x2x512 : Shape := ⟨3, ![3, 2, 512]⟩
abbrev S64x512x1 : Shape := ⟨3, ![64, 512, 1]⟩
abbrev S1x512x512 : Shape := ⟨3, ![1, 512, 512]⟩
abbrev S1x512x1 : Shape := ⟨3, ![1, 512, 1]⟩
abbrev S512x1 : Shape := ⟨2, ![512, 1]⟩
abbrev S512x512 : Shape := ⟨2, ![512, 512]⟩
abbrev S512 : Shape := ⟨1, ![512]⟩
abbrev S1x512 : Shape := ⟨2, ![1, 512]⟩
abbrev S1x1x512x512 : Shape := ⟨4, ![1, 1, 512, 512]⟩
abbrev S1x1x512 : Shape := ⟨3, ![1, 1, 512]⟩

abbrev nBuf : Space → Nat
  | .hbm => 29
  | .vmem => 30
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S64x512, .f32⟩
  | .hbm, ⟨3, _⟩ => ⟨S64x512, .f32⟩
  | .hbm, ⟨4, _⟩ => ⟨S64x512x512, .f32⟩
  | .hbm, ⟨5, _⟩ => ⟨S64x512x512, .f32⟩
  | .hbm, ⟨6, _⟩ => ⟨S64x512x512, .f32⟩
  | .hbm, ⟨7, _⟩ => ⟨S64x512x512, .f32⟩
  | .hbm, ⟨8, _⟩ => ⟨S64x512x512, .f32⟩
  | .hbm, ⟨9, _⟩ => ⟨S64x512x512, .f32⟩
  | .hbm, ⟨10, _⟩ => ⟨S6x512x512, .f32⟩
  | .hbm, ⟨11, _⟩ => ⟨S6x512, .f32⟩
  | .hbm, ⟨12, _⟩ => ⟨S3x512x512, .f32⟩
  | .hbm, ⟨13, _⟩ => ⟨S3x512, .f32⟩
  | .hbm, ⟨14, _⟩ => ⟨S3x2x512x512, .f32⟩
  | .hbm, ⟨15, _⟩ => ⟨S3x2x512, .f32⟩
  | .hbm, ⟨16, _⟩ => ⟨S6x512x512, .f32⟩
  | .hbm, ⟨17, _⟩ => ⟨S6x512x512, .bf16⟩
  | .hbm, ⟨18, _⟩ => ⟨S3x512x512, .f32⟩
  | .hbm, ⟨19, _⟩ => ⟨S3x512x512, .bf16⟩
  | .hbm, ⟨20, _⟩ => ⟨S3x2x512x512, .f32⟩
  | .hbm, ⟨21, _⟩ => ⟨S3x2x512x512, .bf16⟩
  | .hbm, ⟨22, _⟩ => ⟨S64x512x1, .f32⟩
  | .hbm, ⟨23, _⟩ => ⟨S64x512x1, .f32⟩
  | .hbm, ⟨24, _⟩ => ⟨S64x512x512, .bf16⟩
  | .hbm, ⟨25, _⟩ => ⟨S64x512x512, .bf16⟩
  | .hbm, ⟨26, _⟩ => ⟨S64x512x512, .bf16⟩
  | .hbm, ⟨27, _⟩ => ⟨S64x512x512, .f32⟩
  | .hbm, ⟨28, _⟩ => ⟨S64x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S6x512x512, .bf16⟩
  | .local _ .vmem, ⟨21, _⟩ => ⟨S6x512, .f32⟩
  | .local _ .vmem, ⟨22, _⟩ => ⟨S3x512x512, .bf16⟩
  | .local _ .vmem, ⟨23, _⟩ => ⟨S3x512, .f32⟩
  | .local _ .vmem, ⟨24, _⟩ => ⟨S3x2x512x512, .bf16⟩
  | .local _ .vmem, ⟨25, _⟩ => ⟨S3x2x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S6x512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x2x512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x2x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  transposes_S6x512x512_S6x512x512_0_2_1 : S6x512x512.Transposes [0, 2, 1] S6x512x512
  bitsLt_bf16_f32 : FTy.bits .bf16 < FTy.bits .f32
  transposes_S3x512x512_S3x512x512_0_2_1 : S3x512x512.Transposes [0, 2, 1] S3x512x512
  transposes_S3x2x512x512_S3x2x512x512_0_1_3_2 : S3x2x512x512.Transposes [0, 1, 3, 2] S3x2x512x512
  shapeCasts_S64x512_S64x512x1 : S64x512.ShapeCasts S64x512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  broadcasts_S512x1_S512x512 : S512x1.Broadcasts S512x512
  inb_S6x512x512_S1x512x512_0_0_0 : ∀ a, (![0, 0, 0] : Fin 3 → Nat) a + S1x512x512.size a ≤ S6x512x512.size a
  inb_S6x512_S1x512_0_0 : ∀ a, (![0, 0] : Fin 2 → Nat) a + S1x512.size a ≤ S6x512.size a
  h_S1x512 : 0 < S1x512.numel
  shapeCasts_S1x512_S512 : S1x512.ShapeCasts S512
  shapeCasts_S512_S1x512 : S512.ShapeCasts S1x512
  broadcasts_S1x512_S512x512 : S1x512.Broadcasts S512x512
  inb_S6x512x512_S1x512x512_1_0_0 : ∀ a, (![1, 0, 0] : Fin 3 → Nat) a + S1x512x512.size a ≤ S6x512x512.size a
  inb_S6x512_S1x512_1_0 : ∀ a, (![1, 0] : Fin 2 → Nat) a + S1x512.size a ≤ S6x512.size a
  inb_S6x512x512_S1x512x512_2_0_0 : ∀ a, (![2, 0, 0] : Fin 3 → Nat) a + S1x512x512.size a ≤ S6x512x512.size a
  inb_S6x512_S1x512_2_0 : ∀ a, (![2, 0] : Fin 2 → Nat) a + S1x512.size a ≤ S6x512.size a
  inb_S3x512x512_S1x512x512_0_0_0 : ∀ a, (![0, 0, 0] : Fin 3 → Nat) a + S1x512x512.size a ≤ S3x512x512.size a
  inb_S3x512_S1x512_0_0 : ∀ a, (![0, 0] : Fin 2 → Nat) a + S1x512.size a ≤ S3x512.size a
  inb_S3x2x512x512_S1x1x512x512_0_0_0_0 : ∀ a, (![0, 0, 0, 0] : Fin 4 → Nat) a + S1x1x512x512.size a ≤ S3x2x512x512.size a
  h_S1x1x512x512 : 0 < S1x1x512x512.numel
  shapeCasts_S1x1x512x512_S512x512 : S1x1x512x512.ShapeCasts S512x512
  inb_S3x2x512_S1x1x512_0_0_0 : ∀ a, (![0, 0, 0] : Fin 3 → Nat) a + S1x1x512.size a ≤ S3x2x512.size a
  h_S1x1x512 : 0 < S1x1x512.numel
  shapeCasts_S1x1x512_S512 : S1x1x512.ShapeCasts S512
  inb_S3x2x512x512_S1x1x512x512_0_1_0_0 : ∀ a, (![0, 1, 0, 0] : Fin 4 → Nat) a + S1x1x512x512.size a ≤ S3x2x512x512.size a
  inb_S3x2x512_S1x1x512_0_1_0 : ∀ a, (![0, 1, 0] : Fin 3 → Nat) a + S1x1x512.size a ≤ S3x2x512.size a
  inb_S6x512x512_S1x512x512_3_0_0 : ∀ a, (![3, 0, 0] : Fin 3 → Nat) a + S1x512x512.size a ≤ S6x512x512.size a
  inb_S6x512_S1x512_3_0 : ∀ a, (![3, 0] : Fin 2 → Nat) a + S1x512.size a ≤ S6x512.size a
  inb_S6x512x512_S1x512x512_4_0_0 : ∀ a, (![4, 0, 0] : Fin 3 → Nat) a + S1x512x512.size a ≤ S6x512x512.size a
  inb_S6x512_S1x512_4_0 : ∀ a, (![4, 0] : Fin 2 → Nat) a + S1x512.size a ≤ S6x512.size a
  inb_S3x512x512_S1x512x512_1_0_0 : ∀ a, (![1, 0, 0] : Fin 3 → Nat) a + S1x512x512.size a ≤ S3x512x512.size a
  inb_S3x512_S1x512_1_0 : ∀ a, (![1, 0] : Fin 2 → Nat) a + S1x512.size a ≤ S3x512.size a
  inb_S3x2x512x512_S1x1x512x512_1_0_0_0 : ∀ a, (![1, 0, 0, 0] : Fin 4 → Nat) a + S1x1x512x512.size a ≤ S3x2x512x512.size a
  inb_S3x2x512_S1x1x512_1_0_0 : ∀ a, (![1, 0, 0] : Fin 3 → Nat) a + S1x1x512.size a ≤ S3x2x512.size a
  inb_S3x2x512x512_S1x1x512x512_1_1_0_0 : ∀ a, (![1, 1, 0, 0] : Fin 4 → Nat) a + S1x1x512x512.size a ≤ S3x2x512x512.size a
  inb_S3x2x512_S1x1x512_1_1_0 : ∀ a, (![1, 1, 0] : Fin 3 → Nat) a + S1x1x512.size a ≤ S3x2x512.size a
  inb_S6x512x512_S1x512x512_5_0_0 : ∀ a, (![5, 0, 0] : Fin 3 → Nat) a + S1x512x512.size a ≤ S6x512x512.size a
  inb_S6x512_S1x512_5_0 : ∀ a, (![5, 0] : Fin 2 → Nat) a + S1x512.size a ≤ S6x512.size a
  inb_S3x512x512_S1x512x512_2_0_0 : ∀ a, (![2, 0, 0] : Fin 3 → Nat) a + S1x512x512.size a ≤ S3x512x512.size a
  inb_S3x512_S1x512_2_0 : ∀ a, (![2, 0] : Fin 2 → Nat) a + S1x512.size a ≤ S3x512.size a
  inb_S3x2x512x512_S1x1x512x512_2_0_0_0 : ∀ a, (![2, 0, 0, 0] : Fin 4 → Nat) a + S1x1x512x512.size a ≤ S3x2x512x512.size a
  inb_S3x2x512_S1x1x512_2_0_0 : ∀ a, (![2, 0, 0] : Fin 3 → Nat) a + S1x1x512.size a ≤ S3x2x512.size a
  inb_S3x2x512x512_S1x1x512x512_2_1_0_0 : ∀ a, (![2, 1, 0, 0] : Fin 4 → Nat) a + S1x1x512x512.size a ≤ S3x2x512x512.size a
  inb_S3x2x512_S1x1x512_2_1_0 : ∀ a, (![2, 1, 0] : Fin 3 → Nat) a + S1x1x512.size a ≤ S3x2x512.size a
  shapeCasts_S512x512_S1x512x512 : S512x512.ShapeCasts S1x512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .f32 = 32 ∨ (Rect.block (s := S64x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S64x512x1.size a
  hwx0_2 : ∀ i : grid0.Coords, EltTy.bits .f32 = 32 ∨ (Rect.block (s := S64x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S64x512x1.size a
  hwx0_3 : ∀ i : grid0.Coords, EltTy.bits .f32 = 32 ∨ (Rect.block (s := S64x512x1) S1x512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S64x512x512.size a
  hwx0_4 : ∀ i : grid0.Coords, EltTy.bits .f32 = 32 ∨ (Rect.block (s := S64x512x512) S1x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S64x512x512.size a
  hwx0_5 : ∀ i : grid0.Coords, EltTy.bits .f32 = 32 ∨ (Rect.block (s := S64x512x512) S1x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S64x512x512.size a
  hwx0_6 : ∀ i : grid0.Coords, EltTy.bits .f32 = 32 ∨ (Rect.block (s := S64x512x512) S1x512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x512.size a ≤ S64x512x512.size a
  hwx0_7 : ∀ i : grid0.Coords, EltTy.bits .bf16 = 32 ∨ (Rect.block (s := S64x512x512) S1x512x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x512.size a ≤ S64x512x512.size a
  hwx0_8 : ∀ i : grid0.Coords, EltTy.bits .bf16 = 32 ∨ (Rect.block (s := S64x512x512) S1x512x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x512.size a ≤ S64x512x512.size a
  hwx0_9 : ∀ i : grid0.Coords, EltTy.bits .bf16 = 32 ∨ (Rect.block (s := S64x512x512) S1x512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S6x512x512.size a ≤ S6x512x512.size a
  hwx0_10 : ∀ i : grid0.Coords, EltTy.bits .bf16 = 32 ∨ (Rect.block (s := S6x512x512) S6x512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S6x512.size a ≤ S6x512.size a
  hwx0_11 : ∀ i : grid0.Coords, EltTy.bits .f32 = 32 ∨ (Rect.block (s := S6x512) S6x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S3x512x512.size a ≤ S3x512x512.size a
  hwx0_12 : ∀ i : grid0.Coords, EltTy.bits .bf16 = 32 ∨ (Rect.block (s := S3x512x512) S3x512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S3x512.size a ≤ S3x512.size a
  hwx0_13 : ∀ i : grid0.Coords, EltTy.bits .f32 = 32 ∨ (Rect.block (s := S3x512) S3x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S3x2x512x512.size a ≤ S3x2x512x512.size a
  hwx0_14 : ∀ i : grid0.Coords, EltTy.bits .bf16 = 32 ∨ (Rect.block (s := S3x2x512x512) S3x2x512x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S3x2x512.size a ≤ S3x2x512.size a
  hwx0_15 : ∀ i : grid0.Coords, EltTy.bits .f32 = 32 ∨ (Rect.block (s := S3x2x512) S3x2x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x512x512.size a ≤ S64x512x512.size a
  hwx0_16 : ∀ i : grid0.Coords, EltTy.bits .f32 = 32 ∨ (Rect.block (s := S64x512x512) S1x512x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x512x512.size a ≤ S64x512x512.size a
  hwx0_17 : ∀ i : grid0.Coords, EltTy.bits .f32 = 32 ∨ (Rect.block (s := S64x512x512) S1x512x512.size (cc0_transform_17 i) (hinb0_17 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x512x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x512x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x512x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1) S6x512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S6x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S3x512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S3x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S3x2x512x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S3x2x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v11_0) S1x512x512.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v11_1) S1x512x512.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S64x512 : Shape := ⟨2, ![64, 512]⟩
abbrev S6x512x512 : Shape := ⟨3, ![6, 512, 512]⟩
abbrev S6x512 : Shape := ⟨2, ![6, 512]⟩
abbrev S3x512x512 : Shape := ⟨3, ![3, 512, 512]⟩
abbrev S3x512 : Shape := ⟨2, ![3, 512]⟩
abbrev S3x2x512x512 : Shape := ⟨4, ![3, 2, 512, 512]⟩
abbrev S3x2x512 : Shape := ⟨3, ![3, 2, 512]⟩
abbrev S_ : Shape := ⟨0, ![]⟩
abbrev S64x512x1 : Shape := ⟨3, ![64, 512, 1]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x1x512 : Shape := ⟨3, ![1, 1, 512]⟩
abbrev S1x1x512x512 : Shape := ⟨4, ![1, 1, 512, 512]⟩

abbrev nBuf : Space → Nat
  | .hbm => 325
  | .vmem => 0
  | .smem => 0
  | _ => 0

abbrev hbmTy0_0 (i : Nat) : BufTy := match i % 128 with
  | 0 => ⟨S64x512x512, .f32⟩
  | 1 => ⟨S64x512x512, .f32⟩
  | 2 => ⟨S64x512, .f32⟩
  | 3 => ⟨S64x512, .f32⟩
  | 4 => ⟨S64x512x512, .f32⟩
  | 5 => ⟨S64x512x512, .f32⟩
  | 6 => ⟨S64x512x512, .f32⟩
  | 7 => ⟨S64x512x512, .f32⟩
  | 8 => ⟨S64x512x512, .f32⟩
  | 9 => ⟨S64x512x512, .f32⟩
  | 10 => ⟨S6x512x512, .f32⟩
  | 11 => ⟨S6x512, .f32⟩
  | 12 => ⟨S3x512x512, .f32⟩
  | 13 => ⟨S3x512, .f32⟩
  | 14 => ⟨S3x2x512x512, .f32⟩
  | 15 => ⟨S3x2x512, .f32⟩
  | 16 => ⟨S_, .f32⟩
  | 17 => ⟨S64x512, .f32⟩
  | 18 => ⟨S_, .f32⟩
  | 19 => ⟨S64x512, .f32⟩
  | 20 => ⟨S64x512, .f32⟩
  | 21 => ⟨S_, .f32⟩
  | 22 => ⟨S64x512, .f32⟩
  | 23 => ⟨S64x512, .f32⟩
  | 24 => ⟨S64x512, .f32⟩
  | 25 => ⟨S64x512, .f32⟩
  | 26 => ⟨S64x512, .f32⟩
  | 27 => ⟨S64x512, .f32⟩
  | 28 => ⟨S64x512, .f32⟩
  | 29 => ⟨S64x512x1, .f32⟩
  | 30 => ⟨S64x512x512, .f32⟩
  | 31 => ⟨S64x512x512, .f32⟩
  | 32 => ⟨S64x512x512, .f32⟩
  | 33 => ⟨S1x512x512, .f32⟩
  | 34 => ⟨S512x512, .f32⟩
  | 35 => ⟨S1x512, .f32⟩
  | 36 => ⟨S512, .f32⟩
  | 37 => ⟨S64x512x512, .f32⟩
  | 38 => ⟨S1x1x512, .f32⟩
  | 39 => ⟨S64x512x512, .f32⟩
  | 40 => ⟨S64x512x512, .f32⟩
  | 41 => ⟨S64x512x1, .f32⟩
  | 42 => ⟨S64x512x512, .f32⟩
  | 43 => ⟨S64x512x512, .f32⟩
  | 44 => ⟨S_, .f32⟩
  | 45 => ⟨S64x512, .f32⟩
  | 46 => ⟨S_, .f32⟩
  | 47 => ⟨S64x512, .f32⟩
  | 48 => ⟨S64x512, .f32⟩
  | 49 => ⟨S_, .f32⟩
  | 50 => ⟨S64x512, .f32⟩
  | 51 => ⟨S64x512, .f32⟩
  | 52 => ⟨S64x512, .f32⟩
  | 53 => ⟨S64x512, .f32⟩
  | 54 => ⟨S64x512, .f32⟩
  | 55 => ⟨S64x512, .f32⟩
  | 56 => ⟨S64x512, .f32⟩
  | 57 => ⟨S64x512x1, .f32⟩
  | 58 => ⟨S64x512x512, .f32⟩
  | 59 => ⟨S64x512x512, .f32⟩
  | 60 => ⟨S64x512x512, .f32⟩
  | 61 => ⟨S1x512x512, .f32⟩
  | 62 => ⟨S512x512, .f32⟩
  | 63 => ⟨S1x512, .f32⟩
  | 64 => ⟨S512, .f32⟩
  | 65 => ⟨S64x512x512, .f32⟩
  | 66 => ⟨S1x1x512, .f32⟩
  | 67 => ⟨S64x512x512, .f32⟩
  | 68 => ⟨S64x512x512, .f32⟩
  | 69 => ⟨S64x512x1, .f32⟩
  | 70 => ⟨S64x512x512, .f32⟩
  | 71 => ⟨S64x512x512, .f32⟩
  | 72 => ⟨S_, .f32⟩
  | 73 => ⟨S64x512, .f32⟩
  | 74 => ⟨S_, .f32⟩
  | 75 => ⟨S64x512, .f32⟩
  | 76 => ⟨S64x512, .f32⟩
  | 77 => ⟨S_, .f32⟩
  | 78 => ⟨S64x512, .f32⟩
  | 79 => ⟨S64x512, .f32⟩
  | 80 => ⟨S64x512, .f32⟩
  | 81 => ⟨S64x512, .f32⟩
  | 82 => ⟨S64x512, .f32⟩
  | 83 => ⟨S64x512, .f32⟩
  | 84 => ⟨S64x512, .f32⟩
  | 85 => ⟨S64x512x1, .f32⟩
  | 86 => ⟨S64x512x512, .f32⟩
  | 87 => ⟨S64x512x512, .f32⟩
  | 88 => ⟨S64x512x512, .f32⟩
  | 89 => ⟨S1x512x512, .f32⟩
  | 90 => ⟨S512x512, .f32⟩
  | 91 => ⟨S1x512, .f32⟩
  | 92 => ⟨S512, .f32⟩
  | 93 => ⟨S64x512x512, .f32⟩
  | 94 => ⟨S1x1x512, .f32⟩
  | 95 => ⟨S64x512x512, .f32⟩
  | 96 => ⟨S64x512x512, .f32⟩
  | 97 => ⟨S64x512x1, .f32⟩
  | 98 => ⟨S64x512x512, .f32⟩
  | 99 => ⟨S64x512x512, .f32⟩
  | 100 => ⟨S64x512x512, .f32⟩
  | 101 => ⟨S1x512x512, .f32⟩
  | 102 => ⟨S512x512, .f32⟩
  | 103 => ⟨S1x512, .f32⟩
  | 104 => ⟨S512, .f32⟩
  | 105 => ⟨S64x512x512, .f32⟩
  | 106 => ⟨S1x1x512, .f32⟩
  | 107 => ⟨S64x512x512, .f32⟩
  | 108 => ⟨S64x512x512, .f32⟩
  | 109 => ⟨S64x512x1, .f32⟩
  | 110 => ⟨S64x512x512, .f32⟩
  | 111 => ⟨S64x512x512, .f32⟩
  | 112 => ⟨S64x512x512, .f32⟩
  | 113 => ⟨S64x512x512, .f32⟩
  | 114 => ⟨S64x512x512, .f32⟩
  | 115 => ⟨S64x512x512, .f32⟩
  | 116 => ⟨S_, .f32⟩
  | 117 => ⟨S64x512x512, .f32⟩
  | 118 => ⟨S64x512x512, .f32⟩
  | 119 => ⟨S64x512x512, .f32⟩
  | 120 => ⟨S1x1x512x512, .f32⟩
  | 121 => ⟨S512x512, .f32⟩
  | 122 => ⟨S1x1x512, .f32⟩
  | 123 => ⟨S512, .f32⟩
  | 124 => ⟨S64x512x512, .f32⟩
  | 125 => ⟨S1x1x512, .f32⟩
  | 126 => ⟨S64x512x512, .f32⟩
  | 127 => ⟨S64x512x512, .f32⟩
  | _ => ⟨S64x512x512, .f32⟩

abbrev hbmTy0_1 (i : Nat) : BufTy := match i % 128 with
  | 0 => ⟨S64x512x1, .f32⟩
  | 1 => ⟨S64x512x512, .f32⟩
  | 2 => ⟨S64x512x512, .f32⟩
  | 3 => ⟨S64x512x512, .f32⟩
  | 4 => ⟨S1x1x512x512, .f32⟩
  | 5 => ⟨S512x512, .f32⟩
  | 6 => ⟨S1x1x512, .f32⟩
  | 7 => ⟨S512, .f32⟩
  | 8 => ⟨S64x512x512, .f32⟩
  | 9 => ⟨S1x1x512, .f32⟩
  | 10 => ⟨S64x512x512, .f32⟩
  | 11 => ⟨S64x512x512, .f32⟩
  | 12 => ⟨S64x512x1, .f32⟩
  | 13 => ⟨S64x512x512, .f32⟩
  | 14 => ⟨S64x512x512, .f32⟩
  | 15 => ⟨S64x512x512, .f32⟩
  | 16 => ⟨S64x512x512, .f32⟩
  | 17 => ⟨S_, .f32⟩
  | 18 => ⟨S64x512x512, .f32⟩
  | 19 => ⟨S64x512x512, .f32⟩
  | 20 => ⟨S_, .f32⟩
  | 21 => ⟨S64x512, .f32⟩
  | 22 => ⟨S_, .f32⟩
  | 23 => ⟨S64x512, .f32⟩
  | 24 => ⟨S64x512, .f32⟩
  | 25 => ⟨S_, .f32⟩
  | 26 => ⟨S64x512, .f32⟩
  | 27 => ⟨S64x512, .f32⟩
  | 28 => ⟨S64x512, .f32⟩
  | 29 => ⟨S64x512, .f32⟩
  | 30 => ⟨S64x512, .f32⟩
  | 31 => ⟨S64x512, .f32⟩
  | 32 => ⟨S64x512, .f32⟩
  | 33 => ⟨S64x512x1, .f32⟩
  | 34 => ⟨S64x512x512, .f32⟩
  | 35 => ⟨S64x512x512, .f32⟩
  | 36 => ⟨S64x512x512, .f32⟩
  | 37 => ⟨S1x512x512, .f32⟩
  | 38 => ⟨S512x512, .f32⟩
  | 39 => ⟨S1x512, .f32⟩
  | 40 => ⟨S512, .f32⟩
  | 41 => ⟨S64x512x512, .f32⟩
  | 42 => ⟨S1x1x512, .f32⟩
  | 43 => ⟨S64x512x512, .f32⟩
  | 44 => ⟨S64x512x512, .f32⟩
  | 45 => ⟨S64x512x1, .f32⟩
  | 46 => ⟨S64x512x512, .f32⟩
  | 47 => ⟨S64x512x512, .f32⟩
  | 48 => ⟨S_, .f32⟩
  | 49 => ⟨S64x512, .f32⟩
  | 50 => ⟨S_, .f32⟩
  | 51 => ⟨S64x512, .f32⟩
  | 52 => ⟨S64x512, .f32⟩
  | 53 => ⟨S_, .f32⟩
  | 54 => ⟨S64x512, .f32⟩
  | 55 => ⟨S64x512, .f32⟩
  | 56 => ⟨S64x512, .f32⟩
  | 57 => ⟨S64x512, .f32⟩
  | 58 => ⟨S64x512, .f32⟩
  | 59 => ⟨S64x512, .f32⟩
  | 60 => ⟨S64x512, .f32⟩
  | 61 => ⟨S64x512x1, .f32⟩
  | 62 => ⟨S64x512x512, .f32⟩
  | 63 => ⟨S64x512x512, .f32⟩
  | 64 => ⟨S64x512x512, .f32⟩
  | 65 => ⟨S1x512x512, .f32⟩
  | 66 => ⟨S512x512, .f32⟩
  | 67 => ⟨S1x512, .f32⟩
  | 68 => ⟨S512, .f32⟩
  | 69 => ⟨S64x512x512, .f32⟩
  | 70 => ⟨S1x1x512, .f32⟩
  | 71 => ⟨S64x512x512, .f32⟩
  | 72 => ⟨S64x512x512, .f32⟩
  | 73 => ⟨S64x512x1, .f32⟩
  | 74 => ⟨S64x512x512, .f32⟩
  | 75 => ⟨S64x512x512, .f32⟩
  | 76 => ⟨S64x512x512, .f32⟩
  | 77 => ⟨S1x512x512, .f32⟩
  | 78 => ⟨S512x512, .f32⟩
  | 79 => ⟨S1x512, .f32⟩
  | 80 => ⟨S512, .f32⟩
  | 81 => ⟨S64x512x512, .f32⟩
  | 82 => ⟨S1x1x512, .f32⟩
  | 83 => ⟨S64x512x512, .f32⟩
  | 84 => ⟨S64x512x512, .f32⟩
  | 85 => ⟨S64x512x1, .f32⟩
  | 86 => ⟨S64x512x512, .f32⟩
  | 87 => ⟨S64x512x512, .f32⟩
  | 88 => ⟨S64x512x512, .f32⟩
  | 89 => ⟨S64x512x512, .f32⟩
  | 90 => ⟨S64x512x512, .f32⟩
  | 91 => ⟨S_, .f32⟩
  | 92 => ⟨S64x512x512, .f32⟩
  | 93 => ⟨S64x512x512, .f32⟩
  | 94 => ⟨S64x512x512, .f32⟩
  | 95 => ⟨S1x1x512x512, .f32⟩
  | 96 => ⟨S512x512, .f32⟩
  | 97 => ⟨S1x1x512, .f32⟩
  | 98 => ⟨S512, .f32⟩
  | 99 => ⟨S64x512x512, .f32⟩
  | 100 => ⟨S1x1x512, .f32⟩
  | 101 => ⟨S64x512x512, .f32⟩
  | 102 => ⟨S64x512x512, .f32⟩
  | 103 => ⟨S64x512x1, .f32⟩
  | 104 => ⟨S64x512x512, .f32⟩
  | 105 => ⟨S64x512x512, .f32⟩
  | 106 => ⟨S64x512x512, .f32⟩
  | 107 => ⟨S1x1x512x512, .f32⟩
  | 108 => ⟨S512x512, .f32⟩
  | 109 => ⟨S1x1x512, .f32⟩
  | 110 => ⟨S512, .f32⟩
  | 111 => ⟨S64x512x512, .f32⟩
  | 112 => ⟨S1x1x512, .f32⟩
  | 113 => ⟨S64x512x512, .f32⟩
  | 114 => ⟨S64x512x512, .f32⟩
  | 115 => ⟨S64x512x1, .f32⟩
  | 116 => ⟨S64x512x512, .f32⟩
  | 117 => ⟨S64x512x512, .f32⟩
  | 118 => ⟨S64x512x512, .f32⟩
  | 119 => ⟨S64x512x512, .f32⟩
  | 120 => ⟨S_, .f32⟩
  | 121 => ⟨S64x512x512, .f32⟩
  | 122 => ⟨S64x512x512, .f32⟩
  | 123 => ⟨S_, .f32⟩
  | 124 => ⟨S64x512, .f32⟩
  | 125 => ⟨S_, .f32⟩
  | 126 => ⟨S64x512, .f32⟩
  | 127 => ⟨S64x512, .f32⟩
  | _ => ⟨S64x512x512, .f32⟩

abbrev hbmTy0_2 (i : Nat) : BufTy := match i % 128 with
  | 0 => ⟨S_, .f32⟩
  | 1 => ⟨S64x512, .f32⟩
  | 2 => ⟨S64x512, .f32⟩
  | 3 => ⟨S64x512, .f32⟩
  | 4 => ⟨S64x512, .f32⟩
  | 5 => ⟨S64x512, .f32⟩
  | 6 => ⟨S64x512, .f32⟩
  | 7 => ⟨S64x512, .f32⟩
  | 8 => ⟨S64x512x1, .f32⟩
  | 9 => ⟨S64x512x512, .f32⟩
  | 10 => ⟨S64x512x512, .f32⟩
  | 11 => ⟨S64x512x512, .f32⟩
  | 12 => ⟨S1x512x512, .f32⟩
  | 13 => ⟨S512x512, .f32⟩
  | 14 => ⟨S1x512, .f32⟩
  | 15 => ⟨S512, .f32⟩
  | 16 => ⟨S64x512x512, .f32⟩
  | 17 => ⟨S1x1x512, .f32⟩
  | 18 => ⟨S64x512x512, .f32⟩
  | 19 => ⟨S64x512x512, .f32⟩
  | 20 => ⟨S64x512x1, .f32⟩
  | 21 => ⟨S64x512x512, .f32⟩
  | 22 => ⟨S64x512x512, .f32⟩
  | 23 => ⟨S64x512x512, .f32⟩
  | 24 => ⟨S1x512x512, .f32⟩
  | 25 => ⟨S512x512, .f32⟩
  | 26 => ⟨S1x512, .f32⟩
  | 27 => ⟨S512, .f32⟩
  | 28 => ⟨S64x512x512, .f32⟩
  | 29 => ⟨S1x1x512, .f32⟩
  | 30 => ⟨S64x512x512, .f32⟩
  | 31 => ⟨S64x512x512, .f32⟩
  | 32 => ⟨S64x512x1, .f32⟩
  | 33 => ⟨S64x512x512, .f32⟩
  | 34 => ⟨S64x512x512, .f32⟩
  | 35 => ⟨S64x512x512, .f32⟩
  | 36 => ⟨S64x512x512, .f32⟩
  | 37 => ⟨S_, .f32⟩
  | 38 => ⟨S64x512x512, .f32⟩
  | 39 => ⟨S64x512x512, .f32⟩
  | 40 => ⟨S64x512x512, .f32⟩
  | 41 => ⟨S1x1x512x512, .f32⟩
  | 42 => ⟨S512x512, .f32⟩
  | 43 => ⟨S1x1x512, .f32⟩
  | 44 => ⟨S512, .f32⟩
  | 45 => ⟨S64x512x512, .f32⟩
  | 46 => ⟨S1x1x512, .f32⟩
  | 47 => ⟨S64x512x512, .f32⟩
  | 48 => ⟨S64x512x512, .f32⟩
  | 49 => ⟨S64x512x1, .f32⟩
  | 50 => ⟨S64x512x512, .f32⟩
  | 51 => ⟨S64x512x512, .f32⟩
  | 52 => ⟨S64x512x512, .f32⟩
  | 53 => ⟨S1x1x512x512, .f32⟩
  | 54 => ⟨S512x512, .f32⟩
  | 55 => ⟨S1x1x512, .f32⟩
  | 56 => ⟨S512, .f32⟩
  | 57 => ⟨S64x512x512, .f32⟩
  | 58 => ⟨S1x1x512, .f32⟩
  | 59 => ⟨S64x512x512, .f32⟩
  | 60 => ⟨S64x512x512, .f32⟩
  | 61 => ⟨S64x512x1, .f32⟩
  | 62 => ⟨S64x512x512, .f32⟩
  | 63 => ⟨S64x512x512, .f32⟩
  | 64 => ⟨S64x512x512, .f32⟩
  | 65 => ⟨S64x512x512, .f32⟩
  | 66 => ⟨S_, .f32⟩
  | 67 => ⟨S64x512x512, .f32⟩
  | 68 => ⟨S64x512x512, .f32⟩
  | _ => ⟨S64x512x512, .f32⟩

abbrev hbmTy (i : Nat) : BufTy := match i / 128 with
  | 0 => hbmTy0_0 i
  | 1 => hbmTy0_1 i
  | 2 => hbmTy0_2 i
  | _ => ⟨S64x512x512, .f32⟩

abbrev bufTy : (tb : Table) → Fin (tcTables nBuf tb) → BufTy
  | .hbm, ⟨i, _⟩ => hbmTy i
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_cst_1 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_call0_cst : Ref sig .tc := ⟨.hbm, 116, rfl⟩
abbrev main_call0_v0 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_call1_cst : Ref sig .tc := ⟨.hbm, 145, rfl⟩
abbrev main_call1_v0 : Ref sig .tc := ⟨.hbm, 146, rfl⟩
abbrev main_v118 : Ref sig .tc := ⟨.hbm, 147, rfl⟩
abbrev main_cst_8 : Ref sig .tc := ⟨.hbm, 148, rfl⟩
abbrev main_v119 : Ref sig .tc := ⟨.hbm, 149, rfl⟩
abbrev main_cst_9 : Ref sig .tc := ⟨.hbm, 150, rfl⟩
abbrev main_v120 : Ref sig .tc := ⟨.hbm, 151, rfl⟩
abbrev main_v121 : Ref sig .tc := ⟨.hbm, 152, rfl⟩
abbrev main_cst_10 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_11 : Ref sig .tc := ⟨.hbm, 176, rfl⟩
abbrev main_v144 : Ref sig .tc := ⟨.hbm, 177, rfl⟩
abbrev main_cst_12 : Ref sig .tc := ⟨.hbm, 178, rfl⟩
abbrev main_v145 : Ref sig .tc := ⟨.hbm, 179, rfl⟩
abbrev main_v146 : Ref sig .tc := ⟨.hbm, 180, rfl⟩
abbrev main_cst_13 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_call2_cst : Ref sig .tc := ⟨.hbm, 219, rfl⟩
abbrev main_call2_v0 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_call3_cst : Ref sig .tc := ⟨.hbm, 248, rfl⟩
abbrev main_call3_v0 : Ref sig .tc := ⟨.hbm, 249, rfl⟩
abbrev main_v211 : Ref sig .tc := ⟨.hbm, 250, rfl⟩
abbrev main_cst_14 : Ref sig .tc := ⟨.hbm, 251, rfl⟩
abbrev main_v212 : Ref sig .tc := ⟨.hbm, 252, rfl⟩
abbrev main_cst_15 : Ref sig .tc := ⟨.hbm, 253, rfl⟩
abbrev main_v213 : Ref sig .tc := ⟨.hbm, 254, rfl⟩
abbrev main_v214 : Ref sig .tc := ⟨.hbm, 255, rfl⟩
abbrev main_cst_16 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_call4_cst : Ref sig .tc := ⟨.hbm, 293, rfl⟩
abbrev main_call4_v0 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_call5_cst : Ref sig .tc := ⟨.hbm, 322, rfl⟩
abbrev main_call5_v0 : Ref sig .tc := ⟨.hbm, 323, rfl⟩
abbrev main_v278 : Ref sig .tc := ⟨.hbm, 324, rfl⟩

abbrev nD : Nat := 1
abbrev τ : Topo := Topo.v7x

variable {F : FTy → Type} [FloatOps F]

class Facts₀ : Prop where
  reducesTo_S64x512x512_S64x512_d2 : S64x512x512.ReducesTo [2] S64x512
  h_S_ : 0 < S_.numel
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  slices_S6x512x512_S1x512x512_0_0_0 : S6x512x512.Slices ![0, 0, 0] S1x512x512
  shapeCasts_S1x512x512_S512x512 : S1x512x512.ShapeCasts S512x512
  slices_S6x512_S1x512_0_0 : S6x512.Slices ![0, 0] S1x512
  shapeCasts_S1x512_S512 : S1x512.ShapeCasts S512
  bcast_S512_S1x1x512_2 : S512.BroadcastsInDim S1x1x512 (![2] : Fin 1 → Fin S1x1x512.rank)
  bcast_S1x1x512_S64x512x512_0_1_2 : S1x1x512.BroadcastsInDim S64x512x512 (![0, 1, 2] : Fin 3 → Fin S64x512x512.rank)
  slices_S6x512x512_S1x512x512_1_0_0 : S6x512x512.Slices ![1, 0, 0] S1x512x512
  slices_S6x512_S1x512_1_0 : S6x512.Slices ![1, 0] S1x512
  slices_S6x512x512_S1x512x512_2_0_0 : S6x512x512.Slices ![2, 0, 0] S1x512x512
  slices_S6x512_S1x512_2_0 : S6x512.Slices ![2, 0] S1x512
  slices_S3x512x512_S1x512x512_0_0_0 : S3x512x512.Slices ![0, 0, 0] S1x512x512
  slices_S3x512_S1x512_0_0 : S3x512.Slices ![0, 0] S1x512
  bcast_S_S64x512x512 : S_.BroadcastsInDim S64x512x512 (![] : Fin 0 → Fin S64x512x512.rank)
  slices_S3x2x512x512_S1x1x512x512_0_0_0_0 : S3x2x512x512.Slices ![0, 0, 0, 0] S1x1x512x512
  shapeCasts_S1x1x512x512_S512x512 : S1x1x512x512.ShapeCasts S512x512
  slices_S3x2x512_S1x1x512_0_0_0 : S3x2x512.Slices ![0, 0, 0] S1x1x512
  shapeCasts_S1x1x512_S512 : S1x1x512.ShapeCasts S512
  slices_S3x2x512x512_S1x1x512x512_0_1_0_0 : S3x2x512x512.Slices ![0, 1, 0, 0] S1x1x512x512
  slices_S3x2x512_S1x1x512_0_1_0 : S3x2x512.Slices ![0, 1, 0] S1x1x512
  slices_S6x512x512_S1x512x512_3_0_0 : S6x512x512.Slices ![3, 0, 0] S1x512x512
  slices_S6x512_S1x512_3_0 : S6x512.Slices ![3, 0] S1x512
  slices_S6x512x512_S1x512x512_4_0_0 : S6x512x512.Slices ![4, 0, 0] S1x512x512
  slices_S6x512_S1x512_4_0 : S6x512.Slices ![4, 0] S1x512
  slices_S3x512x512_S1x512x512_1_0_0 : S3x512x512.Slices ![1, 0, 0] S1x512x512
  slices_S3x512_S1x512_1_0 : S3x512.Slices ![1, 0] S1x512
  slices_S3x2x512x512_S1x1x512x512_1_0_0_0 : S3x2x512x512.Slices ![1, 0, 0, 0] S1x1x512x512
  slices_S3x2x512_S1x1x512_1_0_0 : S3x2x512.Slices ![1, 0, 0] S1x1x512
  slices_S3x2x512x512_S1x1x512x512_1_1_0_0 : S3x2x512x512.Slices ![1, 1, 0, 0] S1x1x512x512
  slices_S3x2x512_S1x1x512_1_1_0 : S3x2x512.Slices ![1, 1, 0] S1x1x512
  slices_S6x512x512_S1x512x512_5_0_0 : S6x512x512.Slices ![5, 0, 0] S1x512x512
  slices_S6x512_S1x512_5_0 : S6x512.Slices ![5, 0] S1x512
  slices_S3x512x512_S1x512x512_2_0_0 : S3x512x512.Slices ![2, 0, 0] S1x512x512
  slices_S3x512_S1x512_2_0 : S3x512.Slices ![2, 0] S1x512
  slices_S3x2x512x512_S1x1x512x512_2_0_0_0 : S3x2x512x512.Slices ![2, 0, 0, 0] S1x1x512x512
  slices_S3x2x512_S1x1x512_2_0_0 : S3x2x512.Slices ![2, 0, 0] S1x1x512
  slices_S3x2x512x512_S1x1x512x512_2_1_0_0 : S3x2x512x512.Slices ![2, 1, 0, 0] S1x1x512x512
  slices_S3x2x512_S1x1x512_2_1_0 : S3x2x512.Slices ![2, 1, 0] S1x1x512
  dot_S64x512x512_S64x512x512_S64x512x512_2_1_1_2_0_0_wf : DotDims.WF S64x512x512 S64x512x512 S64x512x512 [2] [1] [1] [2] [0] [0]
  dot_S64x512x512_S512x512_S64x512x512_2_1_01_0_n_n_wf : DotDims.WF S64x512x512 S512x512 S64x512x512 [2] [1] [0, 1] [0] [] []

variable [Facts₀]

def dot_S64x512x512_S64x512x512_S64x512x512_2_1_1_2_0_0 : DotDims S64x512x512 S64x512x512 S64x512x512 where
  lhsContracting := [2]
  rhsContracting := [1]
  lhsNonContracting := [1]
  rhsNonContracting := [2]
  lhsBatch := [0]
  rhsBatch := [0]
  wf := dot_S64x512x512_S64x512x512_S64x512x512_2_1_1_2_0_0_wf
def dot_S64x512x512_S512x512_S64x512x512_2_1_01_0_n_n : DotDims S64x512x512 S512x512 S64x512x512 where
  lhsContracting := [2]
  rhsContracting := [1]
  lhsNonContracting := [0, 1]
  rhsNonContracting := [0]
  lhsBatch := []
  rhsBatch := []
  wf := dot_S64x512x512_S512x512_S64x512x512_2_1_01_0_n_n_wf

class Facts : Prop extends Facts₀ where

variable [Facts]
-- ==== Proof.LibRealEntries.lean ====
/-
  Extended reals that are real numbers: a small library.

  `IsReal x` says the extended real `x` is a real number (neither infinity). Real entries are closed under
  sums, products and finite sums; an entry below +∞ in absolute value is real; a scatter-add of real updates
  onto a real operand is real everywhere. The coercion ℝ → EReal commutes with finite sums. Last, one algebraic
  law that needs real entries (distributivity fails at the infinities): a row `a` through two affine maps in a
  row, `(a · W₁ + b₁) · W₂ + b₂`, is the row through the collapsed map, `a · (W₁ W₂) + (b₁ · W₂ + b₂)`.
-/
import Idealize.ShloMosaic.PureOps.Ideal

namespace Cert.Hand

open scoped BigOperators

/-- An extended real that is a real number (neither infinity). -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- An extended real strictly between the infinities in absolute value is a real number. -/
theorem isReal_of_abs_lt_top {x : EReal} (h : max x (-x) < ⊤) : IsReal x := by
  induction x using EReal.rec with
  | bot => exact absurd h (by simp)
  | coe r => exact ⟨r, rfl⟩
  | top => exact absurd h (by simp)

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: for a row `a`, weights `w₁`, `w₂` (the second at one output column) and biases `b₁`, `b₂`,
    all real, the collapsed affine map `a · (w₁ w₂) + (b₁ · w₂ + b₂)` is the two maps in a row,
    `(a · w₁ + b₁) · w₂ + b₂`. -/
theorem affine_collapse {K L : Type} [Fintype K] [Fintype L]
    (a : K → EReal) (w₁ : K → L → EReal) (b₁ : L → EReal) (w₂ : L → EReal) (b₂ : EReal)
    (ha : ∀ k, IsReal (a k)) (hw₁ : ∀ k l, IsReal (w₁ k l)) (hb₁ : ∀ l, IsReal (b₁ l))
    (hw₂ : ∀ l, IsReal (w₂ l)) (hb₂ : IsReal b₂) :
    (∑ k, a k * ∑ l, w₁ k l * w₂ l) + ((∑ l, b₁ l * w₂ l) + b₂)
      = (∑ l, ((∑ k, a k * w₁ k l) + b₁ l) * w₂ l) + b₂ := by
  choose a' ha' using ha
  choose w₁' hw₁' using hw₁
  choose b₁' hb₁' using hb₁
  choose w₂' hw₂' using hw₂
  obtain ⟨b₂', rfl⟩ := hb₂
  obtain rfl : a = fun k => (a' k : EReal) := funext ha'
  obtain rfl : w₁ = fun k l => (w₁' k l : EReal) := funext fun k => funext (hw₁' k)
  obtain rfl : b₁ = fun l => (b₁' l : EReal) := funext hb₁'
  obtain rfl : w₂ = fun l => (w₂' l : EReal) := funext hw₂'
  simp only [← EReal.coe_mul, ← coe_sum, ← EReal.coe_add]
  congr 1
  simp only [Finset.mul_sum, add_mul, Finset.sum_mul, Finset.sum_add_distrib]
  rw [Finset.sum_comm]
  simp only [mul_assoc, add_assoc]

/-- A scatter-add of real updates onto a real operand is real everywhere: each entry is the operand's entry
    plus a finite sum of updates (the ones that land on it). -/
theorem hostScatterAdd_isReal {s si su : Idealize.ShloMosaic.Shape} (d : Idealize.ShloMosaic.ScatterDims s si su) {w : Nat}
    (x : s.Idx → EReal) (idx : Idealize.ShloMosaic.IVec si w) (upd : su.Idx → EReal)
    (hx : ∀ i, IsReal (x i)) (hu : ∀ j, IsReal (upd j)) (i : s.Idx) :
    IsReal (Idealize.ShloMosaic.Ideal.hostScatterAdd d x idx upd i) :=
  IsReal.add (hx i) (IsReal.sum _ _ fun j _ => hu j)

end Cert.Hand
-- ==== Proof.Spec.lean ====
/-
  The network both programs compute, for ONE batch element, as plain mathematics on the extended reals.

  All the arrays of one batch element are square: `n × n` matrices over one finite index type `N`, and vectors of
  length `n`. Three rounds of message passing update a node table and a relation table. A message from an adjacency
  matrix `a` to a table `x` is the product `a x` with row `i` scaled by `1 / (∑ⱼ a i j + ε)`; every message and
  every plain product then goes through an affine layer `(· Wᵀ + b)` (the weight is carried already transposed), its rows scaled by a mask column; a round adds the
  layers' outputs to the table and clamps at zero from below.

  The message has two spellings. One scales the product's rows (`msgK`). The other scales the adjacency's rows
  first, by a scale written `v + g - g` with `g = -(v·d)·v` (`msgR`). On real entries with non-zero
  denominators the two agree (`msgR_eq_msgK`): there `v` and `g` are real numbers, so `v + g - g = v`, and a real
  factor moves across a finite sum of real terms. At an infinity neither step holds, which is why the entries are
  required to be real numbers. The rest is the propagation of "every entry is a real number" through the rounds, so
  that the agreement can be used at every round (`forward_eq`).
-/
import Idealize.ShloMosaic.PureOps.Ideal
import proofs.«144723_j60885456388892_2_alg».proof.Proof.LibRealEntries

noncomputable section

open scoped BigOperators

namespace Cert.Hand.Spec

open Idealize.ShloMosaic Cert.Hand

variable {N : Type} [Fintype N]

/-- A square table of extended reals. -/
abbrev Mat (N : Type) := N → N → EReal

/-! ## The operations -/

/-- The matrix product. -/
def mm (a x : Mat N) : Mat N := fun i d => ∑ j, a i j * x j d
/-- The transpose. -/
def tr (w : Mat N) : Mat N := fun d o => w o d
/-- Row `i` scaled by the `i`-th entry of a column. -/
def mulcol (x : Mat N) (v : N → EReal) : Mat N := fun i d => x i d * v i
/-- A row vector added to every row. -/
def addrow (x : Mat N) (b : N → EReal) : Mat N := fun i o => x i o + b o
/-- The entrywise sum. -/
def add (x y : Mat N) : Mat N := fun i d => x i d + y i d
/-- Clamping at zero from below. -/
def relu (x : Mat N) : Mat N := fun i d => max (x i d) 0
/-- The row sums. -/
def rowsum (a : Mat N) : N → EReal := fun i => ∑ j, a i j
/-- The entrywise product. -/
def mul (x y : Mat N) : Mat N := fun i d => x i d * y i d
/-- A column repeated along the rows, as a table. -/
def bcCol (v : N → EReal) : Mat N := fun i _ => v i
/-- A row repeated down the rows, as a table. -/
def bcRow (b : N → EReal) : Mat N := fun _ o => b o
theorem mul_bcCol (x : Mat N) (v : N → EReal) : mul x (bcCol v) = mulcol x v := rfl
theorem add_bcRow (x : Mat N) (b : N → EReal) : add x (bcRow b) = addrow x b := rfl
/-- The affine layer with masked rows, `((x · wt) + b) · mask`, over the weight already transposed (`wt = Wᵀ`). -/
def lin (x wt : Mat N) (b mask : N → EReal) : Mat N := mulcol (addrow (mm x wt) b) mask

/-- The inverse degree `one / (∑ⱼ a i j + ε)`. -/
def dinvK (one eps : EReal) (a : Mat N) : N → EReal := fun i => Ideal.div one (rowsum a i + eps)
/-- The same scale written `v + g - g`, `g = -(v · d) · v`. -/
def dinvR (one eps : EReal) (a : Mat N) : N → EReal := fun i =>
  (Ideal.div one (rowsum a i + eps) + -(Ideal.div one (rowsum a i + eps) * rowsum a i) * Ideal.div one (rowsum a i + eps))
    - -(Ideal.div one (rowsum a i + eps) * rowsum a i) * Ideal.div one (rowsum a i + eps)
/-- The message, the product's rows scaled. -/
def msgK (one eps : EReal) (a x : Mat N) : Mat N := mulcol (mm a x) (dinvK one eps a)
/-- The message, the adjacency's rows scaled first. -/
def msgR (one eps : EReal) (a x : Mat N) : Mat N := fun i d => ∑ j, (dinvR one eps a i * a i j) * x j d

/-! ## The three rounds, over either spelling `msg` of the message -/

/-- One batch element's arrays. -/
structure Inputs (N : Type) where
  node : Mat N
  rela : Mat N
  am : N → EReal
  rm : N → EReal
  adj1 : Mat N
  adj2 : Mat N
  adj3 : Mat N
  rsub : Mat N
  robj : Mat N
  rn2r : Mat N
  wnnT : Fin 6 → Mat N
  bnn : Fin 6 → N → EReal
  wnrT : Fin 3 → Mat N
  bnr : Fin 3 → N → EReal
  wrT : Fin 3 → Fin 2 → Mat N
  br : Fin 3 → Fin 2 → N → EReal

variable (msg : Mat N → Mat N → Mat N) (I : Inputs N)

def node1 : Mat N :=
  relu (add (add (add (add I.node (lin (msg I.adj1 I.node) (I.wnnT 0) (I.bnn 0) I.am))
    (lin (msg I.adj2 I.node) (I.wnnT 1) (I.bnn 1) I.am)) (lin (msg I.adj3 I.node) (I.wnnT 2) (I.bnn 2) I.am))
    (lin (mm I.rn2r I.rela) (I.wnrT 0) (I.bnr 0) I.am))
def rela1 : Mat N :=
  relu (add (add I.rela (lin (mm I.rsub I.node) (I.wrT 0 0) (I.br 0 0) I.rm)) (lin (mm I.robj I.node) (I.wrT 0 1) (I.br 0 1) I.rm))
def node2 : Mat N :=
  relu (add (add (add (node1 msg I) (lin (msg I.adj1 (node1 msg I)) (I.wnnT 3) (I.bnn 3) I.am))
    (lin (msg I.adj2 (node1 msg I)) (I.wnnT 4) (I.bnn 4) I.am)) (lin (mm I.rn2r (rela1 I)) (I.wnrT 1) (I.bnr 1) I.am))
def rela2 : Mat N :=
  relu (add (add (rela1 I) (lin (mm I.rsub (node1 msg I)) (I.wrT 1 0) (I.br 1 0) I.rm))
    (lin (mm I.robj (node1 msg I)) (I.wrT 1 1) (I.br 1 1) I.rm))
def node3 : Mat N :=
  relu (add (add (node2 msg I) (lin (msg I.adj1 (node2 msg I)) (I.wnnT 5) (I.bnn 5) I.am))
    (lin (mm I.rn2r (rela2 msg I)) (I.wnrT 2) (I.bnr 2) I.am))
def rela3 : Mat N :=
  relu (add (add (rela2 msg I) (lin (mm I.rsub (node2 msg I)) (I.wrT 2 0) (I.br 2 0) I.rm))
    (lin (mm I.robj (node2 msg I)) (I.wrT 2 1) (I.br 2 1) I.rm))

/-! ## Real entries -/

/-- Every entry of the table is a real number. -/
def RealM (x : Mat N) : Prop := ∀ i j, IsReal (x i j)
/-- Every entry of the vector is a real number. -/
def RealV (v : N → EReal) : Prop := ∀ i, IsReal (v i)

theorem IsReal.max' {x y : EReal} (hx : IsReal x) (hy : IsReal y) : IsReal (max x y) := by
  rcases max_choice x y with h | h <;> rw [h] <;> assumption

theorem IsReal.neg' {x : EReal} (hx : IsReal x) : IsReal (-x) := by
  obtain ⟨a, rfl⟩ := hx
  exact ⟨-a, (EReal.coe_neg a).symm⟩

theorem RealM.mm {a x : Mat N} (ha : RealM a) (hx : RealM x) : RealM (mm a x) :=
  fun i d => IsReal.sum _ _ fun j _ => (ha i j).mul (hx j d)
theorem RealM.tr {w : Mat N} (hw : RealM w) : RealM (tr w) := fun d o => hw o d
theorem RealM.mulcol {x : Mat N} {v : N → EReal} (hx : RealM x) (hv : RealV v) : RealM (mulcol x v) :=
  fun i d => (hx i d).mul (hv i)
theorem RealM.addrow {x : Mat N} {b : N → EReal} (hx : RealM x) (hb : RealV b) : RealM (addrow x b) :=
  fun i o => (hx i o).add (hb o)
theorem RealM.add {x y : Mat N} (hx : RealM x) (hy : RealM y) : RealM (add x y) := fun i d => (hx i d).add (hy i d)
theorem RealM.relu {x : Mat N} (hx : RealM x) : RealM (relu x) := fun i d => IsReal.max' (hx i d) IsReal.zero
theorem RealM.lin {x wt : Mat N} {b mask : N → EReal} (hx : RealM x) (hw : RealM wt) (hb : RealV b) (hm : RealV mask) :
    RealM (lin x wt b mask) := ((hx.mm hw).addrow hb).mulcol hm
theorem realV_rowsum {a : Mat N} (ha : RealM a) : RealV (rowsum a) := fun i => IsReal.sum _ _ fun j _ => ha i j

/-- A real number over a non-zero real number is a real number. -/
theorem isReal_div {x y : EReal} (hx : IsReal x) (hy : IsReal y) (h0 : y ≠ 0) : IsReal (Ideal.div x y) := by
  obtain ⟨a, rfl⟩ := hx
  obtain ⟨b, rfl⟩ := hy
  have hb : b ≠ 0 := fun h => h0 (by rw [h]; rfl)
  rw [Ideal.div_coe hb]
  exact ⟨a * (1 / b), (EReal.coe_mul a (1 / b)).symm⟩

section
variable {one eps : EReal} (hone : IsReal one) (heps : IsReal eps)
include hone heps

theorem realV_dinvK {a : Mat N} (ha : RealM a) (hd : ∀ i, rowsum a i + eps ≠ 0) : RealV (dinvK one eps a) :=
  fun i => isReal_div hone ((realV_rowsum ha i).add heps) (hd i)

/-- `v + g - g = v` for real `v`, `g`. -/
theorem dinvR_eq_dinvK {a : Mat N} (ha : RealM a) (hd : ∀ i, rowsum a i + eps ≠ 0) : dinvR one eps a = dinvK one eps a := by
  funext i
  obtain ⟨v, hv⟩ := realV_dinvK hone heps ha hd i
  obtain ⟨d, hdd⟩ := realV_rowsum ha i
  unfold dinvR
  unfold Spec.dinvK at hv ⊢
  rw [hv, hdd]
  rw [← EReal.coe_mul, ← EReal.coe_neg, ← EReal.coe_mul, ← EReal.coe_add, ← EReal.coe_sub]
  congr 1
  ring

/-- THE LAW: scaling the adjacency's rows before the product is scaling the product's rows after it. -/
theorem msgR_eq_msgK {a x : Mat N} (ha : RealM a) (hx : RealM x) (hd : ∀ i, rowsum a i + eps ≠ 0) :
    msgR one eps a x = msgK one eps a x := by
  funext i d
  unfold msgR msgK Spec.mulcol Spec.mm
  rw [dinvR_eq_dinvK hone heps ha hd]
  obtain ⟨v, hv⟩ := realV_dinvK hone heps ha hd i
  choose a' ha' using ha
  choose x' hx' using hx
  rw [hv]
  simp only [ha', hx', ← EReal.coe_mul, ← coe_sum]
  congr 1
  rw [Finset.sum_mul]
  exact Finset.sum_congr rfl fun j _ => by ring

theorem RealM.msgK {a x : Mat N} (ha : RealM a) (hx : RealM x) (hd : ∀ i, rowsum a i + eps ≠ 0) : RealM (msgK one eps a x) :=
  (ha.mm hx).mulcol (realV_dinvK hone heps ha hd)
end

/-! ## The two spellings agree on real inputs -/

/-- Every entry of every array of the batch element is a real number. -/
structure Inputs.Real (I : Inputs N) : Prop where
  node : RealM I.node
  rela : RealM I.rela
  am : RealV I.am
  rm : RealV I.rm
  adj1 : RealM I.adj1
  adj2 : RealM I.adj2
  adj3 : RealM I.adj3
  rsub : RealM I.rsub
  robj : RealM I.robj
  rn2r : RealM I.rn2r
  wnnT : ∀ k, RealM (I.wnnT k)
  bnn : ∀ k, RealV (I.bnn k)
  wnrT : ∀ k, RealM (I.wnrT k)
  bnr : ∀ k, RealV (I.bnr k)
  wrT : ∀ k l, RealM (I.wrT k l)
  br : ∀ k l, RealV (I.br k l)

section
variable {one eps : EReal} (hone : IsReal one) (heps : IsReal eps) {I : Inputs N} (hI : I.Real)
  (h1 : ∀ i, rowsum I.adj1 i + eps ≠ 0) (h2 : ∀ i, rowsum I.adj2 i + eps ≠ 0) (h3 : ∀ i, rowsum I.adj3 i + eps ≠ 0)
include hone heps hI h1 h2 h3

theorem real_node1 : RealM (node1 (msgK one eps) I) :=
  (((((hI.node.add ((RealM.msgK hone heps hI.adj1 hI.node h1).lin (hI.wnnT 0) (hI.bnn 0) hI.am)).add
    ((RealM.msgK hone heps hI.adj2 hI.node h2).lin (hI.wnnT 1) (hI.bnn 1) hI.am)).add
    ((RealM.msgK hone heps hI.adj3 hI.node h3).lin (hI.wnnT 2) (hI.bnn 2) hI.am)).add
    ((hI.rn2r.mm hI.rela).lin (hI.wnrT 0) (hI.bnr 0) hI.am))).relu

theorem real_rela1 : RealM (rela1 I) :=
  ((hI.rela.add ((hI.rsub.mm hI.node).lin (hI.wrT 0 0) (hI.br 0 0) hI.rm)).add
    ((hI.robj.mm hI.node).lin (hI.wrT 0 1) (hI.br 0 1) hI.rm)).relu

theorem node1_eq : node1 (msgR one eps) I = node1 (msgK one eps) I := by
  unfold node1
  rw [msgR_eq_msgK hone heps hI.adj1 hI.node h1, msgR_eq_msgK hone heps hI.adj2 hI.node h2,
    msgR_eq_msgK hone heps hI.adj3 hI.node h3]

theorem real_node2 : RealM (node2 (msgK one eps) I) := by
  have n1 := real_node1 hone heps hI h1 h2 h3
  have r1 := real_rela1 hone heps hI h1 h2 h3
  exact ((((n1.add ((RealM.msgK hone heps hI.adj1 n1 h1).lin (hI.wnnT 3) (hI.bnn 3) hI.am)).add
    ((RealM.msgK hone heps hI.adj2 n1 h2).lin (hI.wnnT 4) (hI.bnn 4) hI.am)).add
    ((hI.rn2r.mm r1).lin (hI.wnrT 1) (hI.bnr 1) hI.am))).relu

theorem real_rela2 : RealM (rela2 (msgK one eps) I) := by
  have n1 := real_node1 hone heps hI h1 h2 h3
  have r1 := real_rela1 hone heps hI h1 h2 h3
  exact ((r1.add ((hI.rsub.mm n1).lin (hI.wrT 1 0) (hI.br 1 0) hI.rm)).add
    ((hI.robj.mm n1).lin (hI.wrT 1 1) (hI.br 1 1) hI.rm)).relu

theorem node2_eq : node2 (msgR one eps) I = node2 (msgK one eps) I := by
  have n1 := real_node1 hone heps hI h1 h2 h3
  unfold node2
  rw [node1_eq hone heps hI h1 h2 h3, msgR_eq_msgK hone heps hI.adj1 n1 h1, msgR_eq_msgK hone heps hI.adj2 n1 h2]

theorem rela2_eq : rela2 (msgR one eps) I = rela2 (msgK one eps) I := by
  unfold rela2
  rw [node1_eq hone heps hI h1 h2 h3]

/-- The node table after the third round is the same under either spelling of the message. -/
theorem node3_eq : node3 (msgR one eps) I = node3 (msgK one eps) I := by
  have n2 := real_node2 hone heps hI h1 h2 h3
  unfold node3
  rw [node2_eq hone heps hI h1 h2 h3, rela2_eq hone heps hI h1 h2 h3, msgR_eq_msgK hone heps hI.adj1 n2 h1]

/-- The relation table after the third round is the same under either spelling of the message. -/
theorem rela3_eq : rela3 (msgR one eps) I = rela3 (msgK one eps) I := by
  unfold rela3
  rw [node2_eq hone heps hI h1 h2 h3, rela2_eq hone heps hI h1 h2 h3]
end

end Cert.Hand.Spec

end
-- ==== Proof.Inputs.lean ====
/-
  One batch element's arrays, cut out of the sixteen argument arrays.

  The batched arrays have 64 leading entries; batch element `b` of a table is the square matrix of its entries
  `(b, i, j)`, of a mask the vector of its entries `(b, i)`. The weights come in stacks: layer `k` of a stack of
  weight matrices is the matrix of its entries `(k, o, d)` (output feature `o`, input feature `d`), and the affine
  layers use its transpose.
-/
import Idealize.ShloMosaic.Lib.ValueIdx
import proofs.«144723_j60885456388892_2_alg».proof.Proof.Spec

noncomputable section

namespace Cert.Hand

open Idealize.ShloMosaic Idealize.ShloMosaic.ValueIdx Cert.Hand.Spec

/-- Batch element `b` of a batched table. -/
def sl3 (x : (⟨3, ![64, 512, 512]⟩ : Shape).Idx → EReal) (b : Fin 64) : Mat (Fin 512) := fun i j => x (ix3 b i j)
/-- Batch element `b` of a batched vector. -/
def sl2 (x : (⟨2, ![64, 512]⟩ : Shape).Idx → EReal) (b : Fin 64) : Fin 512 → EReal := fun i => x (ix2 b i)
/-- Layer `k` of a stack of weight matrices, rows the output features. -/
def w3 {n : ℕ} (x : (⟨3, ![n, 512, 512]⟩ : Shape).Idx → EReal) (k : Fin n) : Mat (Fin 512) := fun o d => x (ix3 k o d)
/-- Layer `k` of a stack of bias vectors. -/
def b2 {n : ℕ} (x : (⟨2, ![n, 512]⟩ : Shape).Idx → EReal) (k : Fin n) : Fin 512 → EReal := fun o => x (ix2 k o)
/-- Layer `(k, l)` of a doubly indexed stack of weight matrices. -/
def w4 (x : (⟨4, ![3, 2, 512, 512]⟩ : Shape).Idx → EReal) (k : Fin 3) (l : Fin 2) : Mat (Fin 512) := fun o d => x (ix4 k l o d)
/-- Layer `(k, l)` of a doubly indexed stack of bias vectors. -/
def b3 (x : (⟨3, ![3, 2, 512]⟩ : Shape).Idx → EReal) (k : Fin 3) (l : Fin 2) : Fin 512 → EReal := fun o => x (ix3 k l o)

/-- Batch element `b`'s arrays, out of the sixteen argument arrays (in the programs' argument order: node, rela, the two
    masks, the three adjacencies, the three incidence tables, then weights and biases of the three families of layers). -/
def batchInputs (x0 x1 : (⟨3, ![64, 512, 512]⟩ : Shape).Idx → EReal) (x2 x3 : (⟨2, ![64, 512]⟩ : Shape).Idx → EReal)
    (x4 x5 x6 x7 x8 x9 : (⟨3, ![64, 512, 512]⟩ : Shape).Idx → EReal)
    (x10 : (⟨3, ![6, 512, 512]⟩ : Shape).Idx → EReal) (x11 : (⟨2, ![6, 512]⟩ : Shape).Idx → EReal)
    (x12 : (⟨3, ![3, 512, 512]⟩ : Shape).Idx → EReal) (x13 : (⟨2, ![3, 512]⟩ : Shape).Idx → EReal)
    (x14 : (⟨4, ![3, 2, 512, 512]⟩ : Shape).Idx → EReal) (x15 : (⟨3, ![3, 2, 512]⟩ : Shape).Idx → EReal)
    (b : Fin 64) : Inputs (Fin 512) where
  node := sl3 x0 b
  rela := sl3 x1 b
  am := sl2 x2 b
  rm := sl2 x3 b
  adj1 := sl3 x4 b
  adj2 := sl3 x5 b
  adj3 := sl3 x6 b
  rsub := sl3 x7 b
  robj := sl3 x8 b
  rn2r := sl3 x9 b
  wnnT := fun k => tr (w3 x10 k)
  bnn := fun k => b2 x11 k
  wnrT := fun k => tr (w3 x12 k)
  bnr := fun k => b2 x13 k
  wrT := fun k l => tr (w4 x14 k l)
  br := fun k l => b3 x15 k l

end Cert.Hand

end
-- ==== Proof.RefOps.lean ====
/-
  The reference program's host operations, read one batch element at a time.

  A batched table is read at batch element b as the square matrix of its entries (b, i, j), a batched vector as the
  vector of its entries (b, i). Each operation of the reference program, read this way, is one operation on
  matrices and vectors over the extended reals: an entrywise sum or product is the entrywise sum or product, the
  maximum against the broadcast zero is the clamp at zero, a batched product is the matrix product of the two batch
  elements, a product against a weight matrix is the matrix product with the weight's transpose, a vector broadcast
  along the last axis is a column repeated along the rows, a bias broadcast down the rows is a row repeated down the
  rows, the sum over the last axis is the row sums, and a layer cut out of a stack of weights or biases is that layer.
-/
import Idealize.ShloMosaic.Lib.IdealHost
import Idealize.ShloMosaic.Lib.ValueLayout
import Idealize.ShloMosaic.Lib.StackMember
import proofs.«144723_j60885456388892_2_alg».proof.ReferenceIdeal
import proofs.«144723_j60885456388892_2_alg».proof.Proof.Inputs

noncomputable section

open scoped BigOperators

namespace Cert.Hand.Ref

open Idealize.ShloMosaic Idealize.ShloMosaic.ValueIdx Cert.ReferenceIdeal Cert.Hand Cert.Hand.Spec

/-- A weight matrix read as a square table, rows the output features. -/
def cur (W : FVec Ideal S512x512 .f32) : Mat (Fin 512) := fun o d => W (ix2 o d)
/-- A bias vector read by its one coordinate. -/
def vec1 (u : FVec Ideal S512 .f32) : Fin 512 → EReal := fun o => u (ix1 o)

/-! ## Vectors: the entrywise operations -/

/-- The entrywise sum of two vectors. -/
def vadd (u v : Fin 512 → EReal) : Fin 512 → EReal := fun i => u i + v i
/-- The entrywise difference. -/
def vsub (u v : Fin 512 → EReal) : Fin 512 → EReal := fun i => u i - v i
/-- The entrywise product. -/
def vmul (u v : Fin 512 → EReal) : Fin 512 → EReal := fun i => u i * v i
/-- The entrywise negation. -/
def vneg (u : Fin 512 → EReal) : Fin 512 → EReal := fun i => -u i
/-- The entrywise quotient. -/
def vdiv (u v : Fin 512 → EReal) : Fin 512 → EReal := fun i => Ideal.div (u i) (v i)
/-- The constant vector. -/
def vconst (x : EReal) : Fin 512 → EReal := fun _ => x

/-! ## Tables -/

theorem sl3_addf (X Y : FVec Ideal S64x512x512 .f32) (b : Fin 64) :
    sl3 (addf X Y) b = Spec.add (sl3 X b) (sl3 Y b) := rfl

theorem sl3_mulf (X Y : FVec Ideal S64x512x512 .f32) (b : Fin 64) :
    sl3 (mulf X Y) b = Spec.mul (sl3 X b) (sl3 Y b) := rfl

/-- The maximum against the broadcast zero is the clamp at zero. -/
theorem sl3_relu (X : FVec Ideal S64x512x512 .f32) (h : S_.BroadcastsInDim S64x512x512 (![] : Fin 0 → Fin S64x512x512.rank))
    (b : Fin 64) :
    sl3 (maximumf X (broadcastInDim S64x512x512 ![] h (constant (F := Ideal) S_ .f32 0x00000000#32))) b
      = Spec.relu (sl3 X b) := by
  funext i j
  show max (X (ix3 b i j)) (broadcastInDim S64x512x512 ![] h (constant (F := Ideal) S_ .f32 0x00000000#32) (ix3 b i j)) = _
  rw [broadcastInDim_scalar_apply, constant_apply, Ideal.ofBits_zero_f32]
  rfl

/-- A batched vector broadcast along the last axis is, at each batch element, a column repeated along the rows. -/
theorem sl3_bcCol (V : FVec Ideal S64x512 .f32)
    (h1 : S64x512.BroadcastsInDim S64x512x1 (![0, 1] : Fin 2 → Fin S64x512x1.rank))
    (h2 : S64x512x1.BroadcastsInDim S64x512x512 (![0, 1, 2] : Fin 3 → Fin S64x512x512.rank)) (b : Fin 64) :
    sl3 (broadcastInDim S64x512x512 ![0, 1, 2] h2 (broadcastInDim S64x512x1 ![0, 1] h1 V)) b = Spec.bcCol (sl2 V b) := by
  funext i j
  show broadcastInDim S64x512x512 ![0, 1, 2] h2 (broadcastInDim S64x512x1 ![0, 1] h1 V) (ix3 b i j) = V (ix2 b i)
  rw [broadcastInDim_apply _ h2 _ (ix3 b i j) (ix3 b i (0 : Fin 1)) (fun a => by
    match a with
    | ⟨0, _⟩ => rfl
    | ⟨1, _⟩ => rfl
    | ⟨2, _⟩ => rfl)]
  rw [broadcastInDim_apply _ h1 _ (ix3 b i (0 : Fin 1)) (ix2 b i) (fun a => by
    match a with
    | ⟨0, _⟩ => rfl
    | ⟨1, _⟩ => rfl)]

/-- A bias vector broadcast down the rows of every batch element is a row repeated down the rows. -/
theorem sl3_bcRow (u : FVec Ideal S512 .f32)
    (h1 : S512.BroadcastsInDim S1x1x512 (![2] : Fin 1 → Fin S1x1x512.rank))
    (h2 : S1x1x512.BroadcastsInDim S64x512x512 (![0, 1, 2] : Fin 3 → Fin S64x512x512.rank)) (b : Fin 64) :
    sl3 (broadcastInDim S64x512x512 ![0, 1, 2] h2 (broadcastInDim S1x1x512 ![2] h1 u)) b = Spec.bcRow (vec1 u) := by
  funext i j
  show broadcastInDim S64x512x512 ![0, 1, 2] h2 (broadcastInDim S1x1x512 ![2] h1 u) (ix3 b i j) = u (ix1 j)
  rw [broadcastInDim_apply _ h2 _ (ix3 b i j) (ix3 (0 : Fin 1) (0 : Fin 1) j) (fun a => by
    match a with
    | ⟨0, _⟩ => rfl
    | ⟨1, _⟩ => rfl
    | ⟨2, _⟩ => rfl)]
  rw [broadcastInDim_apply _ h1 _ (ix3 (0 : Fin 1) (0 : Fin 1) j) (ix1 j) (fun a => by
    match a with
    | ⟨0, _⟩ => rfl)]

/-! ## The two products -/

section Products
variable [Facts₀]

/-- The batched product is, at each batch element, the matrix product of the two batch elements. -/
theorem sl3_dotB (A X : FVec Ideal S64x512x512 .f32) (b : Fin 64) :
    sl3 (Host.dotGeneral dot_S64x512x512_S64x512x512_S64x512x512_2_1_1_2_0_0 none A X) b = Spec.mm (sl3 A b) (sl3 X b) := by
  funext i d
  exact StackMember.dotGeneral_stack_apply Facts₀.dot_S64x512x512_S64x512x512_S64x512x512_2_1_1_2_0_0_wf none A X b i d

/-- The product against a weight matrix, contracted on the weight's second axis, is at each batch element the matrix
    product with the weight's transpose. -/
theorem sl3_dotW (X : FVec Ideal S64x512x512 .f32) (W : FVec Ideal S512x512 .f32) (b : Fin 64) :
    sl3 (Host.dotGeneral dot_S64x512x512_S512x512_S64x512x512_2_1_01_0_n_n none X W) b
      = Spec.mm (sl3 X b) (Spec.tr (cur W)) := by
  funext i o
  show FloatOps.dotGeneral dot_S64x512x512_S512x512_S64x512x512_2_1_01_0_n_n none .single X W (ix3 b i o)
    = ∑ d : Fin 512, X (ix3 b i d) * W (ix2 o d)
  rw [Ideal.dotGeneral_apply,
    ← Equiv.sum_comp (contrEquiv1 dot_S64x512x512_S512x512_S64x512x512_2_1_01_0_n_n 512 rfl rfl).symm]
  refine Finset.sum_congr rfl fun c _ => ?_
  have c3 := contrEquiv1_symm_val dot_S64x512x512_S512x512_S64x512x512_2_1_01_0_n_n 512 rfl rfl c
  have l3 : dot_S64x512x512_S512x512_S64x512x512_2_1_01_0_n_n.lhsIdx (ix3 b i o)
      ((contrEquiv1 _ 512 rfl rfl).symm c) = ix3 b i c := by
    funext ax; apply Fin.ext
    match ax with
    | ⟨0, _⟩ => simp [DotDims.lhsIdx, dot_S64x512x512_S512x512_S64x512x512_2_1_01_0_n_n]; rfl
    | ⟨1, _⟩ => simp [DotDims.lhsIdx, dot_S64x512x512_S512x512_S64x512x512_2_1_01_0_n_n]; rfl
    | ⟨2, _⟩ => simp [DotDims.lhsIdx, dot_S64x512x512_S512x512_S64x512x512_2_1_01_0_n_n]; exact c3
  have r3 : dot_S64x512x512_S512x512_S64x512x512_2_1_01_0_n_n.rhsIdx (ix3 b i o)
      ((contrEquiv1 _ 512 rfl rfl).symm c) = ix2 o c := by
    funext ax; apply Fin.ext
    match ax with
    | ⟨0, _⟩ => simp [DotDims.rhsIdx, dot_S64x512x512_S512x512_S64x512x512_2_1_01_0_n_n]; rfl
    | ⟨1, _⟩ => simp [DotDims.rhsIdx, dot_S64x512x512_S512x512_S64x512x512_2_1_01_0_n_n]; exact c3
  rw [l3, r3]

end Products

/-! ## Batched vectors -/

theorem sl2_addf (X Y : FVec Ideal S64x512 .f32) (b : Fin 64) : sl2 (addf X Y) b = vadd (sl2 X b) (sl2 Y b) := rfl
theorem sl2_subf (X Y : FVec Ideal S64x512 .f32) (b : Fin 64) : sl2 (subf X Y) b = vsub (sl2 X b) (sl2 Y b) := rfl
theorem sl2_mulf (X Y : FVec Ideal S64x512 .f32) (b : Fin 64) : sl2 (mulf X Y) b = vmul (sl2 X b) (sl2 Y b) := rfl
theorem sl2_negf (X : FVec Ideal S64x512 .f32) (b : Fin 64) : sl2 (Host.negf X) b = vneg (sl2 X b) := rfl
theorem sl2_divf (X Y : FVec Ideal S64x512 .f32) (b : Fin 64) : sl2 (Host.divf X Y) b = vdiv (sl2 X b) (sl2 Y b) := rfl

/-- A broadcast constant is the constant vector of the extended real its word encodes. -/
theorem sl2_const (w : BitVec 32) (h : S_.BroadcastsInDim S64x512 (![] : Fin 0 → Fin S64x512.rank)) (b : Fin 64) :
    sl2 (broadcastInDim S64x512 ![] h (constant (F := Ideal) S_ .f32 w)) b = vconst (Ideal.ofBits .f32 w) := by
  funext i
  show broadcastInDim S64x512 ![] h (constant (F := Ideal) S_ .f32 w) (ix2 b i) = _
  rw [broadcastInDim_scalar_apply, constant_apply]
  rfl

/-- The sum over the last axis, from zero, is at each batch element the row sums. -/
theorem sl2_reduceAdd (A : FVec Ideal S64x512x512 .f32) (hred : S64x512x512.ReducesTo [2] S64x512) (hS : 0 < S_.numel)
    (b : Fin 64) :
    sl2 (Host.reduceAdd A (constant (F := Ideal) S_ .f32 0x00000000#32) hred hS) b = Spec.rowsum (sl3 A b) := by
  have h : S64x512x512.Reduces [2] S64x512 := ⟨hred.1, Nat.two_pos, hred.2⟩
  funext i
  show Ideal.hostReduceAdd hred A _ (ix2 b i) = ∑ j : Fin 512, A (ix3 b i j)
  rw [Ideal.hostReduceAdd_single hred h]
  show Ideal.ofBits .f32 0x00000000#32 + _ = _
  rw [Ideal.ofBits_zero_f32, zero_add]
  refine Finset.sum_congr rfl fun k _ => ?_
  refine congrArg A (funext fun a => Fin.ext ?_)
  match a with
  | ⟨0, _⟩ => rfl
  | ⟨1, _⟩ => rfl
  | ⟨2, _⟩ => rfl

/-- The scale as the program spells it, v + g - g with g = -(v · d) · v, is the specification's. -/
theorem dinvR_fold (one eps : EReal) (a : Mat (Fin 512)) :
    vsub (vadd (vdiv (vconst one) (vadd (Spec.rowsum a) (vconst eps)))
        (vmul (vneg (vmul (vdiv (vconst one) (vadd (Spec.rowsum a) (vconst eps))) (Spec.rowsum a)))
          (vdiv (vconst one) (vadd (Spec.rowsum a) (vconst eps)))))
      (vmul (vneg (vmul (vdiv (vconst one) (vadd (Spec.rowsum a) (vconst eps))) (Spec.rowsum a)))
        (vdiv (vconst one) (vadd (Spec.rowsum a) (vconst eps))))
      = Spec.dinvR one eps a := rfl

/-- The product with the adjacency's rows scaled first is the specification's message. -/
theorem msgR_fold (one eps : EReal) (a x : Mat (Fin 512)) :
    Spec.mm (Spec.mul (Spec.bcCol (Spec.dinvR one eps a)) a) x = Spec.msgR one eps a x := rfl

/-! ## Layers cut out of the stacks of weights and biases -/

/-- Layer k of a stack of weight matrices, cut out and reshaped to a matrix. -/
theorem cur_slice3 {n : ℕ} (k : ℕ) (hk : k < n) (W : FVec Ideal ⟨3, ![n, 512, 512]⟩ .f32)
    (hs : (⟨3, ![n, 512, 512]⟩ : Shape).Slices ![k, 0, 0] S1x512x512) (hc : S1x512x512.ShapeCasts S512x512) :
    cur (shapeCast S512x512 (extractStridedSlice S1x512x512 ![k, 0, 0] W hs) hc) = w3 W ⟨k, hk⟩ := by
  funext o d
  show shapeCast S512x512 (extractStridedSlice S1x512x512 ![k, 0, 0] W hs) hc (ix2 o d) = W (ix3 ⟨k, hk⟩ o d)
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)

/-- Layer k of a stack of bias vectors, cut out and reshaped to a vector. -/
theorem vec1_slice2 {n : ℕ} (k : ℕ) (hk : k < n) (B : FVec Ideal ⟨2, ![n, 512]⟩ .f32)
    (hs : (⟨2, ![n, 512]⟩ : Shape).Slices ![k, 0] S1x512) (hc : S1x512.ShapeCasts S512) :
    vec1 (shapeCast S512 (extractStridedSlice S1x512 ![k, 0] B hs) hc) = b2 B ⟨k, hk⟩ := by
  funext o
  show shapeCast S512 (extractStridedSlice S1x512 ![k, 0] B hs) hc (ix1 o) = B (ix2 ⟨k, hk⟩ o)
  rw [shapeCast_1a_a_apply]
  exact extractStridedSlice_apply _ _ _ _ _ (fun a => by
    match a with
    | ⟨0, _⟩ => rfl
    | ⟨1, _⟩ => exact (Nat.zero_add _).symm)

/-- Layer (k, l) of a doubly indexed stack of weight matrices, cut out and reshaped to a matrix. -/
theorem cur_slice4 (k l : ℕ) (hk : k < 3) (hl : l < 2) (W : FVec Ideal S3x2x512x512 .f32)
    (hs : S3x2x512x512.Slices ![k, l, 0, 0] S1x1x512x512) (hc : S1x1x512x512.ShapeCasts S512x512) :
    cur (shapeCast S512x512 (extractStridedSlice S1x1x512x512 ![k, l, 0, 0] W hs) hc) = w4 W ⟨k, hk⟩ ⟨l, hl⟩ := by
  funext o d
  show shapeCast S512x512 (extractStridedSlice S1x1x512x512 ![k, l, 0, 0] W hs) hc (ix2 o d) = W (ix4 ⟨k, hk⟩ ⟨l, hl⟩ o d)
  rw [shapeCast_apply _ hc (ix2 o d) (ix4 (0 : Fin 1) (0 : Fin 1) o d) (by
    rw [Shape.rowMajor_val_four, Shape.rowMajor_val_two]
    show ((0 * 1 + 0) * 512 + o.val) * 512 + d.val = o.val * 512 + d.val
    omega)]
  exact extractStridedSlice_apply _ _ _ _ _ (fun a => by
    match a with
    | ⟨0, _⟩ => rfl
    | ⟨1, _⟩ => rfl
    | ⟨2, _⟩ => exact (Nat.zero_add _).symm
    | ⟨3, _⟩ => exact (Nat.zero_add _).symm)

/-- Layer (k, l) of a doubly indexed stack of bias vectors, cut out and reshaped to a vector. -/
theorem vec1_slice3 (k l : ℕ) (hk : k < 3) (hl : l < 2) (B : FVec Ideal S3x2x512 .f32)
    (hs : S3x2x512.Slices ![k, l, 0] S1x1x512) (hc : S1x1x512.ShapeCasts S512) :
    vec1 (shapeCast S512 (extractStridedSlice S1x1x512 ![k, l, 0] B hs) hc) = b3 B ⟨k, hk⟩ ⟨l, hl⟩ := by
  funext o
  show shapeCast S512 (extractStridedSlice S1x1x512 ![k, l, 0] B hs) hc (ix1 o) = B (ix3 ⟨k, hk⟩ ⟨l, hl⟩ o)
  rw [shapeCast_apply _ hc (ix1 o) (ix3 (0 : Fin 1) (0 : Fin 1) o) (by
    rw [Shape.rowMajor_val_three, Shape.rowMajor_val_one]
    show (0 * 1 + 0) * 512 + o.val = o.val
    omega)]
  exact extractStridedSlice_apply _ _ _ _ _ (fun a => by
    match a with
    | ⟨0, _⟩ => rfl
    | ⟨1, _⟩ => rfl
    | ⟨2, _⟩ => exact (Nat.zero_add _).symm)

/-! ## The program's composite operations, named -/

/-- The word of one. -/
abbrev one : EReal := Ideal.ofBits .f32 0x3F800000#32
/-- The word of the small constant added to the row sums. -/
abbrev eps : EReal := Ideal.ofBits .f32 0x2EDBE6FF#32

section Combinators
variable [Facts₀]
open Facts₀

/-- The clamp at zero, as the program spells it: the maximum against the broadcast zero. -/
def pRelu (X : FVec Ideal S64x512x512 .f32) : FVec Ideal S64x512x512 .f32 :=
  maximumf X (broadcastInDim S64x512x512 ![] bcast_S_S64x512x512 (constant S_ .f32 0x00000000#32))
theorem sl3_pRelu (X : FVec Ideal S64x512x512 .f32) (b : Fin 64) : sl3 (pRelu X) b = Spec.relu (sl3 X b) :=
  sl3_relu X _ b

/-- A batched vector broadcast along the last axis. -/
def pCol (V : FVec Ideal S64x512 .f32) : FVec Ideal S64x512x512 .f32 :=
  broadcastInDim S64x512x512 ![0, 1, 2] bcast_S64x512x1_S64x512x512_0_1_2
    (broadcastInDim S64x512x1 ![0, 1] bcast_S64x512_S64x512x1_0_1 V)
theorem sl3_pCol (V : FVec Ideal S64x512 .f32) (b : Fin 64) : sl3 (pCol V) b = Spec.bcCol (sl2 V b) :=
  sl3_bcCol V _ _ b

/-- A bias vector broadcast down the rows of every batch element. -/
def pRow (u : FVec Ideal S512 .f32) : FVec Ideal S64x512x512 .f32 :=
  broadcastInDim S64x512x512 ![0, 1, 2] bcast_S1x1x512_S64x512x512_0_1_2 (broadcastInDim S1x1x512 ![2] bcast_S512_S1x1x512_2 u)
theorem sl3_pRow (u : FVec Ideal S512 .f32) (b : Fin 64) : sl3 (pRow u) b = Spec.bcRow (vec1 u) :=
  sl3_bcRow u _ _ b

/-- The batched product. -/
def pMm (A X : FVec Ideal S64x512x512 .f32) : FVec Ideal S64x512x512 .f32 :=
  Host.dotGeneral dot_S64x512x512_S64x512x512_S64x512x512_2_1_1_2_0_0 none A X
theorem sl3_pMm (A X : FVec Ideal S64x512x512 .f32) (b : Fin 64) : sl3 (pMm A X) b = Spec.mm (sl3 A b) (sl3 X b) :=
  sl3_dotB A X b

/-- The row sums, from zero. -/
def pRowsum (A : FVec Ideal S64x512x512 .f32) : FVec Ideal S64x512 .f32 :=
  Host.reduceAdd A (constant S_ .f32 0x00000000#32) reducesTo_S64x512x512_S64x512_d2 h_S_
theorem sl2_pRowsum (A : FVec Ideal S64x512x512 .f32) (b : Fin 64) : sl2 (pRowsum A) b = Spec.rowsum (sl3 A b) :=
  sl2_reduceAdd A _ _ b

/-- A constant broadcast to a batched vector. -/
def pConst (w : BitVec 32) : FVec Ideal S64x512 .f32 := broadcastInDim S64x512 ![] bcast_S_S64x512 (constant S_ .f32 w)
theorem sl2_pConst (w : BitVec 32) (b : Fin 64) : sl2 (pConst w) b = vconst (Ideal.ofBits .f32 w) :=
  sl2_const w _ b

/-- v = one / (row sums + eps). -/
def pInv (A : FVec Ideal S64x512x512 .f32) : FVec Ideal S64x512 .f32 :=
  Host.divf (pConst 0x3F800000#32) (addf (pRowsum A) (pConst 0x2EDBE6FF#32))
/-- g = -(v · d) · v. -/
def pG (A : FVec Ideal S64x512x512 .f32) : FVec Ideal S64x512 .f32 :=
  mulf (Host.negf (mulf (pInv A) (pRowsum A))) (pInv A)
/-- The scale v + g - g. -/
def pDinv (A : FVec Ideal S64x512x512 .f32) : FVec Ideal S64x512 .f32 := subf (addf (pInv A) (pG A)) (pG A)

theorem sl2_pDinv (A : FVec Ideal S64x512x512 .f32) (b : Fin 64) : sl2 (pDinv A) b = Spec.dinvR one eps (sl3 A b) := by
  unfold pDinv pG pInv
  rw [sl2_subf, sl2_addf, sl2_mulf, sl2_negf, sl2_mulf, sl2_divf, sl2_addf, sl2_pConst, sl2_pConst, sl2_pRowsum]
  exact dinvR_fold one eps (sl3 A b)

/-- The message: the adjacency's rows scaled, then the batched product. -/
def pMsg (A X : FVec Ideal S64x512x512 .f32) : FVec Ideal S64x512x512 .f32 := pMm (mulf (pCol (pDinv A)) A) X
theorem sl3_pMsg (A X : FVec Ideal S64x512x512 .f32) (b : Fin 64) :
    sl3 (pMsg A X) b = Spec.msgR one eps (sl3 A b) (sl3 X b) := by
  unfold pMsg
  rw [sl3_pMm, sl3_mulf, sl3_pCol, sl2_pDinv]
  exact msgR_fold one eps (sl3 A b) (sl3 X b)

/-- The affine layer with masked rows. -/
def pLin (X : FVec Ideal S64x512x512 .f32) (W : FVec Ideal S512x512 .f32) (B : FVec Ideal S512 .f32)
    (mask : FVec Ideal S64x512 .f32) : FVec Ideal S64x512x512 .f32 :=
  mulf (addf (Host.dotGeneral dot_S64x512x512_S512x512_S64x512x512_2_1_01_0_n_n none X W) (pRow B)) (pCol mask)
theorem sl3_pLin (X : FVec Ideal S64x512x512 .f32) (W : FVec Ideal S512x512 .f32) (B : FVec Ideal S512 .f32)
    (mask : FVec Ideal S64x512 .f32) (b : Fin 64) :
    sl3 (pLin X W B mask) b = Spec.lin (sl3 X b) (Spec.tr (cur W)) (vec1 B) (sl2 mask b) := by
  unfold pLin
  rw [sl3_mulf, sl3_addf, sl3_dotW, sl3_pRow, sl3_pCol]
  rfl

/-- Layer k of a stack of weight matrices. -/
def pW3 {n : ℕ} (k : ℕ) (W : FVec Ideal ⟨3, ![n, 512, 512]⟩ .f32)
    (hs : (⟨3, ![n, 512, 512]⟩ : Shape).Slices ![k, 0, 0] S1x512x512) : FVec Ideal S512x512 .f32 :=
  shapeCast S512x512 (extractStridedSlice S1x512x512 ![k, 0, 0] W hs) shapeCasts_S1x512x512_S512x512
/-- Layer k of a stack of bias vectors. -/
def pB2 {n : ℕ} (k : ℕ) (B : FVec Ideal ⟨2, ![n, 512]⟩ .f32)
    (hs : (⟨2, ![n, 512]⟩ : Shape).Slices ![k, 0] S1x512) : FVec Ideal S512 .f32 :=
  shapeCast S512 (extractStridedSlice S1x512 ![k, 0] B hs) shapeCasts_S1x512_S512
/-- Layer (k, l) of a doubly indexed stack of weight matrices. -/
def pW4 (k l : ℕ) (W : FVec Ideal S3x2x512x512 .f32) (hs : S3x2x512x512.Slices ![k, l, 0, 0] S1x1x512x512) :
    FVec Ideal S512x512 .f32 :=
  shapeCast S512x512 (extractStridedSlice S1x1x512x512 ![k, l, 0, 0] W hs) shapeCasts_S1x1x512x512_S512x512
/-- Layer (k, l) of a doubly indexed stack of bias vectors. -/
def pB3 (k l : ℕ) (B : FVec Ideal S3x2x512 .f32) (hs : S3x2x512.Slices ![k, l, 0] S1x1x512) : FVec Ideal S512 .f32 :=
  shapeCast S512 (extractStridedSlice S1x1x512 ![k, l, 0] B hs) shapeCasts_S1x1x512_S512

theorem cur_pW3 {n : ℕ} (k : ℕ) (hk : k < n) (W : FVec Ideal ⟨3, ![n, 512, 512]⟩ .f32)
    (hs : (⟨3, ![n, 512, 512]⟩ : Shape).Slices ![k, 0, 0] S1x512x512) : cur (pW3 k W hs) = w3 W ⟨k, hk⟩ :=
  cur_slice3 k hk W hs _
theorem vec1_pB2 {n : ℕ} (k : ℕ) (hk : k < n) (B : FVec Ideal ⟨2, ![n, 512]⟩ .f32)
    (hs : (⟨2, ![n, 512]⟩ : Shape).Slices ![k, 0] S1x512) : vec1 (pB2 k B hs) = b2 B ⟨k, hk⟩ :=
  vec1_slice2 k hk B hs _
theorem cur_pW4 (k l : ℕ) (hk : k < 3) (hl : l < 2) (W : FVec Ideal S3x2x512x512 .f32)
    (hs : S3x2x512x512.Slices ![k, l, 0, 0] S1x1x512x512) : cur (pW4 k l W hs) = w4 W ⟨k, hk⟩ ⟨l, hl⟩ :=
  cur_slice4 k l hk hl W hs _
theorem vec1_pB3 (k l : ℕ) (hk : k < 3) (hl : l < 2) (B : FVec Ideal S3x2x512 .f32)
    (hs : S3x2x512.Slices ![k, l, 0] S1x1x512) : vec1 (pB3 k l B hs) = b3 B ⟨k, hk⟩ ⟨l, hl⟩ :=
  vec1_slice3 k l hk hl B hs _

end Combinators

end Cert.Hand.Ref

end
-- ==== Proof.RefProg.lean ====
/-
  The reference program as three rounds, each table computed once, and each table read one batch element at a time.

  The program's text, with every repeated table written once: a round's node table is the clamp at zero of the
  previous table plus its affine layers, each layer applied to a message (the adjacency's rows scaled by v + g - g,
  then the batched product) or to a plain batched product; likewise the relation table. Read at batch element b,
  each of the six tables is the specification's table of batch element b's arrays, by the operation-level readings.
-/
import proofs.«144723_j60885456388892_2_alg».proof.Proof.RefOps

noncomputable section

namespace Cert.Hand.Ref

open Idealize.ShloMosaic Idealize.ShloMosaic.ValueIdx Cert.ReferenceIdeal Cert.Hand Cert.Hand.Spec

/-- The sixteen argument arrays. -/
structure Args where
  x0 : FVec Ideal S64x512x512 .f32
  x1 : FVec Ideal S64x512x512 .f32
  x2 : FVec Ideal S64x512 .f32
  x3 : FVec Ideal S64x512 .f32
  x4 : FVec Ideal S64x512x512 .f32
  x5 : FVec Ideal S64x512x512 .f32
  x6 : FVec Ideal S64x512x512 .f32
  x7 : FVec Ideal S64x512x512 .f32
  x8 : FVec Ideal S64x512x512 .f32
  x9 : FVec Ideal S64x512x512 .f32
  x10 : FVec Ideal S6x512x512 .f32
  x11 : FVec Ideal S6x512 .f32
  x12 : FVec Ideal S3x512x512 .f32
  x13 : FVec Ideal S3x512 .f32
  x14 : FVec Ideal S3x2x512x512 .f32
  x15 : FVec Ideal S3x2x512 .f32

/-- Batch element b's arrays. -/
def Args.inputs (a : Args) (b : Fin 64) : Spec.Inputs (Fin 512) :=
  batchInputs a.x0 a.x1 a.x2 a.x3 a.x4 a.x5 a.x6 a.x7 a.x8 a.x9 a.x10 a.x11 a.x12 a.x13 a.x14 a.x15 b

section Program
variable [Facts₀]
open Facts₀

/-! ## The program: three rounds, each table computed once -/

/-- The node table after round 1. -/
def pNode1 (a : Args) : FVec Ideal S64x512x512 .f32 :=
  pRelu (addf (addf (addf (addf a.x0
    (pLin (pMsg a.x4 a.x0) (pW3 0 a.x10 slices_S6x512x512_S1x512x512_0_0_0) (pB2 0 a.x11 slices_S6x512_S1x512_0_0) a.x2))
    (pLin (pMsg a.x5 a.x0) (pW3 1 a.x10 slices_S6x512x512_S1x512x512_1_0_0) (pB2 1 a.x11 slices_S6x512_S1x512_1_0) a.x2))
    (pLin (pMsg a.x6 a.x0) (pW3 2 a.x10 slices_S6x512x512_S1x512x512_2_0_0) (pB2 2 a.x11 slices_S6x512_S1x512_2_0) a.x2))
    (pLin (pMm a.x9 a.x1) (pW3 0 a.x12 slices_S3x512x512_S1x512x512_0_0_0) (pB2 0 a.x13 slices_S3x512_S1x512_0_0) a.x2))

/-- The relation table after round 1. -/
def pRela1 (a : Args) : FVec Ideal S64x512x512 .f32 :=
  pRelu (addf (addf a.x1
    (pLin (pMm a.x7 a.x0) (pW4 0 0 a.x14 slices_S3x2x512x512_S1x1x512x512_0_0_0_0) (pB3 0 0 a.x15 slices_S3x2x512_S1x1x512_0_0_0) a.x3))
    (pLin (pMm a.x8 a.x0) (pW4 0 1 a.x14 slices_S3x2x512x512_S1x1x512x512_0_1_0_0) (pB3 0 1 a.x15 slices_S3x2x512_S1x1x512_0_1_0) a.x3))

/-- The node table after round 2. -/
def pNode2 (a : Args) : FVec Ideal S64x512x512 .f32 :=
  pRelu (addf (addf (addf (pNode1 a)
    (pLin (pMsg a.x4 (pNode1 a)) (pW3 3 a.x10 slices_S6x512x512_S1x512x512_3_0_0) (pB2 3 a.x11 slices_S6x512_S1x512_3_0) a.x2))
    (pLin (pMsg a.x5 (pNode1 a)) (pW3 4 a.x10 slices_S6x512x512_S1x512x512_4_0_0) (pB2 4 a.x11 slices_S6x512_S1x512_4_0) a.x2))
    (pLin (pMm a.x9 (pRela1 a)) (pW3 1 a.x12 slices_S3x512x512_S1x512x512_1_0_0) (pB2 1 a.x13 slices_S3x512_S1x512_1_0) a.x2))

/-- The relation table after round 2. -/
def pRela2 (a : Args) : FVec Ideal S64x512x512 .f32 :=
  pRelu (addf (addf (pRela1 a)
    (pLin (pMm a.x7 (pNode1 a)) (pW4 1 0 a.x14 slices_S3x2x512x512_S1x1x512x512_1_0_0_0) (pB3 1 0 a.x15 slices_S3x2x512_S1x1x512_1_0_0) a.x3))
    (pLin (pMm a.x8 (pNode1 a)) (pW4 1 1 a.x14 slices_S3x2x512x512_S1x1x512x512_1_1_0_0) (pB3 1 1 a.x15 slices_S3x2x512_S1x1x512_1_1_0) a.x3))

/-- The node table after round 3. -/
def pNode3 (a : Args) : FVec Ideal S64x512x512 .f32 :=
  pRelu (addf (addf (pNode2 a)
    (pLin (pMsg a.x4 (pNode2 a)) (pW3 5 a.x10 slices_S6x512x512_S1x512x512_5_0_0) (pB2 5 a.x11 slices_S6x512_S1x512_5_0) a.x2))
    (pLin (pMm a.x9 (pRela2 a)) (pW3 2 a.x12 slices_S3x512x512_S1x512x512_2_0_0) (pB2 2 a.x13 slices_S3x512_S1x512_2_0) a.x2))

/-- The relation table after round 3. -/
def pRela3 (a : Args) : FVec Ideal S64x512x512 .f32 :=
  pRelu (addf (addf (pRela2 a)
    (pLin (pMm a.x7 (pNode2 a)) (pW4 2 0 a.x14 slices_S3x2x512x512_S1x1x512x512_2_0_0_0) (pB3 2 0 a.x15 slices_S3x2x512_S1x1x512_2_0_0) a.x3))
    (pLin (pMm a.x8 (pNode2 a)) (pW4 2 1 a.x14 slices_S3x2x512x512_S1x1x512x512_2_1_0_0) (pB3 2 1 a.x15 slices_S3x2x512_S1x1x512_2_1_0) a.x3))

/-! ## Each table, read at a batch element, is the specification's -/

theorem sl3_pNode1 (a : Args) (b : Fin 64) : sl3 (pNode1 a) b = Spec.node1 (Spec.msgR one eps) (a.inputs b) := by
  unfold pNode1
  simp only [sl3_pRelu, sl3_addf, sl3_pLin, sl3_pMsg, sl3_pMm,
    cur_pW3 _ (by decide : (0 : ℕ) < 6), cur_pW3 _ (by decide : (1 : ℕ) < 6), cur_pW3 _ (by decide : (2 : ℕ) < 6),
    vec1_pB2 _ (by decide : (0 : ℕ) < 6), vec1_pB2 _ (by decide : (1 : ℕ) < 6), vec1_pB2 _ (by decide : (2 : ℕ) < 6),
    cur_pW3 _ (by decide : (0 : ℕ) < 3), vec1_pB2 _ (by decide : (0 : ℕ) < 3)]
  rfl

theorem sl3_pRela1 (a : Args) (b : Fin 64) : sl3 (pRela1 a) b = Spec.rela1 (a.inputs b) := by
  unfold pRela1
  simp only [sl3_pRelu, sl3_addf, sl3_pLin, sl3_pMm,
    cur_pW4 _ _ (by decide : (0 : ℕ) < 3) (by decide : (0 : ℕ) < 2), cur_pW4 _ _ (by decide : (0 : ℕ) < 3) (by decide : (1 : ℕ) < 2),
    vec1_pB3 _ _ (by decide : (0 : ℕ) < 3) (by decide : (0 : ℕ) < 2), vec1_pB3 _ _ (by decide : (0 : ℕ) < 3) (by decide : (1 : ℕ) < 2)]
  rfl

theorem sl3_pNode2 (a : Args) (b : Fin 64) : sl3 (pNode2 a) b = Spec.node2 (Spec.msgR one eps) (a.inputs b) := by
  unfold pNode2
  simp only [sl3_pRelu, sl3_addf, sl3_pLin, sl3_pMsg, sl3_pMm, sl3_pNode1, sl3_pRela1,
    cur_pW3 _ (by decide : (3 : ℕ) < 6), cur_pW3 _ (by decide : (4 : ℕ) < 6),
    vec1_pB2 _ (by decide : (3 : ℕ) < 6), vec1_pB2 _ (by decide : (4 : ℕ) < 6),
    cur_pW3 _ (by decide : (1 : ℕ) < 3), vec1_pB2 _ (by decide : (1 : ℕ) < 3)]
  rfl

theorem sl3_pRela2 (a : Args) (b : Fin 64) : sl3 (pRela2 a) b = Spec.rela2 (Spec.msgR one eps) (a.inputs b) := by
  unfold pRela2
  simp only [sl3_pRelu, sl3_addf, sl3_pLin, sl3_pMm, sl3_pNode1, sl3_pRela1,
    cur_pW4 _ _ (by decide : (1 : ℕ) < 3) (by decide : (0 : ℕ) < 2), cur_pW4 _ _ (by decide : (1 : ℕ) < 3) (by decide : (1 : ℕ) < 2),
    vec1_pB3 _ _ (by decide : (1 : ℕ) < 3) (by decide : (0 : ℕ) < 2), vec1_pB3 _ _ (by decide : (1 : ℕ) < 3) (by decide : (1 : ℕ) < 2)]
  rfl

theorem sl3_pNode3 (a : Args) (b : Fin 64) : sl3 (pNode3 a) b = Spec.node3 (Spec.msgR one eps) (a.inputs b) := by
  unfold pNode3
  simp only [sl3_pRelu, sl3_addf, sl3_pLin, sl3_pMsg, sl3_pMm, sl3_pNode2, sl3_pRela2,
    cur_pW3 _ (by decide : (5 : ℕ) < 6), vec1_pB2 _ (by decide : (5 : ℕ) < 6),
    cur_pW3 _ (by decide : (2 : ℕ) < 3), vec1_pB2 _ (by decide : (2 : ℕ) < 3)]
  rfl

theorem sl3_pRela3 (a : Args) (b : Fin 64) : sl3 (pRela3 a) b = Spec.rela3 (Spec.msgR one eps) (a.inputs b) := by
  unfold pRela3
  simp only [sl3_pRelu, sl3_addf, sl3_pLin, sl3_pMm, sl3_pNode2, sl3_pRela2,
    cur_pW4 _ _ (by decide : (2 : ℕ) < 3) (by decide : (0 : ℕ) < 2), cur_pW4 _ _ (by decide : (2 : ℕ) < 3) (by decide : (1 : ℕ) < 2),
    vec1_pB3 _ _ (by decide : (2 : ℕ) < 3) (by decide : (0 : ℕ) < 2), vec1_pB3 _ _ (by decide : (2 : ℕ) < 3) (by decide : (1 : ℕ) < 2)]
  rfl

end Program

end Cert.Hand.Ref

end
-- ==== Proof.RefValue.lean ====
/-
  The reference program's two results, read at an index, are the specification's two tables after round 3.

  The run's composed term for each result is the program's text with every shared table repeated; written with each
  table once it is the three rounds of the program, by unfolding the definitions. Read at (b, i, j), that is the
  specification's table of batch element b's arrays at (i, j).
-/
import proofs.«144723_j60885456388892_2_alg».proof.Proof.RefRunPatched
import proofs.«144723_j60885456388892_2_alg».proof.Proof.RefProg

noncomputable section

namespace Cert.Hand.Ref

open Idealize.ShloMosaic Idealize.ShloMosaic.ValueIdx Cert.ReferenceIdeal Cert.Hand Cert.Hand.Spec

/-! ## The run's two results are the program's two tables -/

section Final
open Cert.ReferenceIdeal.Gen Idealize.ShloMosaic.TcCoe Idealize.SL.Sem

/-- The sixteen argument arrays as the run's memory holds them. -/
def argsOf (m : (ℓ : Loc nD τ sig) → Buf (Elt Ideal) ℓ) (c : Dev nD) : Args where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)
  x8 := m ((c.tc : Thread nD τ).loc main_arg8)
  x9 := m ((c.tc : Thread nD τ).loc main_arg9)
  x10 := m ((c.tc : Thread nD τ).loc main_arg10)
  x11 := m ((c.tc : Thread nD τ).loc main_arg11)
  x12 := m ((c.tc : Thread nD τ).loc main_arg12)
  x13 := m ((c.tc : Thread nD τ).loc main_arg13)
  x14 := m ((c.tc : Thread nD τ).loc main_arg14)
  x15 := m ((c.tc : Thread nD τ).loc main_arg15)

set_option maxRecDepth 8192 in
theorem res_rela3_eq (m : (ℓ : Loc nD τ sig) → Buf (Elt Ideal) ℓ) (c : Dev nD) :
    Cert.ReferenceIdeal.ValueP.res_main_v278 (F := Ideal) m c = pRela3 (argsOf m c) := by
  unfold Cert.ReferenceIdeal.ValueP.res_main_v278
  rfl

set_option maxRecDepth 8192 in
theorem res_node3_eq (m : (ℓ : Loc nD τ sig) → Buf (Elt Ideal) ℓ) (c : Dev nD) :
    Cert.ReferenceIdeal.ValueP.res_main_v251 (F := Ideal) m c = pNode3 (argsOf m c) := by
  unfold Cert.ReferenceIdeal.ValueP.res_main_v251
  rfl

end Final

section Statements
open Cert.ReferenceIdeal.Gen Idealize.ShloMosaic.TcCoe Idealize.SL.Sem

/-- The reference's first result, the node table after round 3, read at (b, i, j): the specification's node table of
    batch element b's arrays, the message spelt with the adjacency's rows scaled first. -/
theorem ref_node3 (m : (ℓ : Loc nD τ sig) → Buf (Elt Ideal) ℓ) (c : Dev nD) (b : Fin 64) (i j : Fin 512) :
    Cert.ReferenceIdeal.ValueP.res_main_v251 (F := Ideal) m c (ix3 b i j)
      = Cert.Hand.Spec.node3 (Cert.Hand.Spec.msgR (Ideal.ofBits .f32 0x3F800000#32) (Ideal.ofBits .f32 0x2EDBE6FF#32))
          (Cert.Hand.batchInputs (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15)) b) i j := by
  rw [res_node3_eq]
  exact congrFun (congrFun (sl3_pNode3 (argsOf m c) b) i) j

/-- The reference's second result, the relation table after round 3, read at (b, i, j): the specification's relation
    table of batch element b's arrays. -/
theorem ref_rela3 (m : (ℓ : Loc nD τ sig) → Buf (Elt Ideal) ℓ) (c : Dev nD) (b : Fin 64) (i j : Fin 512) :
    Cert.ReferenceIdeal.ValueP.res_main_v278 (F := Ideal) m c (ix3 b i j)
      = Cert.Hand.Spec.rela3 (Cert.Hand.Spec.msgR (Ideal.ofBits .f32 0x3F800000#32) (Ideal.ofBits .f32 0x2EDBE6FF#32))
          (Cert.Hand.batchInputs (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15)) b) i j := by
  rw [res_rela3_eq]
  exact congrFun (congrFun (sl3_pRela3 (argsOf m c) b) i) j

end Statements

end Cert.Hand.Ref

end
-- ==== Proof.LibKeepdims.lean ====
/-
  Column vectors kept as two-dimensional arrays, read at an index.

  A row sum taken with `keepdims` leaves a vector of length `a` as an `[a, 1]` array; the kernel then re-lays that
  column (a transpose to `[1, a]`, a broadcast along the rows or along the columns). Each lemma below reads ONE such
  operation at an index written by its coordinates (`ix1`, `ix2`), so that a chain of them walks from an element of the
  broadcast array back to the element of the vector it copies. The rest read a sum along the second axis of a matrix
  as a sum over the column coordinate: the index the reduction inserts at row `p` and column `k` is `(p, k)`
  (`lift_row`), so the vector unit's reduction, whose accumulator word is the sum's neutral element and adds nothing,
  is at row `p` the sum of the row's entries (`rowSum_apply`; `rowSum_zero_f32_apply` for the f32 zero word).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Keepdims

open Idealize.ShloMosaic Idealize.ShloMosaic.ValueIdx

variable {α : Type}

/-- A vector of length `a` cast to a column `[a, 1]` reads, at `(i, u)`, the vector at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along the second axis of a matrix inserts: row `p`, column `k`. -/
theorem lift_row {a b : ℕ} (h : (⟨2, ![a, b]⟩ : Shape).Reduces [1] ⟨1, ![a]⟩) (p : Fin a) (k : Fin b) :
    h.lift (ix1 p) k = ix2 p k :=
  funext fun d => Fin.ext (by match d with | ⟨0, _⟩ => rfl | ⟨1, _⟩ => rfl)

/-- At the exact values, the vector unit's sum along the second axis of a matrix, started from the zero word, is at row
    `p` the sum over the columns `k` of the entries `(p, k)`. -/
theorem rowSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- The same for the f32 zero word with the accumulator's neutrality stated as the plain equation of words a printed
    body carries (`0 = 0`: the neutral element of an f32 sum IS the zero word, by computation). -/
theorem rowSum_zero_f32_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) :=
  rowSum_apply v _ h hφ hacc p

end Cert.Keepdims

end
-- ==== Proof.LibPlainDot.lean ====
/-
  A plain matrix product read at an index.

  For the dimension numbers of an `M×K` by `K×N` product (contract the left operand's columns with the right operand's
  rows, no batch axis), the left operand's index at result index `(p, q)` and contraction position `k` is `(p, k)` and the
  right operand's is `(k, q)`. So, at the exact values, the vector unit's product into the zero accumulator and the
  host's `dot_general` are both, at `(p, q)`, the sum over `k` of `l (p, k) · r (k, q)`.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- One axis is contracted, of extent `K`. -/
theorem contr_rank : (DotDims.plain M K N).contr.rank = 1 := rfl
theorem contr_size : (DotDims.plain M K N).contr.size ⟨0, by rw [contr_rank]; exact Nat.one_pos⟩ = K := rfl

/-- The contraction positions are the numbers below `K`. -/
abbrev pos : (DotDims.plain M K N).contr.Idx ≃ Fin K := contrEquiv1 (DotDims.plain M K N) K (contr_rank M K N) (contr_size M K N)

/-- On its row axis the left operand follows the result's row. -/
theorem lhsIdx_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its column axis the right operand follows the result's column. -/
theorem rhsIdx_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand is read at `(p, k)`. -/
theorem lhsIdx_eq (p : Fin M) (q : Fin N) (k : Fin K) :
    (DotDims.plain M K N).lhsIdx (ix2 p q) ((pos M K N).symm k) = ix2 p k := by
  have hk := contrEquiv1_symm_val (DotDims.plain M K N) K (contr_rank M K N) (contr_size M K N) k
  funext a
  apply Fin.ext
  match a with
  | ⟨0, _⟩ => exact lhsIdx_row M K N _ _
  | ⟨1, _⟩ => exact ((DotDims.plain M K N).lhsIdx_val_of_single (cl := (1 : Fin 2)) rfl _ _).trans hk

/-- The right operand is read at `(k, q)`. -/
theorem rhsIdx_eq (p : Fin M) (q : Fin N) (k : Fin K) :
    (DotDims.plain M K N).rhsIdx (ix2 p q) ((pos M K N).symm k) = ix2 k q := by
  have hk := contrEquiv1_symm_val (DotDims.plain M K N) K (contr_rank M K N) (contr_size M K N) k
  funext a
  apply Fin.ext
  match a with
  | ⟨0, _⟩ => exact ((DotDims.plain M K N).rhsIdx_val_of_single (cr := (0 : Fin 2)) rfl _ _).trans hk
  | ⟨1, _⟩ => exact rhsIdx_col M K N _ _

variable {M K N}

/-- The sum over contraction positions is the sum over `k < K` of the operands at `(p, k)` and `(k, q)`. -/
theorem sum_contr {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k) : EReal)
      = ∑ k : Fin K, l (ix2 p k) * r (ix2 k q) := by
  rw [← Equiv.sum_comp (pos M K N).symm]
  refine Finset.sum_congr rfl fun k _ => ?_
  rw [lhsIdx_eq, rhsIdx_eq]

/-- The vector unit's product into the zero accumulator, at `(p, q)`. -/
theorem matmul_zero_apply {φ₁ φ₂ : FTy} (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant ⟨2, ![M, N]⟩ .f32 0x00000000#32) (ix2 p q) = ∑ k : Fin K, l (ix2 p k) * r (ix2 k q) :=
  (Ideal.matmul_constant_zero_apply _ prec l r _).trans (sum_contr l r p q)

/-- The host's `dot_general`, at `(p, q)`. -/
theorem dotGeneral_apply {φ₁ φ₂ : FTy} (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply _ prec sched l r _).trans (sum_contr l r p q)

end Cert.PlainDot

end
-- ==== Proof.KOps.lean ====
/-
  The vector unit's operations on one batch element's 512×512 tables, read as the specification's operations.

  A table held as a two-axis array is read through `cur` (entry `(i, j)`), a column held as a `[512, 1]` array through
  `colv`, a row held as a `[1, 512]` array through `rd2`, a plain vector through `rd1`; blocks of the operands with their
  leading unit axes are read through `blk3`, `blk4`, `col3`, `rd3`. Each lemma says that one operation of the body,
  read this way, is one operation of the specification on what its operands read as: sums and products entry by entry,
  the clamp at zero, the product of two tables (into the zero accumulator), a column repeated along the rows, a row
  repeated down the rows, the casts that only drop or add unit axes, a change of float format (the identity on exact
  values), and the inverse degree `1 / (row sum + ε)` as the body spells it.
-/
import Idealize.ShloMosaic.Lib.Pipeline.Value
import Idealize.ShloMosaic.Lib.ValueIdx
import Idealize.ShloMosaic.Lib.ValueLayout
import Idealize.ShloMosaic.PureOps.Ideal.Laws
import proofs.«144723_j60885456388892_2_alg».proof.KernelIdeal
import proofs.«144723_j60885456388892_2_alg».proof.Proof.Gen.KernelIdeal
import proofs.«144723_j60885456388892_2_alg».proof.Proof.Spec
import proofs.«144723_j60885456388892_2_alg».proof.Proof.LibKeepdims
import proofs.«144723_j60885456388892_2_alg».proof.Proof.LibPlainDot

noncomputable section

open scoped BigOperators

namespace Cert.Hand.K

open Idealize.ShloMosaic Idealize.ShloMosaic.ValueIdx Cert.KernelIdeal Cert.Hand.Spec

/-- The exact value of the float word for one. -/
abbrev one : EReal := Ideal.ofBits .f32 0x3F800000#32
/-- The exact value of the float word the programs add to a row sum. -/
abbrev eps : EReal := Ideal.ofBits .f32 0x2EDBE6FF#32

abbrev N := Fin 512

def cur {φ : FTy} (X : FVec Ideal S512x512 φ) : Mat N := fun i j => X (ix2 i j)
def colv (V : FVec Ideal S512x1 .f32) : N → EReal := fun i => V (ix2 i (0 : Fin 1))
def rd2 (R : FVec Ideal S1x512 .f32) : N → EReal := fun o => R (ix2 (0 : Fin 1) o)
def rd1 (u : FVec Ideal S512 .f32) : N → EReal := fun o => u (ix1 o)
def blk3 {φ : FTy} (P : FVec Ideal S1x512x512 φ) : Mat N := fun i j => P (ix3 (0 : Fin 1) i j)
def blk4 {φ : FTy} (P : FVec Ideal S1x1x512x512 φ) : Mat N := fun i j => P (ix4 (0 : Fin 1) (0 : Fin 1) i j)
def col3 (P : FVec Ideal S1x512x1 .f32) : N → EReal := fun i => P (ix3 (0 : Fin 1) i (0 : Fin 1))
def rd3 (P : FVec Ideal S1x1x512 .f32) : N → EReal := fun o => P (ix3 (0 : Fin 1) (0 : Fin 1) o)

theorem cur_addf (X Y : FVec Ideal S512x512 .f32) : cur (addf X Y) = add (cur X) (cur Y) := rfl
theorem cur_mulf (X Y : FVec Ideal S512x512 .f32) : cur (mulf X Y) = mul (cur X) (cur Y) := rfl

theorem cur_relu (X : FVec Ideal S512x512 .f32) :
    cur (maximumf X (broadcast S512x512 (Scalar.ofBits .f32 0x00000000#32))) = relu (cur X) := by
  funext i j
  show max (X (ix2 i j)) (Ideal.ofBits .f32 0x00000000#32) = max (X (ix2 i j)) 0
  rw [Ideal.ofBits_zero_f32]

theorem cur_matmul {φ₁ φ₂ : FTy} (A : FVec Ideal S512x512 φ₁) (B : FVec Ideal S512x512 φ₂) :
    cur (matmul dot_S512x512_S512x512_S512x512_1_0_0_1_n_n none A B (constant S512x512 .f32 0x00000000#32)) = mm (cur A) (cur B) := by
  funext i j
  exact Cert.PlainDot.matmul_zero_apply (M := 512) (K := 512) (N := 512) none A B i j

/-- A change of float format does not change what a table reads as. -/
theorem cur_truncf {φ ψ : FTy} (X : FVec Ideal S512x512 φ) (h : ψ.bits < φ.bits) : cur (truncf ψ X h) = cur X := rfl

theorem truncf_id {s : Shape} {φ ψ : FTy} (X : FVec Ideal s φ) (h : ψ.bits < φ.bits) : (truncf ψ X h : FVec Ideal s ψ) = X := rfl

theorem cur_bcCol (V : FVec Ideal S512x1 .f32) (h : S512x1.Broadcasts S512x512) :
    cur (broadcastTo S512x512 V h) = bcCol (colv V) := by
  funext i j
  exact Cert.Keepdims.broadcastTo_a1_ab_apply V h i j

theorem cur_bcRow (R : FVec Ideal S1x512 .f32) (h : S1x512.Broadcasts S512x512) :
    cur (broadcastTo S512x512 R h) = bcRow (rd2 R) := by
  funext i j
  exact broadcastTo_1b_ab_apply R h i j

theorem rd2_cast (u : FVec Ideal S512 .f32) (h : S512.ShapeCasts S1x512) : rd2 (shapeCast S1x512 u h) = rd1 u := by
  funext o
  exact shapeCast_a_1a_apply u h 0 o

theorem rd1_cast2 (P : FVec Ideal S1x512 .f32) (h : S1x512.ShapeCasts S512) : rd1 (shapeCast S512 P h) = rd2 P := by
  funext o
  exact shapeCast_1a_a_apply P h o

theorem rd1_cast3 (P : FVec Ideal S1x1x512 .f32) (h : S1x1x512.ShapeCasts S512) : rd1 (shapeCast S512 P h) = rd3 P := by
  funext o
  refine shapeCast_apply P h _ _ ?_
  rw [Shape.rowMajor_val_three, Shape.rowMajor_val_one]
  show (0 * 1 + 0) * 512 + o.val = o.val
  omega

theorem colv_cast (P : FVec Ideal S1x512x1 .f32) (h : S1x512x1.ShapeCasts S512x1) : colv (shapeCast S512x1 P h) = col3 P := by
  funext i
  refine shapeCast_apply P h _ _ ?_
  rw [Shape.rowMajor_val_three, Shape.rowMajor_val_two]
  show (0 * 512 + i.val) * 1 + 0 = i.val * 1 + 0
  omega

theorem cur_cast3 {φ : FTy} (P : FVec Ideal S1x512x512 φ) (h : S1x512x512.ShapeCasts S512x512) :
    cur (shapeCast S512x512 P h) = blk3 P := by
  funext i j
  exact shapeCast_1ab_ab_apply P h i j

theorem cur_cast4 {φ : FTy} (P : FVec Ideal S1x1x512x512 φ) (h : S1x1x512x512.ShapeCasts S512x512) :
    cur (shapeCast S512x512 P h) = blk4 P := by
  funext i j
  refine shapeCast_apply P h _ _ ?_
  rw [Shape.rowMajor_val_four, Shape.rowMajor_val_two]
  show ((0 * 1 + 0) * 512 + i.val) * 512 + j.val = i.val * 512 + j.val
  omega

/-- A table cast back to a block with a leading unit axis reads, at `(0, i, j)`, the table at `(i, j)`. -/
theorem cast_1ab_apply (X : FVec Ideal S512x512 .f32) (h : S512x512.ShapeCasts S1x512x512) (u : Fin 1) (i j : N) :
    shapeCast S1x512x512 X h (ix3 u i j) = cur X i j :=
  shapeCast_ab_1ab_apply X h u i j

/-- The inverse degree as the body spells it: one over (the row sum, kept as a column, plus ε). -/
theorem colv_dinv (A : FVec Ideal S512x512 .f32) (hr : S512x512.Reduces [1] S512) (hφ : FKind.Formats .f32)
    (hacc : (0x00000000#32 : BitVec 32) = 0x00000000#32) (hc : S512.ShapeCasts S512x1) :
    colv (divf (broadcast S512x1 (Scalar.ofBits .f32 0x3F800000#32))
      (addf (shapeCast S512x1 (multiReduction .add [1] S512 A 0x00000000#32 hr hφ hacc) hc)
        (broadcast S512x1 (Scalar.ofBits .f32 0x2EDBE6FF#32)))) = dinvK one eps (cur A) := by
  funext i
  show Ideal.div one (shapeCast S512x1 (multiReduction .add [1] S512 A 0x00000000#32 hr hφ hacc) hc (ix2 i (0 : Fin 1)) + eps)
    = Ideal.div one ((∑ j, A (ix2 i j)) + eps)
  rw [Cert.Keepdims.shapeCast_a_a1_apply, Cert.Keepdims.rowSum_zero_f32_apply]

end Cert.Hand.K

end
-- ==== Proof.KInputs.lean ====
/-
  One grid point's operand blocks, as the specification's arrays.

  The body reads each operand block through fixed rectangles: the whole block for the batched operands, and one layer
  of a weight or bias stack per affine layer. `blockInputs` collects what those reads give, each re-read as a table, a
  column or a vector, in the order the rounds use them.
-/
import proofs.«144723_j60885456388892_2_alg».proof.Proof.Gen.KernelIdeal.Frame
import proofs.«144723_j60885456388892_2_alg».proof.Proof.KOps

noncomputable section

namespace Cert.Hand.K

open Idealize.ShloMosaic Idealize.ShloMosaic.ValueIdx Cert.KernelIdeal Cert.KernelIdeal.Gen Cert.Hand.Spec

/-- The arrays of one batch element as the body finds them in its sixteen operand blocks. -/
def blockInputs (x0 : Vec Ideal S1x512x512 .f32) (x1 : Vec Ideal S1x512x512 .f32) (x2 : Vec Ideal S1x512x1 .f32) (x3 : Vec Ideal S1x512x1 .f32)
    (x4 : Vec Ideal S1x512x512 .f32) (x5 : Vec Ideal S1x512x512 .f32) (x6 : Vec Ideal S1x512x512 .f32)
    (x7 : Vec Ideal S1x512x512 .bf16) (x8 : Vec Ideal S1x512x512 .bf16) (x9 : Vec Ideal S1x512x512 .bf16)
    (x10 : Vec Ideal S6x512x512 .bf16) (x11 : Vec Ideal S6x512 .f32) (x12 : Vec Ideal S3x512x512 .bf16) (x13 : Vec Ideal S3x512 .f32)
    (x14 : Vec Ideal S3x2x512x512 .bf16) (x15 : Vec Ideal S3x2x512 .f32) : Inputs N where
  node := blk3 (φ := .f32) (View.ld x0 r0_1)
  rela := blk3 (φ := .f32) (View.ld x1 r0_1)
  am := col3 (View.ld x2 r0_0)
  rm := col3 (View.ld x3 r0_0)
  adj1 := blk3 (φ := .f32) (View.ld x4 r0_1)
  adj2 := blk3 (φ := .f32) (View.ld x5 r0_1)
  adj3 := blk3 (φ := .f32) (View.ld x6 r0_1)
  rsub := blk3 (φ := .bf16) (View.ld x7 r0_1)
  robj := blk3 (φ := .bf16) (View.ld x8 r0_1)
  rn2r := blk3 (φ := .bf16) (View.ld x9 r0_1)
  wnnT := ![blk3 (φ := .bf16) (View.ld x10 r0_2), blk3 (φ := .bf16) (View.ld x10 r0_4), blk3 (φ := .bf16) (View.ld x10 r0_6), blk3 (φ := .bf16) (View.ld x10 r0_14),
    blk3 (φ := .bf16) (View.ld x10 r0_16), blk3 (φ := .bf16) (View.ld x10 r0_24)]
  bnn := ![rd2 (View.ld x11 r0_3), rd2 (View.ld x11 r0_5), rd2 (View.ld x11 r0_7), rd2 (View.ld x11 r0_15),
    rd2 (View.ld x11 r0_17), rd2 (View.ld x11 r0_25)]
  wnrT := ![blk3 (φ := .bf16) (View.ld x12 r0_8), blk3 (φ := .bf16) (View.ld x12 r0_18), blk3 (φ := .bf16) (View.ld x12 r0_26)]
  bnr := ![rd2 (View.ld x13 r0_9), rd2 (View.ld x13 r0_19), rd2 (View.ld x13 r0_27)]
  wrT := ![![blk4 (φ := .bf16) (View.ld x14 r0_10), blk4 (φ := .bf16) (View.ld x14 r0_12)], ![blk4 (φ := .bf16) (View.ld x14 r0_20), blk4 (φ := .bf16) (View.ld x14 r0_22)],
    ![blk4 (φ := .bf16) (View.ld x14 r0_28), blk4 (φ := .bf16) (View.ld x14 r0_30)]]
  br := ![![rd3 (View.ld x15 r0_11), rd3 (View.ld x15 r0_13)], ![rd3 (View.ld x15 r0_21), rd3 (View.ld x15 r0_23)],
    ![rd3 (View.ld x15 r0_29), rd3 (View.ld x15 r0_31)]]

end Cert.Hand.K

end
-- ==== Proof.KBlocks.lean ====
/-
  One grid point's operand blocks are one batch element's arrays.

  The grid has 64 points; point `t` is batch element `t`. A batched operand's block at point `t` is the slab
  `(t, ·, ·)` of its array: entry `(0, i, j)` of the block is entry `(t, i, j)` of the array. A mask's block is the slab
  `(t, ·, 0)` of the mask reshaped to a column: its entry `(0, i, 0)` is entry `(t, i)` of the mask. The weight and bias
  stacks are whole at every point; a weight stack reaches the region with each layer transposed, so entry `(k, d, o)`
  of what the region finds is entry `(k, o, d)` of the stack: the body's layer `k`, read as a table, is the transpose of
  the stack's layer `k`. A change of float format on the way is the identity on exact values.
-/
import proofs.«144723_j60885456388892_2_alg».proof.Proof.KInputs
import proofs.«144723_j60885456388892_2_alg».proof.Proof.Inputs
import proofs.«144723_j60885456388892_2_alg».proof.Proof.Gen.KernelIdeal.Value
import Idealize.ShloMosaic.Lib.Pipeline.Value
import Idealize.ShloMosaic.Lib.ValueLayout

noncomputable section

namespace Cert.Hand.K

open Idealize.ShloMosaic Idealize.ShloMosaic.ValueIdx Idealize.ShloMosaic.TcCoe Idealize.ShloMosaic.StableHlo
open Cert.KernelIdeal Cert.KernelIdeal.Gen Cert.Hand.Spec

open Cert.Hand

variable (m : (ℓ : Loc nD τ sig) → Buf (Elt Ideal) ℓ)

/-- Grid point `t` as a batch index. -/
abbrev bat (t : Fin cfg0.N) : Fin 64 := ⟨t.val, lt_of_lt_of_eq t.isLt N_0⟩

/-! ## Where each window's block sits: block index `t` on the batch axis for the batched operands, zero everywhere else -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)

theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)

theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 3) = 0 ∧ win0_12.index t (1 : Fin 3) = 0 ∧ win0_12.index t (2 : Fin 3) = 0 :=
  (by decide +kernel : ∀ t : Fin grid0.N, _)

theorem idx13 : ∀ t : Fin cfg0.N, win0_13.index t (0 : Fin 2) = 0 ∧ win0_13.index t (1 : Fin 2) = 0 :=
  (by decide +kernel : ∀ t : Fin grid0.N, _)

theorem idx14 : ∀ t : Fin cfg0.N, win0_14.index t (0 : Fin 4) = 0 ∧ win0_14.index t (1 : Fin 4) = 0 ∧ win0_14.index t (2 : Fin 4) = 0 ∧ win0_14.index t (3 : Fin 4) = 0 :=
  (by decide +kernel : ∀ t : Fin grid0.N, _)

theorem idx15 : ∀ t : Fin cfg0.N, win0_15.index t (0 : Fin 3) = 0 ∧ win0_15.index t (1 : Fin 3) = 0 ∧ win0_15.index t (2 : Fin 3) = 0 :=
  (by decide +kernel : ∀ t : Fin grid0.N, _)

/-! ## The arrays computed from the arguments before the region is entered, as functions of the argument arrays -/

/-- The first mask reshaped to a column per batch element. -/
theorem V_v6 (c : Dev nD) : (V m c main_v6 : S64x512x1.Idx → EReal) = shapeCast S64x512x1 (m ((c : Thread nD τ).loc main_arg2) : S64x512.Idx → EReal) shapeCasts_S64x512_S64x512x1 := by
  dsimp only [Gen.V, Gen.hostOps0]
  after_results
  rfl

/-- The second mask reshaped to a column per batch element. -/
theorem V_v7 (c : Dev nD) : (V m c main_v7 : S64x512x1.Idx → EReal) = shapeCast S64x512x1 (m ((c : Thread nD τ).loc main_arg3) : S64x512.Idx → EReal) shapeCasts_S64x512_S64x512x1 := by
  dsimp only [Gen.V, Gen.hostOps0]
  after_results
  rfl

/-- A change of float format is the identity on exact values. -/
theorem V_v8 (c : Dev nD) : (V m c main_v8 : S64x512x512.Idx → EReal) = (m ((c : Thread nD τ).loc main_arg7) : S64x512x512.Idx → EReal) := by
  dsimp only [Gen.V, Gen.hostOps0]
  after_results
  rfl

/-- A change of float format is the identity on exact values. -/
theorem V_v9 (c : Dev nD) : (V m c main_v9 : S64x512x512.Idx → EReal) = (m ((c : Thread nD τ).loc main_arg8) : S64x512x512.Idx → EReal) := by
  dsimp only [Gen.V, Gen.hostOps0]
  after_results
  rfl

/-- A change of float format is the identity on exact values. -/
theorem V_v10 (c : Dev nD) : (V m c main_v10 : S64x512x512.Idx → EReal) = (m ((c : Thread nD τ).loc main_arg9) : S64x512x512.Idx → EReal) := by
  dsimp only [Gen.V, Gen.hostOps0]
  after_results
  rfl

/-- The first weight stack with each layer transposed. -/
theorem V_v1 (c : Dev nD) : (V m c main_v1 : S6x512x512.Idx → EReal) = transpose S6x512x512 [0, 2, 1] (m ((c : Thread nD τ).loc main_arg10) : S6x512x512.Idx → EReal) transposes_S6x512x512_S6x512x512_0_2_1 := by
  dsimp only [Gen.V, Gen.hostOps0]
  after_results
  rfl

/-- The second weight stack with each layer transposed. -/
theorem V_v3 (c : Dev nD) : (V m c main_v3 : S3x512x512.Idx → EReal) = transpose S3x512x512 [0, 2, 1] (m ((c : Thread nD τ).loc main_arg12) : S3x512x512.Idx → EReal) transposes_S3x512x512_S3x512x512_0_2_1 := by
  dsimp only [Gen.V, Gen.hostOps0]
  after_results
  rfl

/-- The third weight stack with each layer transposed. -/
theorem V_v5 (c : Dev nD) : (V m c main_v5 : S3x2x512x512.Idx → EReal) = transpose S3x2x512x512 [0, 1, 3, 2] (m ((c : Thread nD τ).loc main_arg14) : S3x2x512x512.Idx → EReal) transposes_S3x2x512x512_S3x2x512x512_0_1_3_2 := by
  dsimp only [Gen.V, Gen.hostOps0]
  after_results
  rfl

/-! ## A block's entry is an entry of the argument array

Each lemma takes the index `y` inside the block and the index `k` into the argument array as variables, with the
relation between their coordinates as hypotheses. -/

/-- Entry `y` of the block at point `t` is entry `(t, y₁, y₂)` of the array. -/
theorem iblk0_at (c : Dev nD) (t : Fin cfg0.N) (y : S1x512x512.Idx) (k : S64x512x512.Idx)
    (h0 : (k 0).val = t.val) (h1 : (k 1).val = (y 1).val) (h2 : (k 2).val = (y 2).val) :
    (iblk m c 0 t : Vec Ideal S1x512x512 .f32) y = (m ((c : Thread nD τ).loc main_arg0) : S64x512x512.Idx → EReal) k := by
  obtain ⟨e0, e1, e2⟩ := idx0 t
  have hy : (y 0).val < 1 := (y 0).isLt
  unfold iblk
  rw [View.read_apply]
  show V m c main_arg0 _ = _
  rw [V_main_arg0]
  refine congrArg _ (funext fun a => Fin.ext ?_)
  match a with
  | ⟨0, _⟩ => show win0_0.index t (0 : Fin 3) * 1 + 1 * (y 0).val = (k 0).val; omega
  | ⟨1, _⟩ => show win0_0.index t (1 : Fin 3) * 512 + 1 * (y 1).val = (k 1).val; omega
  | ⟨2, _⟩ => show win0_0.index t (2 : Fin 3) * 512 + 1 * (y 2).val = (k 2).val; omega

/-- Entry `y` of the block at point `t` is entry `(t, y₁, y₂)` of the array. -/
theorem iblk1_at (c : Dev nD) (t : Fin cfg0.N) (y : S1x512x512.Idx) (k : S64x512x512.Idx)
    (h0 : (k 0).val = t.val) (h1 : (k 1).val = (y 1).val) (h2 : (k 2).val = (y 2).val) :
    (iblk m c 1 t : Vec Ideal S1x512x512 .f32) y = (m ((c : Thread nD τ).loc main_arg1) : S64x512x512.Idx → EReal) k := by
  obtain ⟨e0, e1, e2⟩ := idx1 t
  have hy : (y 0).val < 1 := (y 0).isLt
  unfold iblk
  rw [View.read_apply]
  show V m c main_arg1 _ = _
  rw [V_main_arg1]
  refine congrArg _ (funext fun a => Fin.ext ?_)
  match a with
  | ⟨0, _⟩ => show win0_1.index t (0 : Fin 3) * 1 + 1 * (y 0).val = (k 0).val; omega
  | ⟨1, _⟩ => show win0_1.index t (1 : Fin 3) * 512 + 1 * (y 1).val = (k 1).val; omega
  | ⟨2, _⟩ => show win0_1.index t (2 : Fin 3) * 512 + 1 * (y 2).val = (k 2).val; omega

/-- Entry `y` of the mask's column block at point `t` is entry `(t, y₁)` of the mask. -/
theorem iblk2_at (c : Dev nD) (t : Fin cfg0.N) (y : S1x512x1.Idx) (k : S64x512.Idx)
    (h0 : (k 0).val = t.val) (h1 : (k 1).val = (y 1).val) :
    (iblk m c 2 t : Vec Ideal S1x512x1 .f32) y = (m ((c : Thread nD τ).loc main_arg2) : S64x512.Idx → EReal) k := by
  obtain ⟨e0, e1, e2⟩ := idx2 t
  have hy0 : (y 0).val < 1 := (y 0).isLt
  have hy2 : (y 2).val < 1 := (y 2).isLt
  unfold iblk
  rw [View.read_apply]
  show V m c main_v6 _ = _
  rw [V_v6]
  refine shapeCast_apply (s := S64x512) (t := S64x512x1) _ _ _ k ?_
  rw [Shape.rowMajor_val_two, Shape.rowMajor_val_three]
  show (k 0).val * 512 + (k 1).val = ((win0_2.index t (0 : Fin 3) * 1 + 1 * (y 0).val) * 512 + (win0_2.index t (1 : Fin 3) * 512 + 1 * (y 1).val)) * 1 + (win0_2.index t (2 : Fin 3) * 1 + 1 * (y 2).val)
  omega

/-- Entry `y` of the mask's column block at point `t` is entry `(t, y₁)` of the mask. -/
theorem iblk3_at (c : Dev nD) (t : Fin cfg0.N) (y : S1x512x1.Idx) (k : S64x512.Idx)
    (h0 : (k 0).val = t.val) (h1 : (k 1).val = (y 1).val) :
    (iblk m c 3 t : Vec Ideal S1x512x1 .f32) y = (m ((c : Thread nD τ).loc main_arg3) : S64x512.Idx → EReal) k := by
  obtain ⟨e0, e1, e2⟩ := idx3 t
  have hy0 : (y 0).val < 1 := (y 0).isLt
  have hy2 : (y 2).val < 1 := (y 2).isLt
  unfold iblk
  rw [View.read_apply]
  show V m c main_v7 _ = _
  rw [V_v7]
  refine shapeCast_apply (s := S64x512) (t := S64x512x1) _ _ _ k ?_
  rw [Shape.rowMajor_val_two, Shape.rowMajor_val_three]
  show (k 0).val * 512 + (k 1).val = ((win0_3.index t (0 : Fin 3) * 1 + 1 * (y 0).val) * 512 + (win0_3.index t (1 : Fin 3) * 512 + 1 * (y 1).val)) * 1 + (win0_3.index t (2 : Fin 3) * 1 + 1 * (y 2).val)
  omega

/-- Entry `y` of the block at point `t` is entry `(t, y₁, y₂)` of the array. -/
theorem iblk4_at (c : Dev nD) (t : Fin cfg0.N) (y : S1x512x512.Idx) (k : S64x512x512.Idx)
    (h0 : (k 0).val = t.val) (h1 : (k 1).val = (y 1).val) (h2 : (k 2).val = (y 2).val) :
    (iblk m c 4 t : Vec Ideal S1x512x512 .f32) y = (m ((c : Thread nD τ).loc main_arg4) : S64x512x512.Idx → EReal) k := by
  obtain ⟨e0, e1, e2⟩ := idx4 t
  have hy : (y 0).val < 1 := (y 0).isLt
  unfold iblk
  rw [View.read_apply]
  show V m c main_arg4 _ = _
  rw [V_main_arg4]
  refine congrArg _ (funext fun a => Fin.ext ?_)
  match a with
  | ⟨0, _⟩ => show win0_4.index t (0 : Fin 3) * 1 + 1 * (y 0).val = (k 0).val; omega
  | ⟨1, _⟩ => show win0_4.index t (1 : Fin 3) * 512 + 1 * (y 1).val = (k 1).val; omega
  | ⟨2, _⟩ => show win0_4.index t (2 : Fin 3) * 512 + 1 * (y 2).val = (k 2).val; omega

/-- Entry `y` of the block at point `t` is entry `(t, y₁, y₂)` of the array. -/
theorem iblk5_at (c : Dev nD) (t : Fin cfg0.N) (y : S1x512x512.Idx) (k : S64x512x512.Idx)
    (h0 : (k 0).val = t.val) (h1 : (k 1).val = (y 1).val) (h2 : (k 2).val = (y 2).val) :
    (iblk m c 5 t : Vec Ideal S1x512x512 .f32) y = (m ((c : Thread nD τ).loc main_arg5) : S64x512x512.Idx → EReal) k := by
  obtain ⟨e0, e1, e2⟩ := idx5 t
  have hy : (y 0).val < 1 := (y 0).isLt
  unfold iblk
  rw [View.read_apply]
  show V m c main_arg5 _ = _
  rw [V_main_arg5]
  refine congrArg _ (funext fun a => Fin.ext ?_)
  match a with
  | ⟨0, _⟩ => show win0_5.index t (0 : Fin 3) * 1 + 1 * (y 0).val = (k 0).val; omega
  | ⟨1, _⟩ => show win0_5.index t (1 : Fin 3) * 512 + 1 * (y 1).val = (k 1).val; omega
  | ⟨2, _⟩ => show win0_5.index t (2 : Fin 3) * 512 + 1 * (y 2).val = (k 2).val; omega

/-- Entry `y` of the block at point `t` is entry `(t, y₁, y₂)` of the array. -/
theorem iblk6_at (c : Dev nD) (t : Fin cfg0.N) (y : S1x512x512.Idx) (k : S64x512x512.Idx)
    (h0 : (k 0).val = t.val) (h1 : (k 1).val = (y 1).val) (h2 : (k 2).val = (y 2).val) :
    (iblk m c 6 t : Vec Ideal S1x512x512 .f32) y = (m ((c : Thread nD τ).loc main_arg6) : S64x512x512.Idx → EReal) k := by
  obtain ⟨e0, e1, e2⟩ := idx6 t
  have hy : (y 0).val < 1 := (y 0).isLt
  unfold iblk
  rw [View.read_apply]
  show V m c main_arg6 _ = _
  rw [V_main_arg6]
  refine congrArg _ (funext fun a => Fin.ext ?_)
  match a with
  | ⟨0, _⟩ => show win0_6.index t (0 : Fin 3) * 1 + 1 * (y 0).val = (k 0).val; omega
  | ⟨1, _⟩ => show win0_6.index t (1 : Fin 3) * 512 + 1 * (y 1).val = (k 1).val; omega
  | ⟨2, _⟩ => show win0_6.index t (2 : Fin 3) * 512 + 1 * (y 2).val = (k 2).val; omega

/-- Entry `y` of the block at point `t` is entry `(t, y₁, y₂)` of the array. -/
theorem iblk7_at (c : Dev nD) (t : Fin cfg0.N) (y : S1x512x512.Idx) (k : S64x512x512.Idx)
    (h0 : (k 0).val = t.val) (h1 : (k 1).val = (y 1).val) (h2 : (k 2).val = (y 2).val) :
    (iblk m c 7 t : Vec Ideal S1x512x512 .bf16) y = (m ((c : Thread nD τ).loc main_arg7) : S64x512x512.Idx → EReal) k := by
  obtain ⟨e0, e1, e2⟩ := idx7 t
  have hy : (y 0).val < 1 := (y 0).isLt
  unfold iblk
  rw [View.read_apply]
  show V m c main_v8 _ = _
  rw [V_v8]
  refine congrArg _ (funext fun a => Fin.ext ?_)
  match a with
  | ⟨0, _⟩ => show win0_7.index t (0 : Fin 3) * 1 + 1 * (y 0).val = (k 0).val; omega
  | ⟨1, _⟩ => show win0_7.index t (1 : Fin 3) * 512 + 1 * (y 1).val = (k 1).val; omega
  | ⟨2, _⟩ => show win0_7.index t (2 : Fin 3) * 512 + 1 * (y 2).val = (k 2).val; omega

/-- Entry `y` of the block at point `t` is entry `(t, y₁, y₂)` of the array. -/
theorem iblk8_at (c : Dev nD) (t : Fin cfg0.N) (y : S1x512x512.Idx) (k : S64x512x512.Idx)
    (h0 : (k 0).val = t.val) (h1 : (k 1).val = (y 1).val) (h2 : (k 2).val = (y 2).val) :
    (iblk m c 8 t : Vec Ideal S1x512x512 .bf16) y = (m ((c : Thread nD τ).loc main_arg8) : S64x512x512.Idx → EReal) k := by
  obtain ⟨e0, e1, e2⟩ := idx8 t
  have hy : (y 0).val < 1 := (y 0).isLt
  unfold iblk
  rw [View.read_apply]
  show V m c main_v9 _ = _
  rw [V_v9]
  refine congrArg _ (funext fun a => Fin.ext ?_)
  match a with
  | ⟨0, _⟩ => show win0_8.index t (0 : Fin 3) * 1 + 1 * (y 0).val = (k 0).val; omega
  | ⟨1, _⟩ => show win0_8.index t (1 : Fin 3) * 512 + 1 * (y 1).val = (k 1).val; omega
  | ⟨2, _⟩ => show win0_8.index t (2 : Fin 3) * 512 + 1 * (y 2).val = (k 2).val; omega

/-- Entry `y` of the block at point `t` is entry `(t, y₁, y₂)` of the array. -/
theorem iblk9_at (c : Dev nD) (t : Fin cfg0.N) (y : S1x512x512.Idx) (k : S64x512x512.Idx)
    (h0 : (k 0).val = t.val) (h1 : (k 1).val = (y 1).val) (h2 : (k 2).val = (y 2).val) :
    (iblk m c 9 t : Vec Ideal S1x512x512 .bf16) y = (m ((c : Thread nD τ).loc main_arg9) : S64x512x512.Idx → EReal) k := by
  obtain ⟨e0, e1, e2⟩ := idx9 t
  have hy : (y 0).val < 1 := (y 0).isLt
  unfold iblk
  rw [View.read_apply]
  show V m c main_v10 _ = _
  rw [V_v10]
  refine congrArg _ (funext fun a => Fin.ext ?_)
  match a with
  | ⟨0, _⟩ => show win0_9.index t (0 : Fin 3) * 1 + 1 * (y 0).val = (k 0).val; omega
  | ⟨1, _⟩ => show win0_9.index t (1 : Fin 3) * 512 + 1 * (y 1).val = (k 1).val; omega
  | ⟨2, _⟩ => show win0_9.index t (2 : Fin 3) * 512 + 1 * (y 2).val = (k 2).val; omega

/-- Entry `(y₀, y₁, y₂)` of the transposed stack is entry `(y₀, y₂, y₁)` of the stack. -/
theorem iblk10_at (c : Dev nD) (t : Fin cfg0.N) (y : S6x512x512.Idx) (k : S6x512x512.Idx)
    (h0 : (k 0).val = (y 0).val) (h1 : (k 2).val = (y 1).val) (h2 : (k 1).val = (y 2).val) :
    (iblk m c 10 t : Vec Ideal S6x512x512 .bf16) y = (m ((c : Thread nD τ).loc main_arg10) : S6x512x512.Idx → EReal) k := by
  obtain ⟨e0, e1, e2⟩ := idx10 t
  unfold iblk
  rw [View.read_apply]
  show V m c main_v1 _ = _
  rw [V_v1]
  refine transpose_apply _ _ _ _ _ fun b => ?_
  match b with
  | ⟨0, _⟩ => show (k 0).val = win0_10.index t (0 : Fin 3) * 6 + 1 * (y 0).val; omega
  | ⟨1, _⟩ => show (k 2).val = win0_10.index t (1 : Fin 3) * 512 + 1 * (y 1).val; omega
  | ⟨2, _⟩ => show (k 1).val = win0_10.index t (2 : Fin 3) * 512 + 1 * (y 2).val; omega

/-- The block is the whole array: entry `y` of the block is entry `y` of the array. -/
theorem iblk11_at (c : Dev nD) (t : Fin cfg0.N) (y : S6x512.Idx) (k : S6x512.Idx)
    (h0 : (k 0).val = (y 0).val) (h1 : (k 1).val = (y 1).val) :
    (iblk m c 11 t : Vec Ideal S6x512 .f32) y = (m ((c : Thread nD τ).loc main_arg11) : S6x512.Idx → EReal) k := by
  obtain ⟨e0, e1⟩ := idx11 t
  unfold iblk
  rw [View.read_apply]
  show V m c main_arg11 _ = _
  rw [V_main_arg11]
  refine congrArg _ (funext fun a => Fin.ext ?_)
  match a with
  | ⟨0, _⟩ => show win0_11.index t (0 : Fin 2) * 6 + 1 * (y 0).val = (k 0).val; omega
  | ⟨1, _⟩ => show win0_11.index t (1 : Fin 2) * 512 + 1 * (y 1).val = (k 1).val; omega

/-- Entry `(y₀, y₁, y₂)` of the transposed stack is entry `(y₀, y₂, y₁)` of the stack. -/
theorem iblk12_at (c : Dev nD) (t : Fin cfg0.N) (y : S3x512x512.Idx) (k : S3x512x512.Idx)
    (h0 : (k 0).val = (y 0).val) (h1 : (k 2).val = (y 1).val) (h2 : (k 1).val = (y 2).val) :
    (iblk m c 12 t : Vec Ideal S3x512x512 .bf16) y = (m ((c : Thread nD τ).loc main_arg12) : S3x512x512.Idx → EReal) k := by
  obtain ⟨e0, e1, e2⟩ := idx12 t
  unfold iblk
  rw [View.read_apply]
  show V m c main_v3 _ = _
  rw [V_v3]
  refine transpose_apply _ _ _ _ _ fun b => ?_
  match b with
  | ⟨0, _⟩ => show (k 0).val = win0_12.index t (0 : Fin 3) * 3 + 1 * (y 0).val; omega
  | ⟨1, _⟩ => show (k 2).val = win0_12.index t (1 : Fin 3) * 512 + 1 * (y 1).val; omega
  | ⟨2, _⟩ => show (k 1).val = win0_12.index t (2 : Fin 3) * 512 + 1 * (y 2).val; omega

/-- The block is the whole array: entry `y` of the block is entry `y` of the array. -/
theorem iblk13_at (c : Dev nD) (t : Fin cfg0.N) (y : S3x512.Idx) (k : S3x512.Idx)
    (h0 : (k 0).val = (y 0).val) (h1 : (k 1).val = (y 1).val) :
    (iblk m c 13 t : Vec Ideal S3x512 .f32) y = (m ((c : Thread nD τ).loc main_arg13) : S3x512.Idx → EReal) k := by
  obtain ⟨e0, e1⟩ := idx13 t
  unfold iblk
  rw [View.read_apply]
  show V m c main_arg13 _ = _
  rw [V_main_arg13]
  refine congrArg _ (funext fun a => Fin.ext ?_)
  match a with
  | ⟨0, _⟩ => show win0_13.index t (0 : Fin 2) * 3 + 1 * (y 0).val = (k 0).val; omega
  | ⟨1, _⟩ => show win0_13.index t (1 : Fin 2) * 512 + 1 * (y 1).val = (k 1).val; omega

/-- Entry `(y₀, y₁, y₂, y₃)` of the transposed stack is entry `(y₀, y₁, y₃, y₂)` of the stack. -/
theorem iblk14_at (c : Dev nD) (t : Fin cfg0.N) (y : S3x2x512x512.Idx) (k : S3x2x512x512.Idx)
    (h0 : (k 0).val = (y 0).val) (h1 : (k 1).val = (y 1).val) (h2 : (k 3).val = (y 2).val) (h3 : (k 2).val = (y 3).val) :
    (iblk m c 14 t : Vec Ideal S3x2x512x512 .bf16) y = (m ((c : Thread nD τ).loc main_arg14) : S3x2x512x512.Idx → EReal) k := by
  obtain ⟨e0, e1, e2, e3⟩ := idx14 t
  unfold iblk
  rw [View.read_apply]
  show V m c main_v5 _ = _
  rw [V_v5]
  refine transpose_apply _ _ _ _ _ fun b => ?_
  match b with
  | ⟨0, _⟩ => show (k 0).val = win0_14.index t (0 : Fin 4) * 3 + 1 * (y 0).val; omega
  | ⟨1, _⟩ => show (k 1).val = win0_14.index t (1 : Fin 4) * 2 + 1 * (y 1).val; omega
  | ⟨2, _⟩ => show (k 3).val = win0_14.index t (2 : Fin 4) * 512 + 1 * (y 2).val; omega
  | ⟨3, _⟩ => show (k 2).val = win0_14.index t (3 : Fin 4) * 512 + 1 * (y 3).val; omega

/-- The block is the whole array: entry `y` of the block is entry `y` of the array. -/
theorem iblk15_at (c : Dev nD) (t : Fin cfg0.N) (y : S3x2x512.Idx) (k : S3x2x512.Idx)
    (h0 : (k 0).val = (y 0).val) (h1 : (k 1).val = (y 1).val) (h2 : (k 2).val = (y 2).val) :
    (iblk m c 15 t : Vec Ideal S3x2x512 .f32) y = (m ((c : Thread nD τ).loc main_arg15) : S3x2x512.Idx → EReal) k := by
  obtain ⟨e0, e1, e2⟩ := idx15 t
  unfold iblk
  rw [View.read_apply]
  show V m c main_arg15 _ = _
  rw [V_main_arg15]
  refine congrArg _ (funext fun a => Fin.ext ?_)
  match a with
  | ⟨0, _⟩ => show win0_15.index t (0 : Fin 3) * 3 + 1 * (y 0).val = (k 0).val; omega
  | ⟨1, _⟩ => show win0_15.index t (1 : Fin 3) * 2 + 1 * (y 1).val = (k 1).val; omega
  | ⟨2, _⟩ => show win0_15.index t (2 : Fin 3) * 512 + 1 * (y 2).val = (k 2).val; omega

/-! ## The sixteen arrays of one batch element, field by field -/

/-- Batch element `t`'s table: entry `(i, j)` is entry `(t, i, j)` of the array. -/
theorem node_eq (c : Dev nD) (t : Fin cfg0.N) : blk3 (φ := .f32) (View.ld (iblk m c 0 t : Vec Ideal S1x512x512 .f32) r0_1) = sl3 (m ((c : Thread nD τ).loc main_arg0) : S64x512x512.Idx → EReal) (bat t) := by
  funext i j
  show (iblk m c 0 t : Vec Ideal S1x512x512 .f32) (r0_1.emb (ix3 (0 : Fin 1) i j)) = (m ((c : Thread nD τ).loc main_arg0) : S64x512x512.Idx → EReal) (ix3 (bat t) i j)
  exact iblk0_at m c t (r0_1.emb (ix3 (0 : Fin 1) i j)) (ix3 (bat t) i j) rfl
    (by show i.val = 0 + 1 * i.val; omega) (by show j.val = 0 + 1 * j.val; omega)

/-- Batch element `t`'s table: entry `(i, j)` is entry `(t, i, j)` of the array. -/
theorem rela_eq (c : Dev nD) (t : Fin cfg0.N) : blk3 (φ := .f32) (View.ld (iblk m c 1 t : Vec Ideal S1x512x512 .f32) r0_1) = sl3 (m ((c : Thread nD τ).loc main_arg1) : S64x512x512.Idx → EReal) (bat t) := by
  funext i j
  show (iblk m c 1 t : Vec Ideal S1x512x512 .f32) (r0_1.emb (ix3 (0 : Fin 1) i j)) = (m ((c : Thread nD τ).loc main_arg1) : S64x512x512.Idx → EReal) (ix3 (bat t) i j)
  exact iblk1_at m c t (r0_1.emb (ix3 (0 : Fin 1) i j)) (ix3 (bat t) i j) rfl
    (by show i.val = 0 + 1 * i.val; omega) (by show j.val = 0 + 1 * j.val; omega)

/-- Batch element `t`'s table: entry `(i, j)` is entry `(t, i, j)` of the array. -/
theorem adj1_eq (c : Dev nD) (t : Fin cfg0.N) : blk3 (φ := .f32) (View.ld (iblk m c 4 t : Vec Ideal S1x512x512 .f32) r0_1) = sl3 (m ((c : Thread nD τ).loc main_arg4) : S64x512x512.Idx → EReal) (bat t) := by
  funext i j
  show (iblk m c 4 t : Vec Ideal S1x512x512 .f32) (r0_1.emb (ix3 (0 : Fin 1) i j)) = (m ((c : Thread nD τ).loc main_arg4) : S64x512x512.Idx → EReal) (ix3 (bat t) i j)
  exact iblk4_at m c t (r0_1.emb (ix3 (0 : Fin 1) i j)) (ix3 (bat t) i j) rfl
    (by show i.val = 0 + 1 * i.val; omega) (by show j.val = 0 + 1 * j.val; omega)

/-- Batch element `t`'s table: entry `(i, j)` is entry `(t, i, j)` of the array. -/
theorem adj2_eq (c : Dev nD) (t : Fin cfg0.N) : blk3 (φ := .f32) (View.ld (iblk m c 5 t : Vec Ideal S1x512x512 .f32) r0_1) = sl3 (m ((c : Thread nD τ).loc main_arg5) : S64x512x512.Idx → EReal) (bat t) := by
  funext i j
  show (iblk m c 5 t : Vec Ideal S1x512x512 .f32) (r0_1.emb (ix3 (0 : Fin 1) i j)) = (m ((c : Thread nD τ).loc main_arg5) : S64x512x512.Idx → EReal) (ix3 (bat t) i j)
  exact iblk5_at m c t (r0_1.emb (ix3 (0 : Fin 1) i j)) (ix3 (bat t) i j) rfl
    (by show i.val = 0 + 1 * i.val; omega) (by show j.val = 0 + 1 * j.val; omega)

/-- Batch element `t`'s table: entry `(i, j)` is entry `(t, i, j)` of the array. -/
theorem adj3_eq (c : Dev nD) (t : Fin cfg0.N) : blk3 (φ := .f32) (View.ld (iblk m c 6 t : Vec Ideal S1x512x512 .f32) r0_1) = sl3 (m ((c : Thread nD τ).loc main_arg6) : S64x512x512.Idx → EReal) (bat t) := by
  funext i j
  show (iblk m c 6 t : Vec Ideal S1x512x512 .f32) (r0_1.emb (ix3 (0 : Fin 1) i j)) = (m ((c : Thread nD τ).loc main_arg6) : S64x512x512.Idx → EReal) (ix3 (bat t) i j)
  exact iblk6_at m c t (r0_1.emb (ix3 (0 : Fin 1) i j)) (ix3 (bat t) i j) rfl
    (by show i.val = 0 + 1 * i.val; omega) (by show j.val = 0 + 1 * j.val; omega)

/-- Batch element `t`'s table: entry `(i, j)` is entry `(t, i, j)` of the array. -/
theorem rsub_eq (c : Dev nD) (t : Fin cfg0.N) : blk3 (φ := .bf16) (View.ld (iblk m c 7 t : Vec Ideal S1x512x512 .bf16) r0_1) = sl3 (m ((c : Thread nD τ).loc main_arg7) : S64x512x512.Idx → EReal) (bat t) := by
  funext i j
  show (iblk m c 7 t : Vec Ideal S1x512x512 .bf16) (r0_1.emb (ix3 (0 : Fin 1) i j)) = (m ((c : Thread nD τ).loc main_arg7) : S64x512x512.Idx → EReal) (ix3 (bat t) i j)
  exact iblk7_at m c t (r0_1.emb (ix3 (0 : Fin 1) i j)) (ix3 (bat t) i j) rfl
    (by show i.val = 0 + 1 * i.val; omega) (by show j.val = 0 + 1 * j.val; omega)

/-- Batch element `t`'s table: entry `(i, j)` is entry `(t, i, j)` of the array. -/
theorem robj_eq (c : Dev nD) (t : Fin cfg0.N) : blk3 (φ := .bf16) (View.ld (iblk m c 8 t : Vec Ideal S1x512x512 .bf16) r0_1) = sl3 (m ((c : Thread nD τ).loc main_arg8) : S64x512x512.Idx → EReal) (bat t) := by
  funext i j
  show (iblk m c 8 t : Vec Ideal S1x512x512 .bf16) (r0_1.emb (ix3 (0 : Fin 1) i j)) = (m ((c : Thread nD τ).loc main_arg8) : S64x512x512.Idx → EReal) (ix3 (bat t) i j)
  exact iblk8_at m c t (r0_1.emb (ix3 (0 : Fin 1) i j)) (ix3 (bat t) i j) rfl
    (by show i.val = 0 + 1 * i.val; omega) (by show j.val = 0 + 1 * j.val; omega)

/-- Batch element `t`'s table: entry `(i, j)` is entry `(t, i, j)` of the array. -/
theorem rn2r_eq (c : Dev nD) (t : Fin cfg0.N) : blk3 (φ := .bf16) (View.ld (iblk m c 9 t : Vec Ideal S1x512x512 .bf16) r0_1) = sl3 (m ((c : Thread nD τ).loc main_arg9) : S64x512x512.Idx → EReal) (bat t) := by
  funext i j
  show (iblk m c 9 t : Vec Ideal S1x512x512 .bf16) (r0_1.emb (ix3 (0 : Fin 1) i j)) = (m ((c : Thread nD τ).loc main_arg9) : S64x512x512.Idx → EReal) (ix3 (bat t) i j)
  exact iblk9_at m c t (r0_1.emb (ix3 (0 : Fin 1) i j)) (ix3 (bat t) i j) rfl
    (by show i.val = 0 + 1 * i.val; omega) (by show j.val = 0 + 1 * j.val; omega)

/-- Batch element `t`'s mask: entry `i` is entry `(t, i)` of the mask. -/
theorem am_eq (c : Dev nD) (t : Fin cfg0.N) : col3 (View.ld (iblk m c 2 t : Vec Ideal S1x512x1 .f32) r0_0) = sl2 (m ((c : Thread nD τ).loc main_arg2) : S64x512.Idx → EReal) (bat t) := by
  funext i
  show (iblk m c 2 t : Vec Ideal S1x512x1 .f32) (r0_0.emb (ix3 (0 : Fin 1) i (0 : Fin 1))) = (m ((c : Thread nD τ).loc main_arg2) : S64x512.Idx → EReal) (ix2 (bat t) i)
  exact iblk2_at m c t (r0_0.emb (ix3 (0 : Fin 1) i (0 : Fin 1))) (ix2 (bat t) i) rfl
    (by show i.val = 0 + 1 * i.val; omega)

/-- Batch element `t`'s mask: entry `i` is entry `(t, i)` of the mask. -/
theorem rm_eq (c : Dev nD) (t : Fin cfg0.N) : col3 (View.ld (iblk m c 3 t : Vec Ideal S1x512x1 .f32) r0_0) = sl2 (m ((c : Thread nD τ).loc main_arg3) : S64x512.Idx → EReal) (bat t) := by
  funext i
  show (iblk m c 3 t : Vec Ideal S1x512x1 .f32) (r0_0.emb (ix3 (0 : Fin 1) i (0 : Fin 1))) = (m ((c : Thread nD τ).loc main_arg3) : S64x512.Idx → EReal) (ix2 (bat t) i)
  exact iblk3_at m c t (r0_0.emb (ix3 (0 : Fin 1) i (0 : Fin 1))) (ix2 (bat t) i) rfl
    (by show i.val = 0 + 1 * i.val; omega)

/-- Layer `l` of the first weight stack as the body loads it, read as a table, is the transpose of the stack's layer `l`. -/
theorem wnn_layer (c : Dev nD) (t : Fin cfg0.N) (l : Fin 6) (inb : ∀ a, (![l.val, 0, 0] : Fin 3 → Nat) a + S1x512x512.size a ≤ S6x512x512.size a) :
    blk3 (φ := .bf16) (View.ld (iblk m c 10 t : Vec Ideal S6x512x512 .bf16) (Rect.unit (s := S6x512x512) ![l.val, 0, 0] S1x512x512.size inb)) = tr (w3 (m ((c : Thread nD τ).loc main_arg10) : S6x512x512.Idx → EReal) l) := by
  funext i j
  show (iblk m c 10 t : Vec Ideal S6x512x512 .bf16) ((Rect.unit (s := S6x512x512) ![l.val, 0, 0] S1x512x512.size inb).emb (ix3 (0 : Fin 1) i j)) = (m ((c : Thread nD τ).loc main_arg10) : S6x512x512.Idx → EReal) (ix3 l j i)
  exact iblk10_at m c t ((Rect.unit (s := S6x512x512) ![l.val, 0, 0] S1x512x512.size inb).emb (ix3 (0 : Fin 1) i j)) (ix3 l j i)
    (by show l.val = l.val + 1 * 0; omega) (by show i.val = 0 + 1 * i.val; omega) (by show j.val = 0 + 1 * j.val; omega)

/-- Layer `l` of the first bias stack as the body loads it is the stack's layer `l`. -/
theorem bnn_layer (c : Dev nD) (t : Fin cfg0.N) (l : Fin 6) (inb : ∀ a, (![l.val, 0] : Fin 2 → Nat) a + S1x512.size a ≤ S6x512.size a) :
    rd2 (View.ld (iblk m c 11 t : Vec Ideal S6x512 .f32) (Rect.unit (s := S6x512) ![l.val, 0] S1x512.size inb)) = b2 (m ((c : Thread nD τ).loc main_arg11) : S6x512.Idx → EReal) l := by
  funext o
  show (iblk m c 11 t : Vec Ideal S6x512 .f32) ((Rect.unit (s := S6x512) ![l.val, 0] S1x512.size inb).emb (ix2 (0 : Fin 1) o)) = (m ((c : Thread nD τ).loc main_arg11) : S6x512.Idx → EReal) (ix2 l o)
  exact iblk11_at m c t ((Rect.unit (s := S6x512) ![l.val, 0] S1x512.size inb).emb (ix2 (0 : Fin 1) o)) (ix2 l o)
    (by show l.val = l.val + 1 * 0; omega) (by show o.val = 0 + 1 * o.val; omega)

/-- Layer `l` of the second weight stack as the body loads it, read as a table, is the transpose of the stack's layer `l`. -/
theorem wnr_layer (c : Dev nD) (t : Fin cfg0.N) (l : Fin 3) (inb : ∀ a, (![l.val, 0, 0] : Fin 3 → Nat) a + S1x512x512.size a ≤ S3x512x512.size a) :
    blk3 (φ := .bf16) (View.ld (iblk m c 12 t : Vec Ideal S3x512x512 .bf16) (Rect.unit (s := S3x512x512) ![l.val, 0, 0] S1x512x512.size inb)) = tr (w3 (m ((c : Thread nD τ).loc main_arg12) : S3x512x512.Idx → EReal) l) := by
  funext i j
  show (iblk m c 12 t : Vec Ideal S3x512x512 .bf16) ((Rect.unit (s := S3x512x512) ![l.val, 0, 0] S1x512x512.size inb).emb (ix3 (0 : Fin 1) i j)) = (m ((c : Thread nD τ).loc main_arg12) : S3x512x512.Idx → EReal) (ix3 l j i)
  exact iblk12_at m c t ((Rect.unit (s := S3x512x512) ![l.val, 0, 0] S1x512x512.size inb).emb (ix3 (0 : Fin 1) i j)) (ix3 l j i)
    (by show l.val = l.val + 1 * 0; omega) (by show i.val = 0 + 1 * i.val; omega) (by show j.val = 0 + 1 * j.val; omega)

/-- Layer `l` of the second bias stack as the body loads it is the stack's layer `l`. -/
theorem bnr_layer (c : Dev nD) (t : Fin cfg0.N) (l : Fin 3) (inb : ∀ a, (![l.val, 0] : Fin 2 → Nat) a + S1x512.size a ≤ S3x512.size a) :
    rd2 (View.ld (iblk m c 13 t : Vec Ideal S3x512 .f32) (Rect.unit (s := S3x512) ![l.val, 0] S1x512.size inb)) = b2 (m ((c : Thread nD τ).loc main_arg13) : S3x512.Idx → EReal) l := by
  funext o
  show (iblk m c 13 t : Vec Ideal S3x512 .f32) ((Rect.unit (s := S3x512) ![l.val, 0] S1x512.size inb).emb (ix2 (0 : Fin 1) o)) = (m ((c : Thread nD τ).loc main_arg13) : S3x512.Idx → EReal) (ix2 l o)
  exact iblk13_at m c t ((Rect.unit (s := S3x512) ![l.val, 0] S1x512.size inb).emb (ix2 (0 : Fin 1) o)) (ix2 l o)
    (by show l.val = l.val + 1 * 0; omega) (by show o.val = 0 + 1 * o.val; omega)

/-- Layer `(p, l)` of the third weight stack as the body loads it, read as a table, is the transpose of the stack's layer `(p, l)`. -/
theorem wr_layer (c : Dev nD) (t : Fin cfg0.N) (p : Fin 3) (l : Fin 2) (inb : ∀ a, (![p.val, l.val, 0, 0] : Fin 4 → Nat) a + S1x1x512x512.size a ≤ S3x2x512x512.size a) :
    blk4 (φ := .bf16) (View.ld (iblk m c 14 t : Vec Ideal S3x2x512x512 .bf16) (Rect.unit (s := S3x2x512x512) ![p.val, l.val, 0, 0] S1x1x512x512.size inb)) = tr (w4 (m ((c : Thread nD τ).loc main_arg14) : S3x2x512x512.Idx → EReal) p l) := by
  funext i j
  show (iblk m c 14 t : Vec Ideal S3x2x512x512 .bf16) ((Rect.unit (s := S3x2x512x512) ![p.val, l.val, 0, 0] S1x1x512x512.size inb).emb (ix4 (0 : Fin 1) (0 : Fin 1) i j)) = (m ((c : Thread nD τ).loc main_arg14) : S3x2x512x512.Idx → EReal) (ix4 p l j i)
  exact iblk14_at m c t ((Rect.unit (s := S3x2x512x512) ![p.val, l.val, 0, 0] S1x1x512x512.size inb).emb (ix4 (0 : Fin 1) (0 : Fin 1) i j)) (ix4 p l j i)
    (by show p.val = p.val + 1 * 0; omega) (by show l.val = l.val + 1 * 0; omega) (by show i.val = 0 + 1 * i.val; omega) (by show j.val = 0 + 1 * j.val; omega)

/-- Layer `(p, l)` of the third bias stack as the body loads it is the stack's layer `(p, l)`. -/
theorem br_layer (c : Dev nD) (t : Fin cfg0.N) (p : Fin 3) (l : Fin 2) (inb : ∀ a, (![p.val, l.val, 0] : Fin 3 → Nat) a + S1x1x512.size a ≤ S3x2x512.size a) :
    rd3 (View.ld (iblk m c 15 t : Vec Ideal S3x2x512 .f32) (Rect.unit (s := S3x2x512) ![p.val, l.val, 0] S1x1x512.size inb)) = b3 (m ((c : Thread nD τ).loc main_arg15) : S3x2x512.Idx → EReal) p l := by
  funext o
  show (iblk m c 15 t : Vec Ideal S3x2x512 .f32) ((Rect.unit (s := S3x2x512) ![p.val, l.val, 0] S1x1x512.size inb).emb (ix3 (0 : Fin 1) (0 : Fin 1) o)) = (m ((c : Thread nD τ).loc main_arg15) : S3x2x512.Idx → EReal) (ix3 p l o)
  exact iblk15_at m c t ((Rect.unit (s := S3x2x512) ![p.val, l.val, 0] S1x1x512.size inb).emb (ix3 (0 : Fin 1) (0 : Fin 1) o)) (ix3 p l o)
    (by show p.val = p.val + 1 * 0; omega) (by show l.val = l.val + 1 * 0; omega) (by show o.val = 0 + 1 * o.val; omega)

/-- The six layers of the first weight stack. -/
theorem wnnT_eq (c : Dev nD) (t : Fin cfg0.N) :
    (![blk3 (φ := .bf16) (View.ld (iblk m c 10 t : Vec Ideal S6x512x512 .bf16) r0_2), blk3 (φ := .bf16) (View.ld (iblk m c 10 t : Vec Ideal S6x512x512 .bf16) r0_4), blk3 (φ := .bf16) (View.ld (iblk m c 10 t : Vec Ideal S6x512x512 .bf16) r0_6), blk3 (φ := .bf16) (View.ld (iblk m c 10 t : Vec Ideal S6x512x512 .bf16) r0_14), blk3 (φ := .bf16) (View.ld (iblk m c 10 t : Vec Ideal S6x512x512 .bf16) r0_16), blk3 (φ := .bf16) (View.ld (iblk m c 10 t : Vec Ideal S6x512x512 .bf16) r0_24)] : Fin 6 → Mat N) = fun l => tr (w3 (m ((c : Thread nD τ).loc main_arg10) : S6x512x512.Idx → EReal) l) := by
  funext l
  match l with
  | ⟨0, _⟩ => exact wnn_layer m c t (0 : Fin 6) _
  | ⟨1, _⟩ => exact wnn_layer m c t (1 : Fin 6) _
  | ⟨2, _⟩ => exact wnn_layer m c t (2 : Fin 6) _
  | ⟨3, _⟩ => exact wnn_layer m c t (3 : Fin 6) _
  | ⟨4, _⟩ => exact wnn_layer m c t (4 : Fin 6) _
  | ⟨5, _⟩ => exact wnn_layer m c t (5 : Fin 6) _

/-- The six layers of the first bias stack. -/
theorem bnn_eq (c : Dev nD) (t : Fin cfg0.N) :
    (![rd2 (View.ld (iblk m c 11 t : Vec Ideal S6x512 .f32) r0_3), rd2 (View.ld (iblk m c 11 t : Vec Ideal S6x512 .f32) r0_5), rd2 (View.ld (iblk m c 11 t : Vec Ideal S6x512 .f32) r0_7), rd2 (View.ld (iblk m c 11 t : Vec Ideal S6x512 .f32) r0_15), rd2 (View.ld (iblk m c 11 t : Vec Ideal S6x512 .f32) r0_17), rd2 (View.ld (iblk m c 11 t : Vec Ideal S6x512 .f32) r0_25)] : Fin 6 → N → EReal) = fun l => b2 (m ((c : Thread nD τ).loc main_arg11) : S6x512.Idx → EReal) l := by
  funext l
  match l with
  | ⟨0, _⟩ => exact bnn_layer m c t (0 : Fin 6) _
  | ⟨1, _⟩ => exact bnn_layer m c t (1 : Fin 6) _
  | ⟨2, _⟩ => exact bnn_layer m c t (2 : Fin 6) _
  | ⟨3, _⟩ => exact bnn_layer m c t (3 : Fin 6) _
  | ⟨4, _⟩ => exact bnn_layer m c t (4 : Fin 6) _
  | ⟨5, _⟩ => exact bnn_layer m c t (5 : Fin 6) _

/-- The three layers of the second weight stack. -/
theorem wnrT_eq (c : Dev nD) (t : Fin cfg0.N) :
    (![blk3 (φ := .bf16) (View.ld (iblk m c 12 t : Vec Ideal S3x512x512 .bf16) r0_8), blk3 (φ := .bf16) (View.ld (iblk m c 12 t : Vec Ideal S3x512x512 .bf16) r0_18), blk3 (φ := .bf16) (View.ld (iblk m c 12 t : Vec Ideal S3x512x512 .bf16) r0_26)] : Fin 3 → Mat N) = fun l => tr (w3 (m ((c : Thread nD τ).loc main_arg12) : S3x512x512.Idx → EReal) l) := by
  funext l
  match l with
  | ⟨0, _⟩ => exact wnr_layer m c t (0 : Fin 3) _
  | ⟨1, _⟩ => exact wnr_layer m c t (1 : Fin 3) _
  | ⟨2, _⟩ => exact wnr_layer m c t (2 : Fin 3) _

/-- The three layers of the second bias stack. -/
theorem bnr_eq (c : Dev nD) (t : Fin cfg0.N) :
    (![rd2 (View.ld (iblk m c 13 t : Vec Ideal S3x512 .f32) r0_9), rd2 (View.ld (iblk m c 13 t : Vec Ideal S3x512 .f32) r0_19), rd2 (View.ld (iblk m c 13 t : Vec Ideal S3x512 .f32) r0_27)] : Fin 3 → N → EReal) = fun l => b2 (m ((c : Thread nD τ).loc main_arg13) : S3x512.Idx → EReal) l := by
  funext l
  match l with
  | ⟨0, _⟩ => exact bnr_layer m c t (0 : Fin 3) _
  | ⟨1, _⟩ => exact bnr_layer m c t (1 : Fin 3) _
  | ⟨2, _⟩ => exact bnr_layer m c t (2 : Fin 3) _

/-- The three by two layers of the third weight stack. -/
theorem wrT_eq (c : Dev nD) (t : Fin cfg0.N) :
    (![![blk4 (φ := .bf16) (View.ld (iblk m c 14 t : Vec Ideal S3x2x512x512 .bf16) r0_10), blk4 (φ := .bf16) (View.ld (iblk m c 14 t : Vec Ideal S3x2x512x512 .bf16) r0_12)], ![blk4 (φ := .bf16) (View.ld (iblk m c 14 t : Vec Ideal S3x2x512x512 .bf16) r0_20), blk4 (φ := .bf16) (View.ld (iblk m c 14 t : Vec Ideal S3x2x512x512 .bf16) r0_22)], ![blk4 (φ := .bf16) (View.ld (iblk m c 14 t : Vec Ideal S3x2x512x512 .bf16) r0_28), blk4 (φ := .bf16) (View.ld (iblk m c 14 t : Vec Ideal S3x2x512x512 .bf16) r0_30)]] : Fin 3 → Fin 2 → Mat N)
      = fun p l => tr (w4 (m ((c : Thread nD τ).loc main_arg14) : S3x2x512x512.Idx → EReal) p l) := by
  funext p l
  match p, l with
  | ⟨0, _⟩, ⟨0, _⟩ => exact wr_layer m c t (0 : Fin 3) (0 : Fin 2) _
  | ⟨0, _⟩, ⟨1, _⟩ => exact wr_layer m c t (0 : Fin 3) (1 : Fin 2) _
  | ⟨1, _⟩, ⟨0, _⟩ => exact wr_layer m c t (1 : Fin 3) (0 : Fin 2) _
  | ⟨1, _⟩, ⟨1, _⟩ => exact wr_layer m c t (1 : Fin 3) (1 : Fin 2) _
  | ⟨2, _⟩, ⟨0, _⟩ => exact wr_layer m c t (2 : Fin 3) (0 : Fin 2) _
  | ⟨2, _⟩, ⟨1, _⟩ => exact wr_layer m c t (2 : Fin 3) (1 : Fin 2) _

/-- The three by two layers of the third bias stack. -/
theorem br_eq (c : Dev nD) (t : Fin cfg0.N) :
    (![![rd3 (View.ld (iblk m c 15 t : Vec Ideal S3x2x512 .f32) r0_11), rd3 (View.ld (iblk m c 15 t : Vec Ideal S3x2x512 .f32) r0_13)], ![rd3 (View.ld (iblk m c 15 t : Vec Ideal S3x2x512 .f32) r0_21), rd3 (View.ld (iblk m c 15 t : Vec Ideal S3x2x512 .f32) r0_23)], ![rd3 (View.ld (iblk m c 15 t : Vec Ideal S3x2x512 .f32) r0_29), rd3 (View.ld (iblk m c 15 t : Vec Ideal S3x2x512 .f32) r0_31)]] : Fin 3 → Fin 2 → N → EReal)
      = fun p l => b3 (m ((c : Thread nD τ).loc main_arg15) : S3x2x512.Idx → EReal) p l := by
  funext p l
  match p, l with
  | ⟨0, _⟩, ⟨0, _⟩ => exact br_layer m c t (0 : Fin 3) (0 : Fin 2) _
  | ⟨0, _⟩, ⟨1, _⟩ => exact br_layer m c t (0 : Fin 3) (1 : Fin 2) _
  | ⟨1, _⟩, ⟨0, _⟩ => exact br_layer m c t (1 : Fin 3) (0 : Fin 2) _
  | ⟨1, _⟩, ⟨1, _⟩ => exact br_layer m c t (1 : Fin 3) (1 : Fin 2) _
  | ⟨2, _⟩, ⟨0, _⟩ => exact br_layer m c t (2 : Fin 3) (0 : Fin 2) _
  | ⟨2, _⟩, ⟨1, _⟩ => exact br_layer m c t (2 : Fin 3) (1 : Fin 2) _

/-! ## The blocks of point `t` are batch element `t` -/

/-- The arrays the body finds in its sixteen operand blocks at grid point `t` are the arrays of batch element `t`
    cut out of the sixteen argument arrays. -/
theorem inputs_eq (c : Dev nD) (t : Fin cfg0.N) :
    blockInputs (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
      = Cert.Hand.batchInputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (bat t) := by
  unfold blockInputs Cert.Hand.batchInputs
  rw [Inputs.mk.injEq]
  exact ⟨node_eq m c t, rela_eq m c t, am_eq m c t, rm_eq m c t, adj1_eq m c t, adj2_eq m c t, adj3_eq m c t,
    rsub_eq m c t, robj_eq m c t, rn2r_eq m c t, wnnT_eq m c t, bnn_eq m c t, wnrT_eq m c t, bnr_eq m c t,
    wrT_eq m c t, br_eq m c t⟩

end Cert.Hand.K

end
-- ==== Proof.KBody.lean ====
/-
  What the body leaves in its two output blocks is the third round of the specification.

  The body's stored values are nested applications of its intermediate values, each a short chain of operations on
  512×512 tables. Reading the stored table entry by entry and pushing that reading through every operation (one lemma
  per operation, from the operations' module) turns the body's term into the specification's own combinators applied to
  the operand blocks' reads; what is left is to recognise the three rounds, which is a comparison of two trees.
  The inverse-degree columns are read first, on their own: a row sum along the second axis, kept as a column, plus ε,
  under one.
-/
import proofs.«144723_j60885456388892_2_alg».proof.Proof.KInputs

noncomputable section

open scoped BigOperators

namespace Cert.Hand.K

open Idealize.ShloMosaic Idealize.ShloMosaic.ValueIdx Cert.KernelIdeal Cert.KernelIdeal.Gen Cert.Hand.Spec

/-- The zero offsets of a whole three-axis block. -/
theorem zero_offsets3 : (![0, 0, 0] : Fin 3 → ℕ) = fun _ => 0 := by
  funext a
  match a with
  | ⟨0, _⟩ => rfl
  | ⟨1, _⟩ => rfl
  | ⟨2, _⟩ => rfl

/-- The body's inverse-degree column of an adjacency block is the specification's inverse degree of the block read as
    a table: the row sum taken along the second axis, kept as a column, plus ε, under one. -/
theorem colv_pay6 (P : Vec Ideal S1x512x512 .f32) : colv (k0_pay6 P) = dinvK one eps (blk3 (φ := .f32) P) := by
  funext i
  unfold k0_pay6 k0_pay5
  show Ideal.div one (shapeCast S512x1 (multiReduction (F := Ideal) .add [1] S512
      (shapeCast S512x512 (P : FVec Ideal S1x512x512 .f32) shapeCasts_S1x512x512_S512x512) 0x00000000#32
      reduces_S512x512_S512 (.inl rfl) rfl) shapeCasts_S512_S512x1 (ix2 i (0 : Fin 1)) + eps)
    = Ideal.div one ((∑ j, P (ix3 (0 : Fin 1) i j)) + eps)
  rw [Cert.Keepdims.shapeCast_a_a1_apply, Cert.Keepdims.rowSum_zero_f32_apply]
  refine congrArg (fun s => Ideal.div one (s + eps)) (Finset.sum_congr rfl fun j _ => ?_)
  exact shapeCast_1ab_ab_apply (P : FVec Ideal S1x512x512 .f32) shapeCasts_S1x512x512_S512x512 i j

/-- The body's inverse-degree column of an adjacency block is the specification's inverse degree of the block read as
    a table: the row sum taken along the second axis, kept as a column, plus ε, under one. -/
theorem colv_pay9 (P : Vec Ideal S1x512x512 .f32) : colv (k0_pay9 P) = dinvK one eps (blk3 (φ := .f32) P) := by
  funext i
  unfold k0_pay9 k0_pay8
  show Ideal.div one (shapeCast S512x1 (multiReduction (F := Ideal) .add [1] S512
      (shapeCast S512x512 (P : FVec Ideal S1x512x512 .f32) shapeCasts_S1x512x512_S512x512) 0x00000000#32
      reduces_S512x512_S512 (.inl rfl) rfl) shapeCasts_S512_S512x1 (ix2 i (0 : Fin 1)) + eps)
    = Ideal.div one ((∑ j, P (ix3 (0 : Fin 1) i j)) + eps)
  rw [Cert.Keepdims.shapeCast_a_a1_apply, Cert.Keepdims.rowSum_zero_f32_apply]
  refine congrArg (fun s => Ideal.div one (s + eps)) (Finset.sum_congr rfl fun j _ => ?_)
  exact shapeCast_1ab_ab_apply (P : FVec Ideal S1x512x512 .f32) shapeCasts_S1x512x512_S512x512 i j

/-- The body's inverse-degree column of an adjacency block is the specification's inverse degree of the block read as
    a table: the row sum taken along the second axis, kept as a column, plus ε, under one. -/
theorem colv_pay12 (P : Vec Ideal S1x512x512 .f32) : colv (k0_pay12 P) = dinvK one eps (blk3 (φ := .f32) P) := by
  funext i
  unfold k0_pay12 k0_pay11
  show Ideal.div one (shapeCast S512x1 (multiReduction (F := Ideal) .add [1] S512
      (shapeCast S512x512 (P : FVec Ideal S1x512x512 .f32) shapeCasts_S1x512x512_S512x512) 0x00000000#32
      reduces_S512x512_S512 (.inl rfl) rfl) shapeCasts_S512_S512x1 (ix2 i (0 : Fin 1)) + eps)
    = Ideal.div one ((∑ j, P (ix3 (0 : Fin 1) i j)) + eps)
  rw [Cert.Keepdims.shapeCast_a_a1_apply, Cert.Keepdims.rowSum_zero_f32_apply]
  refine congrArg (fun s => Ideal.div one (s + eps)) (Finset.sum_congr rfl fun j _ => ?_)
  exact shapeCast_1ab_ab_apply (P : FVec Ideal S1x512x512 .f32) shapeCasts_S1x512x512_S512x512 i j

set_option maxHeartbeats 8000000 in
set_option maxRecDepth 16384 in
/-- The node block the body stores is the node table after the third round, over the blocks' reads. -/
theorem body16 (x0 : Vec Ideal S1x512x512 .f32) (x1 : Vec Ideal S1x512x512 .f32) (x2 : Vec Ideal S1x512x1 .f32) (x3 : Vec Ideal S1x512x1 .f32) (x4 : Vec Ideal S1x512x512 .f32) (x5 : Vec Ideal S1x512x512 .f32) (x6 : Vec Ideal S1x512x512 .f32) (x7 : Vec Ideal S1x512x512 .bf16) (x8 : Vec Ideal S1x512x512 .bf16) (x9 : Vec Ideal S1x512x512 .bf16) (x10 : Vec Ideal S6x512x512 .bf16) (x11 : Vec Ideal S6x512 .f32) (x12 : Vec Ideal S3x512x512 .bf16) (x13 : Vec Ideal S3x512 .f32) (x14 : Vec Ideal S3x2x512x512 .bf16) (x15 : Vec Ideal S3x2x512 .f32) (i j : N) :
    out0_16 (F := Ideal) x0 x1 x2 x3 x4 x5 x6 x7 x8 x9 x10 x11 x12 x13 x14 x15 (ix3 (0 : Fin 1) i j) = node3 (msgK one eps) (blockInputs x0 x1 x2 x3 x4 x5 x6 x7 x8 x9 x10 x11 x12 x13 x14 x15) i j := by
  unfold out0_16
  rw [View.canon_unit_zero zero_offsets3]
  unfold k0_pay1
  rw [cast_1ab_apply]
  refine congrFun (congrFun ?_ i) j
  simp only [k0_pay2, k0_pay3, k0_pay4, k0_pay5, k0_pay7, k0_pay8, k0_pay10, k0_pay11, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, cur_addf, cur_mulf, cur_relu, cur_matmul, cur_truncf, cur_bcCol, cur_bcRow, rd2_cast, rd1_cast2,
    rd1_cast3, colv_cast, cur_cast3, cur_cast4, colv_pay6, colv_pay9, colv_pay12, mul_bcCol, add_bcRow]
  rfl

set_option maxHeartbeats 8000000 in
set_option maxRecDepth 16384 in
/-- The relation block the body stores is the relation table after the third round, over the blocks' reads. -/
theorem body17 (x0 : Vec Ideal S1x512x512 .f32) (x1 : Vec Ideal S1x512x512 .f32) (x2 : Vec Ideal S1x512x1 .f32) (x3 : Vec Ideal S1x512x1 .f32) (x4 : Vec Ideal S1x512x512 .f32) (x5 : Vec Ideal S1x512x512 .f32) (x6 : Vec Ideal S1x512x512 .f32) (x7 : Vec Ideal S1x512x512 .bf16) (x8 : Vec Ideal S1x512x512 .bf16) (x9 : Vec Ideal S1x512x512 .bf16) (x10 : Vec Ideal S6x512x512 .bf16) (x11 : Vec Ideal S6x512 .f32) (x12 : Vec Ideal S3x512x512 .bf16) (x13 : Vec Ideal S3x512 .f32) (x14 : Vec Ideal S3x2x512x512 .bf16) (x15 : Vec Ideal S3x2x512 .f32) (i j : N) :
    out0_17 (F := Ideal) x0 x1 x2 x3 x4 x5 x6 x7 x8 x9 x10 x11 x12 x13 x14 x15 (ix3 (0 : Fin 1) i j) = rela3 (msgK one eps) (blockInputs x0 x1 x2 x3 x4 x5 x6 x7 x8 x9 x10 x11 x12 x13 x14 x15) i j := by
  unfold out0_17
  rw [View.canon_unit_zero zero_offsets3]
  simp only [k0_pay2]
  rw [cast_1ab_apply]
  refine congrFun (congrFun ?_ i) j
  simp only [k0_pay2, k0_pay3, k0_pay4, k0_pay5, k0_pay7, k0_pay8, k0_pay10, k0_pay11, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, cur_addf, cur_mulf, cur_relu, cur_matmul, cur_truncf, cur_bcCol, cur_bcRow, rd2_cast, rd1_cast2,
    rd1_cast3, colv_cast, cur_cast3, cur_cast4, colv_pay6, colv_pay9, colv_pay12, mul_bcCol, add_bcRow]
  rfl

end Cert.Hand.K

end
-- ==== Proof.KRun.lean ====
/-
  From the blocks to the arrays: what the kernel's run leaves in its two output arrays.

  The grid has 64 points and point `t` works on batch element `t`. At point `t` the body computes, from the sixteen
  operand blocks, the node table and the relation table of that batch element after three rounds of message passing,
  and writes each back as the slab `(t, ·, ·)` of an output array. The blocks are batch element `t`'s arrays, so what
  point `t` writes is slab `t` of one function of the argument arrays: entry `(b, i, j)` is entry `(i, j)` of batch
  element `b`'s table. The 64 slabs cover the array (index `(b, i, j)` lies in the slab of point `b`), so after the run
  each output array is that function; the argument arrays are unchanged.
-/
import proofs.«144723_j60885456388892_2_alg».proof.Proof.KBlocks
import proofs.«144723_j60885456388892_2_alg».proof.Proof.KBody

noncomputable section

namespace Cert.Hand.K

open Idealize.ShloMosaic Idealize.ShloMosaic.ValueIdx Idealize.ShloMosaic.TcCoe Idealize.ShloMosaic.StableHlo
open Cert.KernelIdeal Cert.KernelIdeal.Gen Cert.Hand.Spec Cert.Hand Idealize.SL.Sem
open Idealize.ShloMosaic.Pipeline (Dat)

variable (m : (ℓ : Loc nD τ sig) → Buf (Elt Ideal) ℓ)

/-- An index into a `[1, 512, 512]` block is `(0, i, j)`. -/
theorem blk_idx (y : S1x512x512.Idx) : ∃ i j : Fin 512, y = ix3 (0 : Fin 1) i j :=
  ⟨y 1, y 2, funext fun a => match a with
    | ⟨0, _⟩ => Fin.ext (by have h : (y 0).val < 1 := (y 0).isLt; show (y 0).val = 0; omega)
    | ⟨1, _⟩ => rfl
    | ⟨2, _⟩ => rfl⟩

/-! ## The node table -/

/-- The node table of every batch element after the three rounds, as one function of the argument arrays:
    entry `(b, i, j)` is entry `(i, j)` of batch element `b`'s node table. -/
def G16 (c : Dev nD) : S64x512x512.Idx → EReal := fun idx =>
  Spec.node3 (Spec.msgK one eps) (Cert.Hand.batchInputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (idx 0)) (idx 1) (idx 2)

theorem G16_apply (c : Dev nD) (b : Fin 64) (i j : Fin 512) :
    G16 m c (ix3 b i j) = Spec.node3 (Spec.msgK one eps) (Cert.Hand.batchInputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) b) i j := rfl

/-- Where the output block of point `t` sits: block index `t` on the batch axis, zero on the others. -/
theorem idx16 : ∀ t : Fin cfg0.N, win0_16.index t (0 : Fin 3) = t.val ∧ win0_16.index t (1 : Fin 3) = 0 ∧ win0_16.index t (2 : Fin 3) = 0 :=
  (by decide +kernel : ∀ t : Fin grid0.N, _)

/-- Entry `(0, i, j)` of the output block of point `t` is entry `(t, i, j)` of the array. -/
theorem emb16 (t : Fin cfg0.N) (i j : Fin 512) :
    ((cfg0.win 16).blk t).view.emb (ix3 (0 : Fin 1) i j) = (ix3 (bat t) i j : S64x512x512.Idx) := by
  obtain ⟨e0, e1, e2⟩ := idx16 t
  funext a
  apply Fin.ext
  match a with
  | ⟨0, _⟩ => show win0_16.index t (0 : Fin 3) * 1 + 1 * 0 = t.val; omega
  | ⟨1, _⟩ => show win0_16.index t (1 : Fin 3) * 512 + 1 * i.val = i.val; omega
  | ⟨2, _⟩ => show win0_16.index t (2 : Fin 3) * 512 + 1 * j.val = j.val; omega

/-- What point `t` writes back is block `t` of `G16`: the body's result on batch element `t`'s arrays is batch
    element `t`'s node table after the three rounds. -/
theorem flushed16_eq (c : Dev nD) (t : Fin cfg0.N) :
    (dats m 0 c).flushed 16 t = ((cfg0.win 16).blk t).view.read (Elt Ideal) (G16 m c) := by
  rw [Value.flushed16]
  funext y
  obtain ⟨i, j, rfl⟩ := blk_idx y
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 (0 : Fin 1) i j) = G16 m c (((cfg0.win 16).blk t).view.emb (ix3 (0 : Fin 1) i j))
  rw [emb16 t i j, G16_apply]
  exact (body16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) i j).trans
    (congrArg (fun I => Spec.node3 (Spec.msgK one eps) I i j) (inputs_eq m c t))

/-- An index of the array is in point `t`'s block iff each coordinate is in the block's range on its axis. -/
theorem mem_blk16 (t : Fin cfg0.N) (i : S64x512x512.Idx) :
    i ∈ ((cfg0.win 16).blk t).view.set ↔ ∀ a : Fin 3, win0_16.index t a * S1x512x512.size a ≤ (i a).val ∧ (i a).val < win0_16.index t a * S1x512x512.size a + S1x512x512.size a := by
  show i ∈ ((View.whole main_v11_0).slice (win0_16.rect t)).set ↔ _
  rw [View.set_slice_whole, Rect.mem_set_unit]
  exact Iff.rfl

/-- Every index of the array is in some point's block: index `(b, i, j)` is in the block of point `b`. -/
theorem cover16 (i : S64x512x512.Idx) :
    ∃ t : Fin cfg0.N, (cfg0.win 16).flush t = true ∧ i ∈ ((cfg0.win 16).blk t).view.set := by
  have hi0 : (i 0).val < 64 := (i 0).isLt
  have hi1 : (i 1).val < 512 := (i 1).isLt
  have hi2 : (i 2).val < 512 := (i 2).isLt
  have hN : (i 0).val < cfg0.N := lt_of_lt_of_eq hi0 N_0.symm
  have e := idx16 ⟨(i 0).val, hN⟩
  have e0 : win0_16.index ⟨(i 0).val, hN⟩ (0 : Fin 3) = (i 0).val := e.1
  have e1 := e.2.1
  have e2 := e.2.2
  refine ⟨⟨(i 0).val, hN⟩, flush0_16 _, ?_⟩
  rw [mem_blk16]
  intro a
  match a with
  | ⟨0, _⟩ => show win0_16.index ⟨(i 0).val, hN⟩ (0 : Fin 3) * 1 ≤ (i 0).val ∧ (i 0).val < win0_16.index ⟨(i 0).val, hN⟩ (0 : Fin 3) * 1 + 1; omega
  | ⟨1, _⟩ => show win0_16.index ⟨(i 0).val, hN⟩ (1 : Fin 3) * 512 ≤ (i 1).val ∧ (i 1).val < win0_16.index ⟨(i 0).val, hN⟩ (1 : Fin 3) * 512 + 512; omega
  | ⟨2, _⟩ => show win0_16.index ⟨(i 0).val, hN⟩ (2 : Fin 3) * 512 ≤ (i 2).val ∧ (i 2).val < win0_16.index ⟨(i 0).val, hN⟩ (2 : Fin 3) * 512 + 512; omega

/-- The array after the run is `G16` of the argument arrays. -/
theorem final16 (c : Dev nD) : (dats m 0 c).arrAt 16 cfg0.N = G16 m c :=
  (dats m 0 c).arrAt_eq_of_cover 16 (G16 m c) (fun t _ => flushed16_eq m c t) (cover16)

/-! ## The relation table -/

/-- The relation table of every batch element after the three rounds, as one function of the argument arrays:
    entry `(b, i, j)` is entry `(i, j)` of batch element `b`'s relation table. -/
def G17 (c : Dev nD) : S64x512x512.Idx → EReal := fun idx =>
  Spec.rela3 (Spec.msgK one eps) (Cert.Hand.batchInputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (idx 0)) (idx 1) (idx 2)

theorem G17_apply (c : Dev nD) (b : Fin 64) (i j : Fin 512) :
    G17 m c (ix3 b i j) = Spec.rela3 (Spec.msgK one eps) (Cert.Hand.batchInputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) b) i j := rfl

/-- Where the output block of point `t` sits: block index `t` on the batch axis, zero on the others. -/
theorem idx17 : ∀ t : Fin cfg0.N, win0_17.index t (0 : Fin 3) = t.val ∧ win0_17.index t (1 : Fin 3) = 0 ∧ win0_17.index t (2 : Fin 3) = 0 :=
  (by decide +kernel : ∀ t : Fin grid0.N, _)

/-- Entry `(0, i, j)` of the output block of point `t` is entry `(t, i, j)` of the array. -/
theorem emb17 (t : Fin cfg0.N) (i j : Fin 512) :
    ((cfg0.win 17).blk t).view.emb (ix3 (0 : Fin 1) i j) = (ix3 (bat t) i j : S64x512x512.Idx) := by
  obtain ⟨e0, e1, e2⟩ := idx17 t
  funext a
  apply Fin.ext
  match a with
  | ⟨0, _⟩ => show win0_17.index t (0 : Fin 3) * 1 + 1 * 0 = t.val; omega
  | ⟨1, _⟩ => show win0_17.index t (1 : Fin 3) * 512 + 1 * i.val = i.val; omega
  | ⟨2, _⟩ => show win0_17.index t (2 : Fin 3) * 512 + 1 * j.val = j.val; omega

/-- What point `t` writes back is block `t` of `G17`: the body's result on batch element `t`'s arrays is batch
    element `t`'s relation table after the three rounds. -/
theorem flushed17_eq (c : Dev nD) (t : Fin cfg0.N) :
    (dats m 0 c).flushed 17 t = ((cfg0.win 17).blk t).view.read (Elt Ideal) (G17 m c) := by
  rw [Value.flushed17]
  funext y
  obtain ⟨i, j, rfl⟩ := blk_idx y
  show out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 (0 : Fin 1) i j) = G17 m c (((cfg0.win 17).blk t).view.emb (ix3 (0 : Fin 1) i j))
  rw [emb17 t i j, G17_apply]
  exact (body17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) i j).trans
    (congrArg (fun I => Spec.rela3 (Spec.msgK one eps) I i j) (inputs_eq m c t))

/-- An index of the array is in point `t`'s block iff each coordinate is in the block's range on its axis. -/
theorem mem_blk17 (t : Fin cfg0.N) (i : S64x512x512.Idx) :
    i ∈ ((cfg0.win 17).blk t).view.set ↔ ∀ a : Fin 3, win0_17.index t a * S1x512x512.size a ≤ (i a).val ∧ (i a).val < win0_17.index t a * S1x512x512.size a + S1x512x512.size a := by
  show i ∈ ((View.whole main_v11_1).slice (win0_17.rect t)).set ↔ _
  rw [View.set_slice_whole, Rect.mem_set_unit]
  exact Iff.rfl

/-- Every index of the array is in some point's block: index `(b, i, j)` is in the block of point `b`. -/
theorem cover17 (i : S64x512x512.Idx) :
    ∃ t : Fin cfg0.N, (cfg0.win 17).flush t = true ∧ i ∈ ((cfg0.win 17).blk t).view.set := by
  have hi0 : (i 0).val < 64 := (i 0).isLt
  have hi1 : (i 1).val < 512 := (i 1).isLt
  have hi2 : (i 2).val < 512 := (i 2).isLt
  have hN : (i 0).val < cfg0.N := lt_of_lt_of_eq hi0 N_0.symm
  have e := idx17 ⟨(i 0).val, hN⟩
  have e0 : win0_17.index ⟨(i 0).val, hN⟩ (0 : Fin 3) = (i 0).val := e.1
  have e1 := e.2.1
  have e2 := e.2.2
  refine ⟨⟨(i 0).val, hN⟩, flush0_17 _, ?_⟩
  rw [mem_blk17]
  intro a
  match a with
  | ⟨0, _⟩ => show win0_17.index ⟨(i 0).val, hN⟩ (0 : Fin 3) * 1 ≤ (i 0).val ∧ (i 0).val < win0_17.index ⟨(i 0).val, hN⟩ (0 : Fin 3) * 1 + 1; omega
  | ⟨1, _⟩ => show win0_17.index ⟨(i 0).val, hN⟩ (1 : Fin 3) * 512 ≤ (i 1).val ∧ (i 1).val < win0_17.index ⟨(i 0).val, hN⟩ (1 : Fin 3) * 512 + 512; omega
  | ⟨2, _⟩ => show win0_17.index ⟨(i 0).val, hN⟩ (2 : Fin 3) * 512 ≤ (i 2).val ∧ (i 2).val < win0_17.index ⟨(i 0).val, hN⟩ (2 : Fin 3) * 512 + 512; omega

/-- The array after the run is `G17` of the argument arrays. -/
theorem final17 (c : Dev nD) : (dats m 0 c).arrAt 17 cfg0.N = G17 m c :=
  (dats m 0 c).arrAt_eq_of_cover 17 (G17 m c) (fun t _ => flushed17_eq m c t) (cover17)

/-! ## The run -/

/-- The kernel's run: it ends with the two output arrays holding the node and relation tables of every batch element
    after the three rounds, and the sixteen argument arrays unchanged. -/
theorem kernel_run (ρ : Dev nD → PrngReg) :
    θ_run defs (onTc (τ := τ) (main (F := Ideal))) ⟨m, fun _ => 0, ρ⟩ fun r => ∀ c : Dev nD,
      r.2.mem ((c : Thread nD τ).loc main_v11_0) = G16 m c
      ∧ r.2.mem ((c : Thread nD τ).loc main_v11_1) = G17 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final16 m c), (h c).2.1.trans (final17 m c), (h c).2.2⟩)
    (Value.run_blocks m ρ)

end Cert.Hand.K

end
-- ==== Proof.PreDecode.lean ====
/-
  The precondition, read back as plain mathematics.

  The precondition is a conjunction of nineteen tests over the sixteen argument arrays, each of the form
  "every entry satisfies …". Sixteen say
  that every entry is below +∞ in absolute value, which at the extended reals says that every entry is a real number.
  Three say that, for each of three adjacency arrays, every row sum plus the constant 1e-10 is not zero.
-/
import proofs.«144723_j60885456388892_2_alg».proof.Pre_finite_inputs
import proofs.«144723_j60885456388892_2_alg».proof.Proof.LibRealEntries
import Idealize.ShloMosaic.Lib.ValueIdx
import Idealize.ShloMosaic.Lib.ReduceAll
import Idealize.ShloMosaic.PureOps.Ideal.Laws

namespace Cert.Hand.PreDecode

open Idealize.ShloMosaic
open Cert.Pre_finite_inputs
open scoped BigOperators

/-- A rank-zero shape has exactly one index. -/
instance : Subsingleton S_.Idx := ⟨fun a b => funext fun d => d.elim0⟩

/-- The f32 word 0x7F800000 is +∞. -/
theorem ofBits_inf : Ideal.ofBits .f32 0x7F800000#32 = (⊤ : EReal) := by
  simp [Ideal.ofBits, Ideal.ieee]

/-- An ordered less-than that came out true: the left side is below the right. -/
theorem lt_of_cmp_olt {a b : EReal} (h : Ideal.cmp .olt a b = 1#1) : a < b := by
  by_cases hab : a < b
  · exact hab
  · simp [Ideal.cmp, hab] at h

/-- An unordered not-equal that came out true: the two sides differ. -/
theorem ne_of_cmp_une {a b : EReal} (h : Ideal.cmp .une a b = 1#1) : a ≠ b := by
  by_cases hab : a = b
  · simp [Ideal.cmp, hab] at h
  · exact hab

/-- If every entry of an array, of any shape, is below +∞ in absolute value, then every entry is a real number. -/
theorem isReal_of_all {s : Shape} {axes : List (Fin s.rank)} (hr : s.ReducesTo axes S_) (hu : 0 < S_.numel)
    (bc : S_.BroadcastsInDim s (![] : Fin 0 → Fin s.rank)) (x : FVec Ideal s .f32)
    (e : Host.reduce IntOp.andi
          (cmpf .olt (Host.absf x) (broadcastInDim s ![] bc (constant S_ .f32 0x7F800000#32)))
          (constantI S_ 1 1#1) hr hu ValueIdx.ix0 = 1#1)
    (i : s.Idx) : Cert.Hand.IsReal (x i) := by
  have h1 := Host.reduce_andi_all _ _ hr hu _ e i
  have h2 : Ideal.cmp .olt (max (x i : EReal) (-(x i))) (Ideal.ofBits .f32 0x7F800000#32) = 1#1 := h1
  rw [ofBits_inf] at h2
  exact Cert.Hand.isReal_of_abs_lt_top (lt_of_cmp_olt h2)

/-- If, over a [64, 512, 512] array, every sum along the last axis plus the constant `c` differs from zero,
    then for each `(b, p)` the sum `∑ k, x (b, p, k)` plus `c` is not zero. -/
theorem rowsum_ne_of_all (hr2 : S64x512x512.ReducesTo [2] S64x512) (hu : 0 < S_.numel)
    (bc : S_.BroadcastsInDim S64x512 (![] : Fin 0 → Fin S64x512.rank)) (hr : S64x512.ReducesTo [0, 1] S_)
    (x : FVec Ideal S64x512x512 .f32)
    (e : Host.reduce IntOp.andi
          (cmpf .une
            (addf (Host.reduceAdd x (constant S_ .f32 0x00000000#32) hr2 hu)
              (broadcastInDim S64x512 ![] bc (constant S_ .f32 0x2EDBE6FF#32)))
            (broadcastInDim S64x512 ![] bc (constant S_ .f32 0x00000000#32)))
          (constantI S_ 1 1#1) hr hu ValueIdx.ix0 = 1#1)
    (b : Fin 64) (p : Fin 512) :
    (∑ k : Fin 512, x (ValueIdx.ix3 b p k)) + Ideal.ofBits .f32 0x2EDBE6FF#32 ≠ 0 := by
  have h1 := Host.reduce_andi_all _ _ hr hu _ e (ValueIdx.ix2 b p)
  have h2 : Ideal.cmp .une
      (Ideal.hostReduceAdd hr2 x (Ideal.ofBits .f32 0x00000000#32) (ValueIdx.ix2 b p)
        + Ideal.ofBits .f32 0x2EDBE6FF#32)
      (Ideal.ofBits .f32 0x00000000#32) = 1#1 := h1
  rw [Ideal.hostReduceAdd_single hr2 (by decide), Ideal.ofBits_zero_f32, zero_add] at h2
  have h3 := ne_of_cmp_une h2
  intro hz
  apply h3
  rw [← hz]
  refine congrArg (· + _) (Finset.sum_congr rfl fun k _ => ?_)
  exact congrArg x (funext fun a => Fin.ext (by match a with | ⟨0, _⟩ => rfl | ⟨1, _⟩ => rfl | ⟨2, _⟩ => rfl))

/-- The precondition read back. If the precondition holds of the sixteen argument arrays, then every entry of every
    array is a real number, and for each of the three adjacency arrays (the fifth, sixth and seventh arguments)
    and each `(b, p)`, the sum `∑ k, x (b, p, k)` plus the constant 1e-10 is not zero. -/
theorem decode [Facts]
    (x0 : FVec Ideal S64x512x512 .f32)
    (x1 : FVec Ideal S64x512x512 .f32)
    (x2 : FVec Ideal S64x512 .f32)
    (x3 : FVec Ideal S64x512 .f32)
    (x4 : FVec Ideal S64x512x512 .f32)
    (x5 : FVec Ideal S64x512x512 .f32)
    (x6 : FVec Ideal S64x512x512 .f32)
    (x7 : FVec Ideal S64x512x512 .f32)
    (x8 : FVec Ideal S64x512x512 .f32)
    (x9 : FVec Ideal S64x512x512 .f32)
    (x10 : FVec Ideal S6x512x512 .f32)
    (x11 : FVec Ideal S6x512 .f32)
    (x12 : FVec Ideal S3x512x512 .f32)
    (x13 : FVec Ideal S3x512 .f32)
    (x14 : FVec Ideal S3x2x512x512 .f32)
    (x15 : FVec Ideal S3x2x512 .f32)
    (h : Cert.Pre_finite_inputs.fn (F := Ideal) x0 x1 x2 x3 x4 x5 x6 x7 x8 x9 x10 x11 x12 x13 x14 x15 = fun _ => 1#1) :
    (∀ i, Cert.Hand.IsReal (x0 i))
      ∧ (∀ i, Cert.Hand.IsReal (x1 i))
      ∧ (∀ i, Cert.Hand.IsReal (x2 i))
      ∧ (∀ i, Cert.Hand.IsReal (x3 i))
      ∧ (∀ i, Cert.Hand.IsReal (x4 i))
      ∧ (∀ i, Cert.Hand.IsReal (x5 i))
      ∧ (∀ i, Cert.Hand.IsReal (x6 i))
      ∧ (∀ i, Cert.Hand.IsReal (x7 i))
      ∧ (∀ i, Cert.Hand.IsReal (x8 i))
      ∧ (∀ i, Cert.Hand.IsReal (x9 i))
      ∧ (∀ i, Cert.Hand.IsReal (x10 i))
      ∧ (∀ i, Cert.Hand.IsReal (x11 i))
      ∧ (∀ i, Cert.Hand.IsReal (x12 i))
      ∧ (∀ i, Cert.Hand.IsReal (x13 i))
      ∧ (∀ i, Cert.Hand.IsReal (x14 i))
      ∧ (∀ i, Cert.Hand.IsReal (x15 i))
      ∧ (∀ (b : Fin 64) (p : Fin 512), (∑ k : Fin 512, x4 (ValueIdx.ix3 b p k)) + Ideal.ofBits .f32 0x2EDBE6FF#32 ≠ 0)
      ∧ (∀ (b : Fin 64) (p : Fin 512), (∑ k : Fin 512, x5 (ValueIdx.ix3 b p k)) + Ideal.ofBits .f32 0x2EDBE6FF#32 ≠ 0)
      ∧ (∀ (b : Fin 64) (p : Fin 512), (∑ k : Fin 512, x6 (ValueIdx.ix3 b p k)) + Ideal.ofBits .f32 0x2EDBE6FF#32 ≠ 0) := by
  have h0 := congrFun h ValueIdx.ix0
  dsimp only [fn, fn_part1, fn_part2, fn_part3, fn_part4, fn_part5] at h0
  simp only [andi, IntOp.andi_eq_one] at h0
  obtain ⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, r4⟩, r5⟩, r6⟩ := h0
  exact ⟨fun i => isReal_of_all _ _ _ x0 e0 i,
    fun i => isReal_of_all _ _ _ x1 e1 i,
    fun i => isReal_of_all _ _ _ x2 e2 i,
    fun i => isReal_of_all _ _ _ x3 e3 i,
    fun i => isReal_of_all _ _ _ x4 e4 i,
    fun i => isReal_of_all _ _ _ x5 e5 i,
    fun i => isReal_of_all _ _ _ x6 e6 i,
    fun i => isReal_of_all _ _ _ x7 e7 i,
    fun i => isReal_of_all _ _ _ x8 e8 i,
    fun i => isReal_of_all _ _ _ x9 e9 i,
    fun i => isReal_of_all _ _ _ x10 e10 i,
    fun i => isReal_of_all _ _ _ x11 e11 i,
    fun i => isReal_of_all _ _ _ x12 e12 i,
    fun i => isReal_of_all _ _ _ x13 e13 i,
    fun i => isReal_of_all _ _ _ x14 e14 i,
    fun i => isReal_of_all _ _ _ x15 e15 i,
    fun b p => rowsum_ne_of_all _ _ _ _ x4 r4 b p,
    fun b p => rowsum_ne_of_all _ _ _ _ x5 r5 b p,
    fun b p => rowsum_ne_of_all _ _ _ _ x6 r6 b p⟩

end Cert.Hand.PreDecode
-- ==== Proof.PreFacts.lean ====
/-
  What the precondition says of one batch element.

  Every array of batch element `b` has real entries, and for each of its three adjacency matrices every row sum plus
  the constant 1e-10 is not zero. Both follow entry by entry from the precondition read back over the whole arrays:
  an entry of a batch element's array is an entry of the whole array. The two float constants the network uses, 1 and
  1e-10, are real numbers: their exponent fields are not all ones, and every such pattern denotes a real number.
-/
import proofs.«144723_j60885456388892_2_alg».proof.Proof.PreDecode
import proofs.«144723_j60885456388892_2_alg».proof.Proof.Inputs

namespace Cert.Hand.PreFacts

open Idealize.ShloMosaic Idealize.ShloMosaic.ValueIdx
open Cert.Pre_finite_inputs
open scoped BigOperators

/-- A pattern whose exponent field is not all ones denotes a real number: a zero or subnormal
    `±T · 2^(1 - bias - m)`, or a normal `±(2^m + T) · 2^(E - bias - m)`. -/
theorem isReal_ieee {e m w : Nat} (b : BitVec w) (h : (b.extractLsb' m e).toNat ≠ 2 ^ e - 1) :
    Cert.Hand.IsReal (Ideal.ieee e m b) := by
  unfold Ideal.ieee
  simp only [if_neg h]
  split_ifs <;> exact ⟨_, rfl⟩

/-- The f32 pattern 0x3F800000 (the number 1) is a real number. -/
theorem one_real : Cert.Hand.IsReal (Ideal.ofBits .f32 0x3F800000#32) :=
  isReal_ieee (e := 8) (m := 23) (0x3F800000#32 : BitVec 32) (by decide)

/-- The f32 pattern 0x2EDBE6FF (about 1e-10) is a real number. -/
theorem eps_real : Cert.Hand.IsReal (Ideal.ofBits .f32 0x2EDBE6FF#32) :=
  isReal_ieee (e := 8) (m := 23) (0x2EDBE6FF#32 : BitVec 32) (by decide)

/-- The precondition at batch element `b`: all of its arrays have real entries, and for each of its three adjacency
    matrices no row sum plus 1e-10 is zero. -/
theorem facts [Cert.Pre_finite_inputs.Facts]
    (x0 : FVec Ideal S64x512x512 .f32)
    (x1 : FVec Ideal S64x512x512 .f32)
    (x2 : FVec Ideal S64x512 .f32)
    (x3 : FVec Ideal S64x512 .f32)
    (x4 : FVec Ideal S64x512x512 .f32)
    (x5 : FVec Ideal S64x512x512 .f32)
    (x6 : FVec Ideal S64x512x512 .f32)
    (x7 : FVec Ideal S64x512x512 .f32)
    (x8 : FVec Ideal S64x512x512 .f32)
    (x9 : FVec Ideal S64x512x512 .f32)
    (x10 : FVec Ideal S6x512x512 .f32)
    (x11 : FVec Ideal S6x512 .f32)
    (x12 : FVec Ideal S3x512x512 .f32)
    (x13 : FVec Ideal S3x512 .f32)
    (x14 : FVec Ideal S3x2x512x512 .f32)
    (x15 : FVec Ideal S3x2x512 .f32)
    (h : Cert.Pre_finite_inputs.fn (F := Ideal) x0 x1 x2 x3 x4 x5 x6 x7 x8 x9 x10 x11 x12 x13 x14 x15 = fun _ => 1#1) (b : Fin 64) :
    (Cert.Hand.batchInputs x0 x1 x2 x3 x4 x5 x6 x7 x8 x9 x10 x11 x12 x13 x14 x15 b).Real
      ∧ (∀ i, Cert.Hand.Spec.rowsum (Cert.Hand.batchInputs x0 x1 x2 x3 x4 x5 x6 x7 x8 x9 x10 x11 x12 x13 x14 x15 b).adj1 i + Ideal.ofBits .f32 0x2EDBE6FF#32 ≠ 0)
      ∧ (∀ i, Cert.Hand.Spec.rowsum (Cert.Hand.batchInputs x0 x1 x2 x3 x4 x5 x6 x7 x8 x9 x10 x11 x12 x13 x14 x15 b).adj2 i + Ideal.ofBits .f32 0x2EDBE6FF#32 ≠ 0)
      ∧ (∀ i, Cert.Hand.Spec.rowsum (Cert.Hand.batchInputs x0 x1 x2 x3 x4 x5 x6 x7 x8 x9 x10 x11 x12 x13 x14 x15 b).adj3 i + Ideal.ofBits .f32 0x2EDBE6FF#32 ≠ 0) := by
  obtain ⟨h0, h1, h2, h3, h4, h5, h6, h7, h8, h9, h10, h11, h12, h13, h14, h15, r4, r5, r6⟩ := Cert.Hand.PreDecode.decode x0 x1 x2 x3 x4 x5 x6 x7 x8 x9 x10 x11 x12 x13 x14 x15 h
  refine ⟨?_, fun i => r4 b i, fun i => r5 b i, fun i => r6 b i⟩
  exact
    { node := fun i j => h0 (ix3 b i j)
      rela := fun i j => h1 (ix3 b i j)
      am := fun i => h2 (ix2 b i)
      rm := fun i => h3 (ix2 b i)
      adj1 := fun i j => h4 (ix3 b i j)
      adj2 := fun i j => h5 (ix3 b i j)
      adj3 := fun i j => h6 (ix3 b i j)
      rsub := fun i j => h7 (ix3 b i j)
      robj := fun i j => h8 (ix3 b i j)
      rn2r := fun i j => h9 (ix3 b i j)
      wnnT := fun k d o => h10 (ix3 k o d)
      bnn := fun k o => h11 (ix2 k o)
      wnrT := fun k d o => h12 (ix3 k o d)
      bnr := fun k o => h13 (ix2 k o)
      wrT := fun k l d o => h14 (ix4 k l o d)
      br := fun k l o => h15 (ix3 k l o) }

end Cert.Hand.PreFacts
-- ==== Proof.lean ====
/-
  The kernel and the reference compute the same two tables, on every batch element.

  Both programs run three rounds of message passing over a table of nodes and a table of relations, for each of 64
  batch elements. A message from an adjacency matrix `a` to a table `x` is the product `a x` with row `i` scaled
  by `1 / (∑ⱼ a i j + ε)`; every message and every plain product goes through an affine layer whose rows are scaled by
  a mask, a round adds the layers' outputs to the table and clamps at zero from below.
  The two programs differ in where the row scale is applied. One scales the rows of the product. The other scales
  the rows of the adjacency first, by the same scale spelt `v + g - g` with `g = -(v · d) · v`. On real entries with
  non-zero denominators these agree: `v` and `g` are real numbers, so `v + g - g = v`, and a real factor moves across
  a finite sum of real terms. At an infinite entry or a zero denominator the scale is infinite and neither step holds;
  the precondition (every entry finite, every row sum plus ε non-zero) rules that out, and real entries stay real
  through the rounds, so the agreement holds at every round.
-/
import proofs.«144723_j60885456388892_2_alg».proof.Defs
import proofs.«144723_j60885456388892_2_alg».proof.Proof.Gen.Kernel
import proofs.«144723_j60885456388892_2_alg».proof.Proof.Gen.Kernel.Skeleton
import proofs.«144723_j60885456388892_2_alg».proof.Proof.Gen.Kernel.Launch
import proofs.«144723_j60885456388892_2_alg».proof.Proof.Gen.Kernel.Points
import proofs.«144723_j60885456388892_2_alg».proof.Proof.Gen.Kernel.Frame
import proofs.«144723_j60885456388892_2_alg».proof.Proof.Gen.KernelIdeal
import proofs.«144723_j60885456388892_2_alg».proof.Proof.Gen.KernelIdeal.Skeleton
import proofs.«144723_j60885456388892_2_alg».proof.Proof.Gen.KernelIdeal.Launch
import proofs.«144723_j60885456388892_2_alg».proof.Proof.Gen.KernelIdeal.Points
import proofs.«144723_j60885456388892_2_alg».proof.Proof.Gen.KernelIdeal.Frame
import proofs.«144723_j60885456388892_2_alg».proof.Proof.Gen.ReferenceIdeal
import proofs.«144723_j60885456388892_2_alg».proof.Proof.Gen.Pre_finite_inputs
import proofs.«144723_j60885456388892_2_alg».proof.Proof.Gen.KernelIdeal.Value
import proofs.«144723_j60885456388892_2_alg».proof.Proof.RefRunPatched
import proofs.«144723_j60885456388892_2_alg».proof.Proof.RefValue
import proofs.«144723_j60885456388892_2_alg».proof.Proof.KRun
import proofs.«144723_j60885456388892_2_alg».proof.Proof.PreFacts
import Idealize.ShloMosaic.Adequacy
import Idealize.ShloMosaic.Init

noncomputable section

namespace Cert.Proof

open Idealize.ShloMosaic Idealize.ShloMosaic.ValueIdx Idealize.SL.Sem

/-! ## The runs -/

theorem frame_k : Cert.frame_Kernel := fun m ρ _ => Cert.Kernel.Gen.frame m ρ

theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-! ## The reference's results are the kernel's -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hpre : Cert.Pre_KernelIdeal m)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
include hpre hagree

/-- The reference's node result is the node table of every batch element after the three rounds, as the kernel leaves
    it: entry `(b, i, j)` is the reference's spelling of batch element `b`'s table, which scales the adjacency's rows
    first; on the precondition's real entries and non-zero denominators that is the spelling that scales the
    product's rows. -/
theorem ref_node_eq (c : Dev Cert.KernelIdeal.nD) :
    Cert.ReferenceIdeal.ValueP.res_main_v251 (F := Ideal) m' c = Cert.Hand.K.G16 m c := by
  funext idx
  obtain ⟨b, i, j, rfl⟩ : ∃ (b : Fin 64) (i j : Fin 512), idx = ix3 b i j := ⟨idx 0, idx 1, idx 2, eq_ix3 idx⟩
  refine (Cert.Hand.Ref.ref_node3 m' c b i j).trans ?_
  rw [Cert.Hand.K.G16_apply]
  obtain ⟨a0, a1, a2, a3, a4, a5, a6, a7, a8, a9, a10, a11, a12, a13, a14, a15⟩ := hagree c
  rw [a0, a1, a2, a3, a4, a5, a6, a7, a8, a9, a10, a11, a12, a13, a14, a15]
  obtain ⟨hI, h1, h2, h3⟩ := Cert.Hand.PreFacts.facts _ _ _ _ _ _ _ _ _ _ _ _ _ _ _ _ (hpre c) b
  exact congrFun (congrFun (Cert.Hand.Spec.node3_eq Cert.Hand.PreFacts.one_real Cert.Hand.PreFacts.eps_real hI h1 h2 h3) i) j

/-- The reference's relation result is the relation table of every batch element after the three rounds, as the kernel
    leaves it. -/
theorem ref_rela_eq (c : Dev Cert.KernelIdeal.nD) :
    Cert.ReferenceIdeal.ValueP.res_main_v278 (F := Ideal) m' c = Cert.Hand.K.G17 m c := by
  funext idx
  obtain ⟨b, i, j, rfl⟩ : ∃ (b : Fin 64) (i j : Fin 512), idx = ix3 b i j := ⟨idx 0, idx 1, idx 2, eq_ix3 idx⟩
  refine (Cert.Hand.Ref.ref_rela3 m' c b i j).trans ?_
  rw [Cert.Hand.K.G17_apply]
  obtain ⟨a0, a1, a2, a3, a4, a5, a6, a7, a8, a9, a10, a11, a12, a13, a14, a15⟩ := hagree c
  rw [a0, a1, a2, a3, a4, a5, a6, a7, a8, a9, a10, a11, a12, a13, a14, a15]
  obtain ⟨hI, h1, h2, h3⟩ := Cert.Hand.PreFacts.facts _ _ _ _ _ _ _ _ _ _ _ _ _ _ _ _ (hpre c) b
  exact congrFun (congrFun (Cert.Hand.Spec.rela3_eq Cert.Hand.PreFacts.one_real Cert.Hand.PreFacts.eps_real hI h1 h2 h3) i) j

end

/-- From memories that agree on the sixteen arguments, under the precondition, both programs run and end with the same
    two tables and their arguments unchanged. -/
theorem algebraic : Cert.algebraic_KernelIdeal_ReferenceIdeal := by
  intro m ρ m' ρ' hpre hagree
  refine ⟨fun c => Cert.Hand.K.G16 m c, fun c => Cert.Hand.K.G17 m c, Cert.Hand.K.kernel_run m ρ, ?_⟩
  exact (θ_run Cert.ReferenceIdeal.defs _ _).mono
    (fun _ h c => ⟨(h c).1.trans (ref_node_eq m m' hpre hagree c), (h c).2.1.trans (ref_rela_eq m m' hpre hagree c), (h c).2.2⟩)
    (Cert.ReferenceIdeal.ValueP.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
